-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S40x64 : Shape := ⟨2, ![40, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S2x1600000 : Shape := ⟨2, ![2, 1600000]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S40x64 : S_.BroadcastsInDim S40x64 (![] : Fin 0 → Fin S40x64.rank)
  reducesTo_S40x64_S_d0_1 : S40x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S16 .f32) (main_arg12 : FVec F S32x16 .f32) (main_arg13 : FVec F S16 .f32) (main_v48 : IVec S_ 1) (main_v49 : FVec F S32x16 .f32) (main_v50 : FVec F S32x16 .f32) : IVec S_ 1 :=
  let main_v51 : IVec S32x16 1 := cmpf .olt main_v49 main_v50
  let main_c_19 : IVec S_ 1 := constantI S_ 1 1#1
  let main_v52 : IVec S_ 1 := (fun x v => Host.reduce IntOp.andi x v reducesTo_S32x16_S_d0_1 h_S_) main_v51 main_c_19
  let main_v53 : IVec S_ 1 := andi main_v48 main_v52
  let main_v54 : FVec F S16 .f32 := Host.absf main_arg11
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S32x16 .f32 := Host.absf main_arg12
  let main_cst_22 : FVec F S_ .f32 := constant S_ .f32 0x7F800000#32
  let main_v60 : FVec F S32x16 .f32 := broadcastInDim S32x16 ![] bcast_S_S32x16 main_cst_22
  let main_v61 : IVec S32x16 1 := cmpf .olt main_v59 main_v60
  let main_c_23 : IVec S_ 1 := constantI S_ 1 1#1
  let main_v62 : IVec S_ 1 := (fun x v => Host.reduce IntOp.andi x v reducesTo_S32x16_S_d0_1 h_S_) main_v61 main_c_23
  let main_v63 : IVec S_ 1 := andi main_v58 main_v62
  let main_v64 : FVec F S16 .f32 := Host.absf main_arg13
  let main_cst_24 : FVec F S_ .f32 := constant S_ .f32 0x7F800000#32
  let main_v65 : FVec F S16 .f32 := broadcastInDim S16 ![] bcast_S_S16 main_cst_24
  let main_v66 : IVec S16 1 := cmpf .olt main_v64 main_v65
  let main_c_25 : IVec S_ 1 := constantI S_ 1 1#1
  let main_v67 : IVec S_ 1 := (fun x v => Host.reduce IntOp.andi x v reducesTo_S16_S_d0 h_S_) main_v66 main_c_25
  fn_part4 (F := F) main_v63 main_v67

def fn_part2 {F : FTy → Type} [FloatOps F] (main_arg7 : FVec F S32 .f32) (main_arg8 : FVec F S64x32 .f32) (main_arg9 : FVec F S32 .f32) (main_arg10 : FVec F S32x16 .f32) (main_arg11 : FVec F S16 .f32) (main_arg12 : FVec F S32x16 .f32) (main_arg13 : FVec F S16 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S64x32 .f32 := Host.absf main_arg8
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x16 .f32 := Host.absf main_arg10
  let main_cst_18 : FVec F S_ .f32 := constant S_ .f32 0x7F800000#32
  let main_v50 : FVec F S32x16 .f32 := broadcastInDim S32x16 ![] bcast_S_S32x16 main_cst_18
  fn_part3 (F := F) main_arg11 main_arg12 main_arg13 main_v48 main_v49 main_v50

def fn_part1 {F : FTy → Type} [FloatOps F] (main_arg4 : FVec F S64x32 .f32) (main_arg5 : FVec F S32 .f32) (main_arg6 : FVec F S64x32 .f32) (main_arg7 : FVec F S32 .f32) (main_arg8 : FVec F S64x32 .f32) (main_arg9 : FVec F S32 .f32) (main_arg10 : FVec F S32x16 .f32) (main_arg11 : FVec F S16 .f32) (main_arg12 : FVec F S32x16 .f32) (main_arg13 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg4
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x32 .f32 := Host.absf main_arg6
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S100000x64 .f32) (main_arg1 : FVec F S40x64 .f32) (main_arg2 : FVec F S64x64 .f32) (main_arg3 : FVec F S64 .f32) (main_arg4 : FVec F S64x32 .f32) (main_arg5 : FVec F S32 .f32) (main_arg6 : FVec F S64x32 .f32) (main_arg7 : FVec F S32 .f32) (main_arg8 : FVec F S64x32 .f32) (main_arg9 : FVec F S32 .f32) (main_arg10 : FVec F S32x16 .f32) (main_arg11 : FVec F S16 .f32) (main_arg12 : FVec F S32x16 .f32) (main_arg13 : FVec F S16 .f32) (main_arg14 : IVec S2x1600000 32) (main_arg15 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S40x64 .f32 := Host.absf main_arg1
  let main_cst_0 : FVec F S_ .f32 := constant S_ .f32 0x7F800000#32
  let main_v5 : FVec F S40x64 .f32 := broadcastInDim S40x64 ![] bcast_S_S40x64 main_cst_0
  let main_v6 : IVec S40x64 1 := cmpf .olt main_v4 main_v5
  let main_c_1 : IVec S_ 1 := constantI S_ 1 1#1
  let main_v7 : IVec S_ 1 := (fun x v => Host.reduce IntOp.andi x v reducesTo_S40x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_v13 main_v16
-- ==== Kernel.lean ====
abbrev S100000x64 : Shape := ⟨2, ![100000, 64]⟩
abbrev S40x64 : Shape := ⟨2, ![40, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S2x1600000 : Shape := ⟨2, ![2, 1600000]⟩
abbrev S1600000 : Shape := ⟨1, ![1600000]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S8000x64 : Shape := ⟨2, ![8000, 64]⟩
abbrev S8000 : Shape := ⟨1, ![8000]⟩
abbrev S8000x1 : Shape := ⟨2, ![8000, 1]⟩
abbrev S1x32 : Shape := ⟨2, ![1, 32]⟩
abbrev S100000x32 : Shape := ⟨2, ![100000, 32]⟩
abbrev S10000x64 : Shape := ⟨2, ![10000, 64]⟩
abbrev S10000x32 : Shape := ⟨2, ![10000, 32]⟩
abbrev S10000 : Shape := ⟨1, ![10000]⟩
abbrev S10000x1 : Shape := ⟨2, ![10000, 1]⟩
abbrev S1600000x32 : Shape := ⟨2, ![1600000, 32]⟩
abbrev S8000x32 : Shape := ⟨2, ![8000, 32]⟩
abbrev S1x16 : Shape := ⟨2, ![1, 16]⟩
abbrev S100000x16 : Shape := ⟨2, ![100000, 16]⟩
abbrev S10000x16 : Shape := ⟨2, ![10000, 16]⟩
abbrev S100000x112 : Shape := ⟨2, ![100000, 112]⟩

abbrev nBuf : Space → Nat
  | .hbm => 84
  | .vmem => 40
  | .smem => 0
  | _ => 0

abbrev bufTy : (tb : Table) → Fin (tcTables nBuf tb) → BufTy
  | .hbm, ⟨0, _⟩ => ⟨S100000x64, .f32⟩
  | .hbm, ⟨1, _⟩ => ⟨S40x64, .f32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S64x32, .f32⟩
  | .hbm, ⟨7, _⟩ => ⟨S32, .f32⟩
  | .hbm, ⟨8, _⟩ => ⟨S64x32, .f32⟩
  | .hbm, ⟨9, _⟩ => ⟨S32, .f32⟩
  | .hbm, ⟨10, _⟩ => ⟨S32x16, .f32⟩
  | .hbm, ⟨11, _⟩ => ⟨S16, .f32⟩
  | .hbm, ⟨12, _⟩ => ⟨S32x16, .f32⟩
  | .hbm, ⟨13, _⟩ => ⟨S16, .f32⟩
  | .hbm, ⟨14, _⟩ => ⟨S2x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x64, .f32⟩
  | .hbm, ⟨47, _⟩ => ⟨S1x64, .f32⟩
  | .hbm, ⟨48, _⟩ => ⟨S1600000x64, .f32⟩
  | .hbm, ⟨49, _⟩ => ⟨S_, .f32⟩
  | .hbm, ⟨50, _⟩ => ⟨S100000x64, .f32⟩
  | .hbm, ⟨51, _⟩ => ⟨S1600000x1, .i32⟩
  | .hbm, ⟨52, _⟩ => ⟨S100000x64, .f32⟩
  | .hbm, ⟨53, _⟩ => ⟨S1x32, .f32⟩
  | .hbm, ⟨54, _⟩ => ⟨S1x32, .f32⟩
  | .hbm, ⟨55, _⟩ => ⟨S100000x32, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x32, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x32, .f32⟩
  | .hbm, ⟨74, _⟩ => ⟨S1x32, .f32⟩
  | .hbm, ⟨75, _⟩ => ⟨S1600000x32, .f32⟩
  | .hbm, ⟨76, _⟩ => ⟨S_, .f32⟩
  | .hbm, ⟨77, _⟩ => ⟨S100000x32, .f32⟩
  | .hbm, ⟨78, _⟩ => ⟨S1600000x1, .i32⟩
  | .hbm, ⟨79, _⟩ => ⟨S100000x32, .f32⟩
  | .hbm, ⟨80, _⟩ => ⟨S1x16, .f32⟩
  | .hbm, ⟨81, _⟩ => ⟨S1x16, .f32⟩
  | .hbm, ⟨82, _⟩ => ⟨S100000x16, .f32⟩
  | .hbm, ⟨83, _⟩ => ⟨S100000x112, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x64, .f32⟩
  | .local _ .vmem, ⟨5, _⟩ => ⟨S8000x64, .f32⟩
  | .local _ .vmem, ⟨6, _⟩ => ⟨S64x64, .f32⟩
  | .local _ .vmem, ⟨7, _⟩ => ⟨S1x64, .f32⟩
  | .local _ .vmem, ⟨8, _⟩ => ⟨S8000x64, .f32⟩
  | .local _ .vmem, ⟨9, _⟩ => ⟨S8000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S64x32, .f32⟩
  | .local _ .vmem, ⟨15, _⟩ => ⟨S1x32, .f32⟩
  | .local _ .vmem, ⟨16, _⟩ => ⟨S64x32, .f32⟩
  | .local _ .vmem, ⟨17, _⟩ => ⟨S1x32, .f32⟩
  | .local _ .vmem, ⟨18, _⟩ => ⟨S10000x32, .f32⟩
  | .local _ .vmem, ⟨19, _⟩ => ⟨S10000x32, .f32⟩
  | .local _ .vmem, ⟨20, _⟩ => ⟨S8000x32, .f32⟩
  | .local _ .vmem, ⟨21, _⟩ => ⟨S8000x32, .f32⟩
  | .local _ .vmem, ⟨22, _⟩ => ⟨S8000x32, .f32⟩
  | .local _ .vmem, ⟨23, _⟩ => ⟨S8000x32, .f32⟩
  | .local _ .vmem, ⟨24, _⟩ => ⟨S8000x64, .f32⟩
  | .local _ .vmem, ⟨25, _⟩ => ⟨S8000x64, .f32⟩
  | .local _ .vmem, ⟨26, _⟩ => ⟨S64x32, .f32⟩
  | .local _ .vmem, ⟨27, _⟩ => ⟨S1x32, .f32⟩
  | .local _ .vmem, ⟨28, _⟩ => ⟨S8000x32, .f32⟩
  | .local _ .vmem, ⟨29, _⟩ => ⟨S8000x32, .f32⟩
  | .local _ .vmem, ⟨30, _⟩ => ⟨S10000x32, .f32⟩
  | .local _ .vmem, ⟨31, _⟩ => ⟨S10000x32, .f32⟩
  | .local _ .vmem, ⟨32, _⟩ => ⟨S10000x32, .f32⟩
  | .local _ .vmem, ⟨33, _⟩ => ⟨S10000x32, .f32⟩
  | .local _ .vmem, ⟨34, _⟩ => ⟨S32x16, .f32⟩
  | .local _ .vmem, ⟨35, _⟩ => ⟨S1x16, .f32⟩
  | .local _ .vmem, ⟨36, _⟩ => ⟨S32x16, .f32⟩
  | .local _ .vmem, ⟨37, _⟩ => ⟨S1x16, .f32⟩
  | .local _ .vmem, ⟨38, _⟩ => ⟨S10000x16, .f32⟩
  | .local _ .vmem, ⟨39, _⟩ => ⟨S10000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_5 : Ref sig .tc := ⟨.hbm, 56, rfl⟩
abbrev main_v33 : Ref sig .tc := ⟨.hbm, 57, rfl⟩
abbrev main_v34 : Ref sig .tc := ⟨.hbm, 58, rfl⟩
abbrev main_c_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_7 : Ref sig .tc := ⟨.hbm, 65, rfl⟩
abbrev main_v40 : Ref sig .tc := ⟨.hbm, 66, rfl⟩
abbrev main_v41 : Ref sig .tc := ⟨.hbm, 67, rfl⟩
abbrev main_c_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S32x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S32x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x16 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S10000x16 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  bitsLt_bf16_f32 : FTy.bits .bf16 < FTy.bits .f32
  broadcasts_S1x64_S8000x64 : S1x64.Broadcasts S8000x64
  reduces_S8000x64_S8000 : S8000x64.Reduces [1] S8000
  shapeCasts_S8000_S8000x1 : S8000.ShapeCasts S8000x1
  broadcasts_S8000x1_S8000x64 : S8000x1.Broadcasts S8000x64
  bcast_S_S100000x64 : S_.BroadcastsInDim S100000x64 (![] : Fin 0 → Fin S100000x64.rank)
  shapeCasts_S32_S1x32 : S32.ShapeCasts S1x32
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  reduces_S10000x32_S10000 : S10000x32.Reduces [1] S10000
  shapeCasts_S10000_S10000x1 : S10000.ShapeCasts S10000x1
  broadcasts_S10000x1_S10000x32 : S10000x1.Broadcasts S10000x32
  inb_S10000x32_S10000x32_0_0 : ∀ a, (![0, 0] : Fin 2 → Nat) a + S10000x32.size a ≤ S10000x32.size a
  h_S10000x32 : 0 < S10000x32.numel
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  broadcasts_S1x32_S8000x32 : S1x32.Broadcasts S8000x32
  reduces_S8000x32_S8000 : S8000x32.Reduces [1] S8000
  broadcasts_S8000x1_S8000x32 : S8000x1.Broadcasts S8000x32
  bcast_S_S100000x32 : S_.BroadcastsInDim S100000x32 (![] : Fin 0 → Fin S100000x32.rank)
  shapeCasts_S16_S1x16 : S16.ShapeCasts S1x16
  shapeCasts_S10000x32_S10000x32 : S10000x32.ShapeCasts S10000x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  reduces_S10000x16_S10000 : S10000x16.Reduces [1] S10000
  broadcasts_S10000x1_S10000x16 : S10000x1.Broadcasts S10000x16
  inb_S10000x16_S10000x16_0_0 : ∀ a, (![0, 0] : Fin 2 → Nat) a + S10000x16.size a ≤ S10000x16.size a
  h_S10000x16 : 0 < S10000x16.numel
  concatenates_S100000x64_S100000x32_S100000x16_S100000x112_d1 : Shape.Concatenates [S100000x64, S100000x32, S100000x16] S100000x112 1
  gather_S40x64_S1600000x1_S1600000x64_1_0_n_n_0_1_164_wf : GatherDims.WF S40x64 S1600000x1 S1600000x64 [1] [0] [] [0] [] 1 ![1, 64]
  gather_S100000x64_S1600000x1_S1600000x64_1_0_n_n_0_1_164_wf : GatherDims.WF S100000x64 S1600000x1 S1600000x64 [1] [0] [] [0] [] 1 ![1, 64]
  dot_S8000x64_S64x64_S8000x64_1_0_0_1_n_n_wf : DotDims.WF S8000x64 S64x64 S8000x64 [1] [0] [0] [1] [] []
  scatter_S100000x64_S1600000x1_S1600000x64_1_0_0_1_wf : ScatterDims.WF S100000x64 S1600000x1 S1600000x64 [1] [0] [0] 1
  dot_S10000x64_S64x32_S10000x32_1_0_0_1_n_n_wf : DotDims.WF S10000x64 S64x32 S10000x32 [1] [0] [0] [1] [] []
  gather_S100000x32_S1600000x1_S1600000x32_1_0_n_n_0_1_132_wf : GatherDims.WF S100000x32 S1600000x1 S1600000x32 [1] [0] [] [0] [] 1 ![1, 32]
  dot_S8000x64_S64x32_S8000x32_1_0_0_1_n_n_wf : DotDims.WF S8000x64 S64x32 S8000x32 [1] [0] [0] [1] [] []
  scatter_S100000x32_S1600000x1_S1600000x32_1_0_0_1_wf : ScatterDims.WF S100000x32 S1600000x1 S1600000x32 [1] [0] [0] 1
  dot_S10000x32_S32x16_S10000x16_1_0_0_1_n_n_wf : DotDims.WF S10000x32 S32x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1600000x64.size a
  hwx0_0 : ∀ i : grid0.Coords, EltTy.bits .f32 = 32 ∨ (Rect.block (s := S1600000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1600000x64.size a
  hwx0_1 : ∀ i : grid0.Coords, EltTy.bits .f32 = 32 ∨ (Rect.block (s := S1600000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S1600000x64.size a
  hwx0_2 : ∀ i : grid0.Coords, EltTy.bits .f32 = 32 ∨ (Rect.block (s := S1600000x64) S8000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x64.size a ≤ S1600000x64.size a
  hwx0_5 : ∀ i : grid0.Coords, EltTy.bits .f32 = 32 ∨ (Rect.block (s := S1600000x64) S8000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x32.size a ≤ S100000x32.size a
  hwx1_6 : ∀ i : grid1.Coords, EltTy.bits .f32 = 32 ∨ (Rect.block (s := S100000x32) S10000x32.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x32.size a ≤ S1600000x32.size a
  hwx2_0 : ∀ i : grid2.Coords, EltTy.bits .f32 = 32 ∨ (Rect.block (s := S1600000x32) S8000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x32.size a ≤ S1600000x32.size a
  hwx2_1 : ∀ i : grid2.Coords, EltTy.bits .f32 = 32 ∨ (Rect.block (s := S1600000x32) S8000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x64.size a ≤ S1600000x64.size a
  hwx2_2 : ∀ i : grid2.Coords, EltTy.bits .f32 = 32 ∨ (Rect.block (s := S1600000x64) S8000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x32.size a ≤ S64x32.size a
  hwx2_3 : ∀ i : grid2.Coords, EltTy.bits .f32 = 32 ∨ (Rect.block (s := S64x32) S64x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8000x32.size a ≤ S1600000x32.size a
  hwx2_5 : ∀ i : grid2.Coords, EltTy.bits .f32 = 32 ∨ (Rect.block (s := S1600000x32) S8000x32.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x32.size a ≤ S100000x32.size a
  hwx3_1 : ∀ i : grid3.Coords, EltTy.bits .f32 = 32 ∨ (Rect.block (s := S100000x32) S10000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x16.size a ≤ S32x16.size a
  hwx3_2 : ∀ i : grid3.Coords, EltTy.bits .f32 = 32 ∨ (Rect.block (s := S32x16) S32x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S32x16.size a ≤ S32x16.size a
  hwx3_4 : ∀ i : grid3.Coords, EltTy.bits .f32 = 32 ∨ (Rect.block (s := S32x16) S32x16.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x16.size a ≤ S1x16.size a
  hwx3_5 : ∀ i : grid3.Coords, EltTy.bits .f32 = 32 ∨ (Rect.block (s := S1x16) S1x16.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x16.size a ≤ S100000x16.size a
  hwx3_6 : ∀ i : grid3.Coords, EltTy.bits .f32 = 32 ∨ (Rect.block (s := S100000x16) S10000x16.size (cc3_transform_6 i) (hinb3_6 i)).WholeWords (EltTy.packing .f32)

variable [Facts₀]

def gather_S40x64_S1600000x1_S1600000x64_1_0_n_n_0_1_164 : GatherDims S40x64 S1600000x1 S1600000x64 where
  offsetDims := [1]
  collapsedSliceDims := [0]
  operandBatchingDims := []
  startIndicesBatchingDims := []
  startIndexMap := [0]
  indexVectorDim := 1
  sliceSizes := ![1, 64]
  wf := gather_S40x64_S1600000x1_S1600000x64_1_0_n_n_0_1_164_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S8000x64_S64x32_S8000x32_1_0_0_1_n_n : DotDims S8000x64 S64x32 S8000x32 where
  lhsContracting := [1]
  rhsContracting := [0]
  lhsNonContracting := [0]
  rhsNonContracting := [1]
  lhsBatch := []
  rhsBatch := []
  wf := dot_S8000x64_S64x32_S8000x32_1_0_0_1_n_n_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf

abbrev win0_0 : Pipeline.Window sig grid0 :=
  Pipeline.Window.ofSpec (Memref.whole main_v17) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S8000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S8000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S10000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v39) S8000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S8000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S8000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S8000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v32) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S10000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S32x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg12) S32x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v53) S1x16.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v54) S10000x16.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x64 : Shape := ⟨2, ![100000, 64]⟩
abbrev S40x64 : Shape := ⟨2, ![40, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S2x1600000 : Shape := ⟨2, ![2, 1600000]⟩
abbrev S1600000 : Shape := ⟨1, ![1600000]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x32 : Shape := ⟨2, ![100000, 32]⟩
abbrev S1x32 : Shape := ⟨2, ![1, 32]⟩
abbrev S100000 : Shape := ⟨1, ![100000]⟩
abbrev S100000x1 : Shape := ⟨2, ![100000, 1]⟩
abbrev S1600000x32 : Shape := ⟨2, ![1600000, 32]⟩
abbrev S100000x16 : Shape := ⟨2, ![100000, 16]⟩
abbrev S1x16 : Shape := ⟨2, ![1, 16]⟩
abbrev S100000x112 : Shape := ⟨2, ![100000, 112]⟩

abbrev nBuf : Space → Nat
  | .hbm => 156
  | .vmem => 0
  | .smem => 0
  | _ => 0

abbrev hbmTy0_0 (i : Nat) : BufTy := match i % 128 with
  | 0 => ⟨S100000x64, .f32⟩
  | 1 => ⟨S40x64, .f32⟩
  | 2 => ⟨S64x64, .f32⟩
  | 3 => ⟨S64, .f32⟩
  | 4 => ⟨S64x32, .f32⟩
  | 5 => ⟨S32, .f32⟩
  | 6 => ⟨S64x32, .f32⟩
  | 7 => ⟨S32, .f32⟩
  | 8 => ⟨S64x32, .f32⟩
  | 9 => ⟨S32, .f32⟩
  | 10 => ⟨S32x16, .f32⟩
  | 11 => ⟨S16, .f32⟩
  | 12 => ⟨S32x16, .f32⟩
  | 13 => ⟨S16, .f32⟩
  | 14 => ⟨S2x1600000, .i32⟩
  | 15 => ⟨S1600000, .i32⟩
  | 16 => ⟨S1x1600000, .i32⟩
  | 17 => ⟨S1600000, .i32⟩
  | 18 => ⟨S1x1600000, .i32⟩
  | 19 => ⟨S1600000, .i32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x64, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x64, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x64, .f32⟩
  | 47 => ⟨S1600000x64, .f32⟩
  | 48 => ⟨S1x64, .f32⟩
  | 49 => ⟨S1600000x64, .f32⟩
  | 50 => ⟨S1600000x64, .f32⟩
  | 51 => ⟨S1600000x64, .f32⟩
  | 52 => ⟨S1600000x64, .f32⟩
  | 53 => ⟨S1600000x64, .f32⟩
  | 54 => ⟨S_, .f32⟩
  | 55 => ⟨S1600000, .f32⟩
  | 56 => ⟨S1600000x1, .f32⟩
  | 57 => ⟨S1600000x64, .f32⟩
  | 58 => ⟨S1600000x64, .f32⟩
  | 59 => ⟨S_, .f32⟩
  | 60 => ⟨S100000x64, .f32⟩
  | 61 => ⟨S1600000x1, .i32⟩
  | 62 => ⟨S100000x64, .f32⟩
  | 63 => ⟨S100000x64, .f32⟩
  | 64 => ⟨S100000x32, .f32⟩
  | 65 => ⟨S1x32, .f32⟩
  | 66 => ⟨S100000x32, .f32⟩
  | 67 => ⟨S100000x32, .f32⟩
  | 68 => ⟨S100000x64, .f32⟩
  | 69 => ⟨S100000x32, .f32⟩
  | 70 => ⟨S100000x32, .f32⟩
  | 71 => ⟨S1x32, .f32⟩
  | 72 => ⟨S100000x32, .f32⟩
  | 73 => ⟨S100000x32, .f32⟩
  | 74 => ⟨S_, .f32⟩
  | 75 => ⟨S_, .f32⟩
  | 76 => ⟨S100000x32, .f32⟩
  | 77 => ⟨S100000x32, .i1⟩
  | 78 => ⟨S_, .f32⟩
  | 79 => ⟨S100000x32, .f32⟩
  | 80 => ⟨S100000x32, .f32⟩
  | 81 => ⟨S100000x32, .f32⟩
  | 82 => ⟨S100000x32, .f32⟩
  | 83 => ⟨S_, .f32⟩
  | 84 => ⟨S100000, .f32⟩
  | 85 => ⟨S100000x1, .f32⟩
  | 86 => ⟨S100000x1, .f32⟩
  | 87 => ⟨S_, .f32⟩
  | 88 => ⟨S100000x1, .f32⟩
  | 89 => ⟨S100000x1, .f32⟩
  | 90 => ⟨S100000x32, .f32⟩
  | 91 => ⟨S100000x32, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x32, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x32, .f32⟩
  | 110 => ⟨S1600000x32, .f32⟩
  | 111 => ⟨S1x32, .f32⟩
  | 112 => ⟨S1600000x32, .f32⟩
  | 113 => ⟨S1600000x32, .f32⟩
  | 114 => ⟨S1600000x32, .f32⟩
  | 115 => ⟨S1600000x32, .f32⟩
  | 116 => ⟨S1600000x32, .f32⟩
  | 117 => ⟨S_, .f32⟩
  | 118 => ⟨S1600000, .f32⟩
  | 119 => ⟨S1600000x1, .f32⟩
  | 120 => ⟨S1600000x32, .f32⟩
  | 121 => ⟨S1600000x32, .f32⟩
  | 122 => ⟨S_, .f32⟩
  | 123 => ⟨S100000x32, .f32⟩
  | 124 => ⟨S1600000x1, .i32⟩
  | 125 => ⟨S100000x32, .f32⟩
  | 126 => ⟨S100000x32, .f32⟩
  | 127 => ⟨S100000x16, .f32⟩
  | _ => ⟨S100000x64, .f32⟩

abbrev hbmTy0_1 (i : Nat) : BufTy := match i % 128 with
  | 0 => ⟨S1x16, .f32⟩
  | 1 => ⟨S100000x16, .f32⟩
  | 2 => ⟨S100000x16, .f32⟩
  | 3 => ⟨S100000x32, .f32⟩
  | 4 => ⟨S100000x16, .f32⟩
  | 5 => ⟨S100000x16, .f32⟩
  | 6 => ⟨S1x16, .f32⟩
  | 7 => ⟨S100000x16, .f32⟩
  | 8 => ⟨S100000x16, .f32⟩
  | 9 => ⟨S_, .f32⟩
  | 10 => ⟨S_, .f32⟩
  | 11 => ⟨S100000x16, .f32⟩
  | 12 => ⟨S100000x16, .i1⟩
  | 13 => ⟨S_, .f32⟩
  | 14 => ⟨S100000x16, .f32⟩
  | 15 => ⟨S100000x16, .f32⟩
  | 16 => ⟨S100000x16, .f32⟩
  | 17 => ⟨S100000x16, .f32⟩
  | 18 => ⟨S_, .f32⟩
  | 19 => ⟨S100000, .f32⟩
  | 20 => ⟨S100000x1, .f32⟩
  | 21 => ⟨S100000x1, .f32⟩
  | 22 => ⟨S_, .f32⟩
  | 23 => ⟨S100000x1, .f32⟩
  | 24 => ⟨S100000x1, .f32⟩
  | 25 => ⟨S100000x16, .f32⟩
  | 26 => ⟨S100000x16, .f32⟩
  | 27 => ⟨S100000x112, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_5 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_6 : Ref sig .tc := ⟨.hbm, 74, rfl⟩
abbrev main_call0_cst : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_v50 : Ref sig .tc := ⟨.hbm, 81, rfl⟩
abbrev main_call1_v0 : Ref sig .tc := ⟨.hbm, 82, rfl⟩
abbrev main_call1_cst : Ref sig .tc := ⟨.hbm, 83, rfl⟩
abbrev main_call1_v1 : Ref sig .tc := ⟨.hbm, 84, rfl⟩
abbrev main_call1_v2 : Ref sig .tc := ⟨.hbm, 85, rfl⟩
abbrev main_v51 : Ref sig .tc := ⟨.hbm, 86, rfl⟩
abbrev main_cst_7 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_c_8 : Ref sig .tc := ⟨.hbm, 92, rfl⟩
abbrev main_v56 : Ref sig .tc := ⟨.hbm, 93, rfl⟩
abbrev main_v57 : Ref sig .tc := ⟨.hbm, 94, rfl⟩
abbrev main_c_9 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_c_10 : Ref sig .tc := ⟨.hbm, 101, rfl⟩
abbrev main_v63 : Ref sig .tc := ⟨.hbm, 102, rfl⟩
abbrev main_v64 : Ref sig .tc := ⟨.hbm, 103, rfl⟩
abbrev main_c_11 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_12 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_13 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_14 : Ref sig .tc := ⟨.hbm, 137, rfl⟩
abbrev main_call2_cst : Ref sig .tc := ⟨.hbm, 138, rfl⟩
abbrev main_call2_v0 : Ref sig .tc := ⟨.hbm, 139, rfl⟩
abbrev main_call2_v1 : Ref sig .tc := ⟨.hbm, 140, rfl⟩
abbrev main_call2_v2 : Ref sig .tc := ⟨.hbm, 141, rfl⟩
abbrev main_call2_v3 : Ref sig .tc := ⟨.hbm, 142, rfl⟩
abbrev main_call2_v4 : Ref sig .tc := ⟨.hbm, 143, rfl⟩
abbrev main_v95 : Ref sig .tc := ⟨.hbm, 144, rfl⟩
abbrev main_call3_v0 : Ref sig .tc := ⟨.hbm, 145, rfl⟩
abbrev main_call3_cst : Ref sig .tc := ⟨.hbm, 146, rfl⟩
abbrev main_call3_v1 : Ref sig .tc := ⟨.hbm, 147, rfl⟩
abbrev main_call3_v2 : Ref sig .tc := ⟨.hbm, 148, rfl⟩
abbrev main_v96 : Ref sig .tc := ⟨.hbm, 149, rfl⟩
abbrev main_cst_15 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  reducesTo_S1600000x64_S1600000_d1 : S1600000x64.ReducesTo [1] S1600000
  h_S_ : 0 < S_.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  reducesTo_S100000x32_S100000_d1 : S100000x32.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x32_0_1 : S100000x1.BroadcastsInDim S100000x32 (![0, 1] : Fin 2 → Fin S100000x32.rank)
  bcast_S1x32_S1600000x32_0_1 : S1x32.BroadcastsInDim S1600000x32 (![0, 1] : Fin 2 → Fin S1600000x32.rank)
  reducesTo_S1600000x32_S1600000_d1 : S1600000x32.ReducesTo [1] S1600000
  bcast_S1600000x1_S1600000x32_0_1 : S1600000x1.BroadcastsInDim S1600000x32 (![0, 1] : Fin 2 → Fin S1600000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  reducesTo_S100000x16_S100000_d1 : S100000x16.ReducesTo [1] S100000
  bcast_S100000x1_S100000x16_0_1 : S100000x1.BroadcastsInDim S100000x16 (![0, 1] : Fin 2 → Fin S100000x16.rank)
  concatenates_S100000x64_S100000x32_S100000x16_S100000x112_d1 : Shape.Concatenates [S100000x64, S100000x32, S100000x16] S100000x112 1
  gather_S40x64_S1600000x1_S1600000x64_1_0_n_n_0_1_164_wf : GatherDims.WF S40x64 S1600000x1 S1600000x64 [1] [0] [] [0] [] 1 ![1, 64]
  gather_S100000x64_S1600000x1_S1600000x64_1_0_n_n_0_1_164_wf : GatherDims.WF S100000x64 S1600000x1 S1600000x64 [1] [0] [] [0] [] 1 ![1, 64]
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  dot_S1600000x64_S64x32_S1600000x32_1_0_0_1_n_n_wf : DotDims.WF S1600000x64 S64x32 S1600000x32 [1] [0] [0] [1] [] []
  scatter_S100000x32_S1600000x1_S1600000x32_1_0_0_1_wf : ScatterDims.WF S100000x32 S1600000x1 S1600000x32 [1] [0] [0] 1
  dot_S100000x32_S32x16_S100000x16_1_0_0_1_n_n_wf : DotDims.WF S100000x32 S32x16 S100000x16 [1] [0] [0] [1] [] []

variable [Facts₀]

def gather_S40x64_S1600000x1_S1600000x64_1_0_n_n_0_1_164 : GatherDims S40x64 S1600000x1 S1600000x64 where
  offsetDims := [1]
  collapsedSliceDims := [0]
  operandBatchingDims := []
  startIndicesBatchingDims := []
  startIndexMap := [0]
  indexVectorDim := 1
  sliceSizes := ![1, 64]
  wf := gather_S40x64_S1600000x1_S1600000x64_1_0_n_n_0_1_164_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S1600000x64_S64x32_S1600000x32_1_0_0_1_n_n : DotDims S1600000x64 S64x32 S1600000x32 where
  lhsContracting := [1]
  rhsContracting := [0]
  lhsNonContracting := [0]
  rhsNonContracting := [1]
  lhsBatch := []
  rhsBatch := []
  wf := dot_S1600000x64_S64x32_S1600000x32_1_0_0_1_n_n_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf

class Facts : Prop extends Facts₀ where

variable [Facts]
-- ==== Proof.K.Body0.lean ====
/- Region 0 of @main (custom_call 0, `cc0__attn_kernel`: the attention body on blocks of 8000 rows of width 64), its class-A half, at any float
   instance `F` and at a PARAMETER `V` — the TensorCore's buffer contents when the region is entered.
   Each window's block at a grid point (`iblk0`); what the body leaves in the output window's staging buffer
   (`out0`), which is the body's one payload of the input blocks (`out0_eq`: the body stores the whole block
   once); the body's triple on whole staging memrefs (`sound_kernel0`); the pipeline's proof data (`dat0`):
   arrays as found, every input's buffer left at its block, the output's at `out0` of the input blocks; and the
   library's body obligation at every grid point (`body_obligation0`).
   The constant-index windows (fetched at the first point only) need no special case: an input window that is
   not fetched at a point has not moved its block index, so its buffer still holds this point's block
   (`Dat.before_in_eq_fetched`). -/
import proofs.«133880_j17265768530448_1_alg».proof.Proof.K.LaunchP
import proofs.«133880_j17265768530448_1_alg».proof.Proof.Gen.Kernel.Skeleton
import proofs.«133880_j17265768530448_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

-- membership in a rectangle of these extents: the elaborator's structural look recurses once per coordinate
-- of the long axes
set_option maxRecDepth 16384

noncomputable section

namespace Cert.Kernel.Fr

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): unfetched, the block
    index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): unfetched, the block
    index has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): unfetched, the block
    index has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): unfetched, the block
    index has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): unfetched, the block
    index has not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each memref is read, and the output's written, through its whole-shape rectangle -/

abbrev r0_0 : Rect S8000x64 := Rect.unit (s := S8000x64) ![0, 0] S8000x64.size inb_S8000x64_S8000x64_0_0
abbrev r0_1 : Rect S64x64 := Rect.unit (s := S64x64) ![0, 0] S64x64.size inb_S64x64_S64x64_0_0
abbrev r0_2 : Rect S1x64 := Rect.unit (s := S1x64) ![0, 0] S1x64.size inb_S1x64_S1x64_0_0

/-- The rectangles' offsets are zero on both axes. -/
theorem zeros0 : (![0, 0] : Fin 2 → Nat) = fun _ => 0 := funext fun a => by fin_cases a <;> rfl

/-! ## What the body leaves in the output window's buffer -/

/-- Window 5's staging buffer after the body, from the input windows' blocks: its one store as a piece (the
    payload is the skeleton's, of what the loads read). -/
def out0 (x0 : Vec F S8000x64 .f32) (x1 : Vec F S8000x64 .f32) (x2 : Vec F S8000x64 .f32) (x3 : Vec F S64x64 .f32) (x4 : Vec F S1x64 .f32) : Vec F S8000x64 .f32 :=
  View.canon [⟨r0_0, k0_pay1 (View.ld x0 r0_0) (View.ld x1 r0_0) (View.ld x2 r0_0) (View.ld x3 r0_1) (View.ld x4 r0_2)⟩]

/-- The one store is of the whole block and every load reads a whole block: the buffer is left at the payload of
    the input blocks. -/
theorem out0_eq (x0 : Vec F S8000x64 .f32) (x1 : Vec F S8000x64 .f32) (x2 : Vec F S8000x64 .f32) (x3 : Vec F S64x64 .f32) (x4 : Vec F S1x64 .f32) : out0 x0 x1 x2 x3 x4 = k0_pay1 x0 x1 x2 x3 x4 := by
  unfold out0
  rw [View.canon_unit_zero zeros0]
  simp only [View.ld_unit_zero (S := S8000x64) zeros0, View.ld_unit_zero (S := S64x64) zeros0, View.ld_unit_zero (S := S1x64) zeros0]

/-- Its store tiles the buffer (checked by evaluation), so it covers it. -/
theorem cover0 (p0 : Vec F S8000x64 .f32) (y : S8000x64.Idx) :
    ∃ pc ∈ ([⟨r0_0, p0⟩] : List (View.Piece (Elt F) S8000x64 .f32)), y ∈ pc.1.set :=
  View.cover_of_tiled [⟨r0_0, p0⟩] S8000x64.size (by rfl) y

/-! ## The body's triple -/

set_option maxHeartbeats 1000000 in
/-- The kernel body on whole staging memrefs, the inputs' at read contents `xW` and the output's at anything, runs to
    the continuation holding the inputs' as they were and the output's at `out0` of the inputs': the printed function
    is its skeleton, which is run operation by operation. -/
theorem sound_kernel0 (c : Dev nD) (E : Set ℕ) (i : grid0.Coords) (arg1 : Memref sig .tc .vmem S8000x64 .f32) (harg1 : arg1.IsWhole) (arg2 : Memref sig .tc .vmem S8000x64 .f32) (harg2 : arg2.IsWhole) (arg3 : Memref sig .tc .vmem S8000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S8000x64 .f32) (harg6 : arg6.IsWhole)
    (x0 : Vec F S8000x64 .f32) (x1 : Vec F S8000x64 .f32) (x2 : Vec F S8000x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0 x0 x1 x2 x3 x4)) -∗ K ⟨⟩))
      ⊢ wp frame (wpE (defs₀ (F := F)) Variants.none c none) E (cc0__attn_kernel i arg1 harg1 arg2 harg2 arg3 harg3 arg4 harg4 arg5 harg5 arg6 harg6) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0 _)

/-! ## The pipeline's proof data -/

/-- The proof data of pipeline 0 on core `c`: the arrays as the region finds them (`V`); after the body at
    point `t` each input's buffer at its block and the output's at `out0` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Body1.lean ====
/- Region 1 of @main (custom_call 1, `cc1__agg_kernel`: the aggregation body on blocks of 10000 rows, width 64 to 32), its class-A half, at any float
   instance `F` and at a PARAMETER `V` — the TensorCore's buffer contents when the region is entered.
   Each window's block at a grid point (`iblk1`); what the body leaves in the output window's staging buffer
   (`out1`), which is the body's one payload of the input blocks (`out1_eq`: the body stores the whole block
   once); the body's triple on whole staging memrefs (`sound_kernel1`); the pipeline's proof data (`dat1`):
   arrays as found, every input's buffer left at its block, the output's at `out1` of the input blocks; and the
   library's body obligation at every grid point (`body_obligation1`).
   The constant-index windows (fetched at the first point only) need no special case: an input window that is
   not fetched at a point has not moved its block index, so its buffer still holds this point's block
   (`Dat.before_in_eq_fetched`). -/
import proofs.«133880_j17265768530448_1_alg».proof.Proof.K.LaunchP
import proofs.«133880_j17265768530448_1_alg».proof.Proof.Gen.Kernel.Skeleton
import proofs.«133880_j17265768530448_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

-- membership in a rectangle of these extents: the elaborator's structural look recurses once per coordinate
-- of the long axes
set_option maxRecDepth 16384

noncomputable section

namespace Cert.Kernel.Fr

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): unfetched, the block
    index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): unfetched, the block
    index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): unfetched, the block
    index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): unfetched, the block
    index has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): unfetched, the block
    index has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): unfetched, the block
    index has not moved; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each memref is read, and the output's written, through its whole-shape rectangle -/

abbrev r1_0 : Rect S10000x64 := Rect.unit (s := S10000x64) ![0, 0] S10000x64.size inb_S10000x64_S10000x64_0_0
abbrev r1_1 : Rect S64x32 := Rect.unit (s := S64x32) ![0, 0] S64x32.size inb_S64x32_S64x32_0_0
abbrev r1_2 : Rect S1x32 := Rect.unit (s := S1x32) ![0, 0] S1x32.size inb_S1x32_S1x32_0_0
abbrev r1_3 : Rect S10000x32 := Rect.unit (s := S10000x32) ![0, 0] S10000x32.size inb_S10000x32_S10000x32_0_0

/-- The rectangles' offsets are zero on both axes. -/
theorem zeros1 : (![0, 0] : Fin 2 → Nat) = fun _ => 0 := funext fun a => by fin_cases a <;> rfl

/-! ## What the body leaves in the output window's buffer -/

/-- Window 6's staging buffer after the body, from the input windows' blocks: its one store as a piece (the
    payload is the skeleton's, of what the loads read). -/
def out1 (x0 : Vec F S10000x64 .f32) (x1 : Vec F S10000x64 .f32) (x2 : Vec F S64x32 .f32) (x3 : Vec F S1x32 .f32) (x4 : Vec F S64x32 .f32) (x5 : Vec F S1x32 .f32) : Vec F S10000x32 .f32 :=
  View.canon [⟨r1_3, k1_pay1 (View.ld x0 r1_0) (View.ld x1 r1_0) (View.ld x2 r1_1) (View.ld x3 r1_2) (View.ld x4 r1_1) (View.ld x5 r1_2)⟩]

/-- The one store is of the whole block and every load reads a whole block: the buffer is left at the payload of
    the input blocks. -/
theorem out1_eq (x0 : Vec F S10000x64 .f32) (x1 : Vec F S10000x64 .f32) (x2 : Vec F S64x32 .f32) (x3 : Vec F S1x32 .f32) (x4 : Vec F S64x32 .f32) (x5 : Vec F S1x32 .f32) : out1 x0 x1 x2 x3 x4 x5 = k1_pay1 x0 x1 x2 x3 x4 x5 := by
  unfold out1
  rw [View.canon_unit_zero zeros1]
  simp only [View.ld_unit_zero (S := S10000x64) zeros1, View.ld_unit_zero (S := S64x32) zeros1, View.ld_unit_zero (S := S1x32) zeros1]

/-- Its store tiles the buffer (checked by evaluation), so it covers it. -/
theorem cover1 (p0 : Vec F S10000x32 .f32) (y : S10000x32.Idx) :
    ∃ pc ∈ ([⟨r1_3, p0⟩] : List (View.Piece (Elt F) S10000x32 .f32)), y ∈ pc.1.set :=
  View.cover_of_tiled [⟨r1_3, p0⟩] S10000x32.size (by rfl) y

/-! ## The body's triple -/

set_option maxHeartbeats 1000000 in
/-- The kernel body on whole staging memrefs, the inputs' at read contents `xW` and the output's at anything, runs to
    the continuation holding the inputs' as they were and the output's at `out1` of the inputs': the printed function
    is its skeleton, which is run operation by operation. -/
theorem sound_kernel1 (c : Dev nD) (E : Set ℕ) (i : grid1.Coords) (arg1 : Memref sig .tc .vmem S10000x64 .f32) (harg1 : arg1.IsWhole) (arg2 : Memref sig .tc .vmem S10000x64 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S10000x32 .f32) (harg7 : arg7.IsWhole)
    (x0 : Vec F S10000x64 .f32) (x1 : Vec F S10000x64 .f32) (x2 : Vec F S64x32 .f32) (x3 : Vec F S1x32 .f32) (x4 : Vec F S64x32 .f32) (x5 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1 x0 x1 x2 x3 x4 x5)) -∗ K ⟨⟩))
      ⊢ wp frame (wpE (defs₀ (F := F)) Variants.none c none) E (cc1__agg_kernel i arg1 harg1 arg2 harg2 arg3 harg3 arg4 harg4 arg5 harg5 arg6 harg6 arg7 harg7) K := by
  simp only [cc1__agg_kernel_eq_skeleton]; unfold cc1__agg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1 _)

/-! ## The pipeline's proof data -/

/-- The proof data of pipeline 1 on core `c`: the arrays as the region finds them (`V`); after the body at
    point `t` each input's buffer at its block and the output's at `out1` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the definition's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Body2.lean ====
/- Region 2 of @main (custom_call 2, `cc2__attn_kernel`: the attention body on blocks of 8000 rows of width 32), its class-A half, at any float
   instance `F` and at a PARAMETER `V` — the TensorCore's buffer contents when the region is entered.
   Each window's block at a grid point (`iblk2`); what the body leaves in the output window's staging buffer
   (`out2`), which is the body's one payload of the input blocks (`out2_eq`: the body stores the whole block
   once); the body's triple on whole staging memrefs (`sound_kernel2`); the pipeline's proof data (`dat2`):
   arrays as found, every input's buffer left at its block, the output's at `out2` of the input blocks; and the
   library's body obligation at every grid point (`body_obligation2`).
   The constant-index windows (fetched at the first point only) need no special case: an input window that is
   not fetched at a point has not moved its block index, so its buffer still holds this point's block
   (`Dat.before_in_eq_fetched`). -/
import proofs.«133880_j17265768530448_1_alg».proof.Proof.K.LaunchP
import proofs.«133880_j17265768530448_1_alg».proof.Proof.Gen.Kernel.Skeleton
import proofs.«133880_j17265768530448_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

-- membership in a rectangle of these extents: the elaborator's structural look recurses once per coordinate
-- of the long axes
set_option maxRecDepth 16384

noncomputable section

namespace Cert.Kernel.Fr

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): unfetched, the block
    index has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): unfetched, the block
    index has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): unfetched, the block
    index has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): unfetched, the block
    index has not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): unfetched, the block
    index has not moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each memref is read, and the output's written, through its whole-shape rectangle -/

abbrev r2_0 : Rect S8000x32 := Rect.unit (s := S8000x32) ![0, 0] S8000x32.size inb_S8000x32_S8000x32_0_0
abbrev r2_1 : Rect S8000x64 := Rect.unit (s := S8000x64) ![0, 0] S8000x64.size inb_S8000x64_S8000x64_0_0
abbrev r2_2 : Rect S64x32 := Rect.unit (s := S64x32) ![0, 0] S64x32.size inb_S64x32_S64x32_0_0
abbrev r2_3 : Rect S1x32 := Rect.unit (s := S1x32) ![0, 0] S1x32.size inb_S1x32_S1x32_0_0

/-- The rectangles' offsets are zero on both axes. -/
theorem zeros2 : (![0, 0] : Fin 2 → Nat) = fun _ => 0 := funext fun a => by fin_cases a <;> rfl

/-! ## What the body leaves in the output window's buffer -/

/-- Window 5's staging buffer after the body, from the input windows' blocks: its one store as a piece (the
    payload is the skeleton's, of what the loads read). -/
def out2 (x0 : Vec F S8000x32 .f32) (x1 : Vec F S8000x32 .f32) (x2 : Vec F S8000x64 .f32) (x3 : Vec F S64x32 .f32) (x4 : Vec F S1x32 .f32) : Vec F S8000x32 .f32 :=
  View.canon [⟨r2_0, k2_pay1 (View.ld x0 r2_0) (View.ld x1 r2_0) (View.ld x2 r2_1) (View.ld x3 r2_2) (View.ld x4 r2_3)⟩]

/-- The one store is of the whole block and every load reads a whole block: the buffer is left at the payload of
    the input blocks. -/
theorem out2_eq (x0 : Vec F S8000x32 .f32) (x1 : Vec F S8000x32 .f32) (x2 : Vec F S8000x64 .f32) (x3 : Vec F S64x32 .f32) (x4 : Vec F S1x32 .f32) : out2 x0 x1 x2 x3 x4 = k2_pay1 x0 x1 x2 x3 x4 := by
  unfold out2
  rw [View.canon_unit_zero zeros2]
  simp only [View.ld_unit_zero (S := S8000x32) zeros2, View.ld_unit_zero (S := S8000x64) zeros2, View.ld_unit_zero (S := S64x32) zeros2, View.ld_unit_zero (S := S1x32) zeros2]

/-- Its store tiles the buffer (checked by evaluation), so it covers it. -/
theorem cover2 (p0 : Vec F S8000x32 .f32) (y : S8000x32.Idx) :
    ∃ pc ∈ ([⟨r2_0, p0⟩] : List (View.Piece (Elt F) S8000x32 .f32)), y ∈ pc.1.set :=
  View.cover_of_tiled [⟨r2_0, p0⟩] S8000x32.size (by rfl) y

/-! ## The body's triple -/

set_option maxHeartbeats 1000000 in
/-- The kernel body on whole staging memrefs, the inputs' at read contents `xW` and the output's at anything, runs to
    the continuation holding the inputs' as they were and the output's at `out2` of the inputs': the printed function
    is its skeleton, which is run operation by operation. -/
theorem sound_kernel2 (c : Dev nD) (E : Set ℕ) (i : grid2.Coords) (arg1 : Memref sig .tc .vmem S8000x32 .f32) (harg1 : arg1.IsWhole) (arg2 : Memref sig .tc .vmem S8000x32 .f32) (harg2 : arg2.IsWhole) (arg3 : Memref sig .tc .vmem S8000x64 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S8000x32 .f32) (harg6 : arg6.IsWhole)
    (x0 : Vec F S8000x32 .f32) (x1 : Vec F S8000x32 .f32) (x2 : Vec F S8000x64 .f32) (x3 : Vec F S64x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2 x0 x1 x2 x3 x4)) -∗ K ⟨⟩))
      ⊢ wp frame (wpE (defs₀ (F := F)) Variants.none c none) E (cc2__attn_kernel i arg1 harg1 arg2 harg2 arg3 harg3 arg4 harg4 arg5 harg5 arg6 harg6) K := by
  simp only [cc2__attn_kernel_eq_skeleton]; unfold cc2__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2 _)

/-! ## The pipeline's proof data -/

/-- The proof data of pipeline 2 on core `c`: the arrays as the region finds them (`V`); after the body at
    point `t` each input's buffer at its block and the output's at `out2` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the definition's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Body3.lean ====
/- Region 3 of @main (custom_call 3, `cc3__agg_kernel`: the aggregation body on blocks of 10000 rows, width 32 to 16), its class-A half, at any float
   instance `F` and at a PARAMETER `V` — the TensorCore's buffer contents when the region is entered.
   Each window's block at a grid point (`iblk3`); what the body leaves in the output window's staging buffer
   (`out3`), which is the body's one payload of the input blocks (`out3_eq`: the body stores the whole block
   once); the body's triple on whole staging memrefs (`sound_kernel3`); the pipeline's proof data (`dat3`):
   arrays as found, every input's buffer left at its block, the output's at `out3` of the input blocks; and the
   library's body obligation at every grid point (`body_obligation3`).
   The constant-index windows (fetched at the first point only) need no special case: an input window that is
   not fetched at a point has not moved its block index, so its buffer still holds this point's block
   (`Dat.before_in_eq_fetched`). -/
import proofs.«133880_j17265768530448_1_alg».proof.Proof.K.LaunchP
import proofs.«133880_j17265768530448_1_alg».proof.Proof.Gen.Kernel.Skeleton
import proofs.«133880_j17265768530448_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

-- membership in a rectangle of these extents: the elaborator's structural look recurses once per coordinate
-- of the long axes
set_option maxRecDepth 16384

noncomputable section

namespace Cert.Kernel.Fr

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): unfetched, the block
    index has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): unfetched, the block
    index has not moved; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): unfetched, the block
    index has not moved; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for ANY proof
    data whose array is `V`'s (`hA`) and whose body leaves the block in place (`hafter`): unfetched, the block
    index has not moved; the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for ANY proof
    data whose array is `V`'s (`hA`) and whose body leaves the block in place (`hafter`): unfetched, the block
    index has not moved; the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not, for ANY proof
    data whose array is `V`'s (`hA`) and whose body leaves the block in place (`hafter`): unfetched, the block
    index has not moved; the window is uncut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each memref is read, and the output's written, through its whole-shape rectangle -/

abbrev r3_0 : Rect S10000x32 := Rect.unit (s := S10000x32) ![0, 0] S10000x32.size inb_S10000x32_S10000x32_0_0
abbrev r3_1 : Rect S32x16 := Rect.unit (s := S32x16) ![0, 0] S32x16.size inb_S32x16_S32x16_0_0
abbrev r3_2 : Rect S1x16 := Rect.unit (s := S1x16) ![0, 0] S1x16.size inb_S1x16_S1x16_0_0
abbrev r3_3 : Rect S10000x16 := Rect.unit (s := S10000x16) ![0, 0] S10000x16.size inb_S10000x16_S10000x16_0_0

/-- The rectangles' offsets are zero on both axes. -/
theorem zeros3 : (![0, 0] : Fin 2 → Nat) = fun _ => 0 := funext fun a => by fin_cases a <;> rfl

/-! ## What the body leaves in the output window's buffer -/

/-- Window 6's staging buffer after the body, from the input windows' blocks: its one store as a piece (the
    payload is the skeleton's, of what the loads read). -/
def out3 (x0 : Vec F S10000x32 .f32) (x1 : Vec F S10000x32 .f32) (x2 : Vec F S32x16 .f32) (x3 : Vec F S1x16 .f32) (x4 : Vec F S32x16 .f32) (x5 : Vec F S1x16 .f32) : Vec F S10000x16 .f32 :=
  View.canon [⟨r3_3, k3_pay1 (View.ld x0 r3_0) (View.ld x1 r3_0) (View.ld x2 r3_1) (View.ld x3 r3_2) (View.ld x4 r3_1) (View.ld x5 r3_2)⟩]

/-- The one store is of the whole block and every load reads a whole block: the buffer is left at the payload of
    the input blocks. -/
theorem out3_eq (x0 : Vec F S10000x32 .f32) (x1 : Vec F S10000x32 .f32) (x2 : Vec F S32x16 .f32) (x3 : Vec F S1x16 .f32) (x4 : Vec F S32x16 .f32) (x5 : Vec F S1x16 .f32) : out3 x0 x1 x2 x3 x4 x5 = k3_pay1 x0 x1 x2 x3 x4 x5 := by
  unfold out3
  rw [View.canon_unit_zero zeros3]
  simp only [View.ld_unit_zero (S := S10000x32) zeros3, View.ld_unit_zero (S := S32x16) zeros3, View.ld_unit_zero (S := S1x16) zeros3]

/-- Its store tiles the buffer (checked by evaluation), so it covers it. -/
theorem cover3 (p0 : Vec F S10000x16 .f32) (y : S10000x16.Idx) :
    ∃ pc ∈ ([⟨r3_3, p0⟩] : List (View.Piece (Elt F) S10000x16 .f32)), y ∈ pc.1.set :=
  View.cover_of_tiled [⟨r3_3, p0⟩] S10000x16.size (by rfl) y

/-! ## The body's triple -/

set_option maxHeartbeats 1000000 in
/-- The kernel body on whole staging memrefs, the inputs' at read contents `xW` and the output's at anything, runs to
    the continuation holding the inputs' as they were and the output's at `out3` of the inputs': the printed function
    is its skeleton, which is run operation by operation. -/
theorem sound_kernel3 (c : Dev nD) (E : Set ℕ) (i : grid3.Coords) (arg1 : Memref sig .tc .vmem S10000x32 .f32) (harg1 : arg1.IsWhole) (arg2 : Memref sig .tc .vmem S10000x32 .f32) (harg2 : arg2.IsWhole) (arg3 : Memref sig .tc .vmem S32x16 .f32) (harg3 : arg3.IsWhole) (arg4 : Memref sig .tc .vmem S1x16 .f32) (harg4 : arg4.IsWhole) (arg5 : Memref sig .tc .vmem S32x16 .f32) (harg5 : arg5.IsWhole) (arg6 : Memref sig .tc .vmem S1x16 .f32) (harg6 : arg6.IsWhole) (arg7 : Memref sig .tc .vmem S10000x16 .f32) (harg7 : arg7.IsWhole)
    (x0 : Vec F S10000x32 .f32) (x1 : Vec F S10000x32 .f32) (x2 : Vec F S32x16 .f32) (x3 : Vec F S1x16 .f32) (x4 : Vec F S32x16 .f32) (x5 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3 x0 x1 x2 x3 x4 x5)) -∗ K ⟨⟩))
      ⊢ wp frame (wpE (defs₀ (F := F)) Variants.none c none) E (cc3__agg_kernel i arg1 harg1 arg2 harg2 arg3 harg3 arg4 harg4 arg5 harg5 arg6 harg6 arg7 harg7) K := by
  simp only [cc3__agg_kernel_eq_skeleton]; unfold cc3__agg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3 _)

/-! ## The pipeline's proof data -/

/-- The proof data of pipeline 3 on core `c`: the arrays as the region finds them (`V`); after the body at
    point `t` each input's buffer at its block and the output's at `out3` of the input blocks; the invariant
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3 (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the definition's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3 (iblk3 V c 0 t) (iblk3 V c 1 t) (iblk3 V c 2 t) (iblk3 V c 3 t) (iblk3 V c 4 t) (iblk3 V c 5 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t` (the obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.K.Run.lean ====
/-
  The run of @main as a chain of segments: five stretches of host operations and, between them, the four kernel
  regions. Between two segments every unscoped buffer of a core is held whole at a known contents: the launch memory,
  then the host operations' results folded in, then — after a region — that region's arrays at what its pipeline leaves
  (an input array as it was entered, the output array with every grid point's block written back). Each region is entered
  with its arrays split out of the unscoped buffers and left with them put back; the generator register and the (empty)
  debt of the core ride along. Read at the end: the result buffer holds the last fold's contents at `main_v55`, and no
  host operation or region writes an argument, so each argument array is read back to its launch contents.
-/
import proofs.«133880_j17265768530448_1_alg».proof.Proof.K.LaunchP
import proofs.«133880_j17265768530448_1_alg».proof.Proof.K.RegionsP
import proofs.«133880_j17265768530448_1_alg».proof.Proof.Gen.Kernel.Skeleton
import proofs.«133880_j17265768530448_1_alg».proof.Proof.Gen.Kernel.Points
import proofs.«133880_j17265768530448_1_alg».proof.Proof.K.Body0
import proofs.«133880_j17265768530448_1_alg».proof.Proof.K.Body1
import proofs.«133880_j17265768530448_1_alg».proof.Proof.K.Body2
import proofs.«133880_j17265768530448_1_alg».proof.Proof.K.Body3

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)

/-- After the host stretch `hostOps0`: what region 0 is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`: what region 1 is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`: what region 2 is entered with. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`: what region 3 is entered with. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the last host stretch (the concatenation): the contents the launch reads at the end. -/
abbrev W9 : Dev nD → Valuation τ sig (Elt F) := fun c => StableHlo.after hostOps4 (W8 m ρ c)

/-! ## The arguments end as launched -/
theorem W9_main_arg0 (c : Dev nD) : W9 m ρ c (Proc.devRef .tc main_arg0) = m ((c : Thread nD τ).loc main_arg0) :=
  (StableHlo.after_of_writes_sub hostOps4 _ hostOps4_writes (r := main_arg0) (by decide)).trans <|
  (W8_of_ne m ρ c main_arg0 (by decide)).trans <|
  (StableHlo.after_of_writes_sub hostOps3 _ hostOps3_writes (r := main_arg0) (by decide)).trans <|
  (W6_of_ne m ρ c main_arg0 (by decide)).trans <|
  (StableHlo.after_of_writes_sub hostOps2 _ hostOps2_writes (r := main_arg0) (by decide)).trans <|
  ((W4_arr m ρ c 0).trans (((dat1 (V3 m ρ) c).arrAt_in 0 rfl _).trans (A_eq1 (V3 m ρ) c 0))).trans <|
  (StableHlo.after_of_writes_sub hostOps1 _ hostOps1_writes (r := main_arg0) (by decide)).trans <|
  (W2_of_ne m ρ c main_arg0 (by decide)).trans <|
  (StableHlo.after_of_writes_sub hostOps0 _ hostOps0_writes (r := main_arg0) (by decide)).trans rfl
theorem W9_main_arg1 (c : Dev nD) : W9 m ρ c (Proc.devRef .tc main_arg1) = m ((c : Thread nD τ).loc main_arg1) :=
  (StableHlo.after_of_writes_sub hostOps4 _ hostOps4_writes (r := main_arg1) (by decide)).trans <|
  (W8_of_ne m ρ c main_arg1 (by decide)).trans <|
  (StableHlo.after_of_writes_sub hostOps3 _ hostOps3_writes (r := main_arg1) (by decide)).trans <|
  (W6_of_ne m ρ c main_arg1 (by decide)).trans <|
  (StableHlo.after_of_writes_sub hostOps2 _ hostOps2_writes (r := main_arg1) (by decide)).trans <|
  (W4_of_ne m ρ c main_arg1 (by decide)).trans <|
  (StableHlo.after_of_writes_sub hostOps1 _ hostOps1_writes (r := main_arg1) (by decide)).trans <|
  (W2_of_ne m ρ c main_arg1 (by decide)).trans <|
  (StableHlo.after_of_writes_sub hostOps0 _ hostOps0_writes (r := main_arg1) (by decide)).trans rfl
theorem W9_main_arg2 (c : Dev nD) : W9 m ρ c (Proc.devRef .tc main_arg2) = m ((c : Thread nD τ).loc main_arg2) :=
  (StableHlo.after_of_writes_sub hostOps4 _ hostOps4_writes (r := main_arg2) (by decide)).trans <|
  (W8_of_ne m ρ c main_arg2 (by decide)).trans <|
  (StableHlo.after_of_writes_sub hostOps3 _ hostOps3_writes (r := main_arg2) (by decide)).trans <|
  (W6_of_ne m ρ c main_arg2 (by decide)).trans <|
  (StableHlo.after_of_writes_sub hostOps2 _ hostOps2_writes (r := main_arg2) (by decide)).trans <|
  (W4_of_ne m ρ c main_arg2 (by decide)).trans <|
  (StableHlo.after_of_writes_sub hostOps1 _ hostOps1_writes (r := main_arg2) (by decide)).trans <|
  ((W2_arr m ρ c 3).trans (((dat0 (V1 m ρ) c).arrAt_in 3 rfl _).trans (A_eq0 (V1 m ρ) c 3))).trans <|
  (StableHlo.after_of_writes_sub hostOps0 _ hostOps0_writes (r := main_arg2) (by decide)).trans rfl
theorem W9_main_arg3 (c : Dev nD) : W9 m ρ c (Proc.devRef .tc main_arg3) = m ((c : Thread nD τ).loc main_arg3) :=
  (StableHlo.after_of_writes_sub hostOps4 _ hostOps4_writes (r := main_arg3) (by decide)).trans <|
  (W8_of_ne m ρ c main_arg3 (by decide)).trans <|
  (StableHlo.after_of_writes_sub hostOps3 _ hostOps3_writes (r := main_arg3) (by decide)).trans <|
  (W6_of_ne m ρ c main_arg3 (by decide)).trans <|
  (StableHlo.after_of_writes_sub hostOps2 _ hostOps2_writes (r := main_arg3) (by decide)).trans <|
  (W4_of_ne m ρ c main_arg3 (by decide)).trans <|
  (StableHlo.after_of_writes_sub hostOps1 _ hostOps1_writes (r := main_arg3) (by decide)).trans <|
  (W2_of_ne m ρ c main_arg3 (by decide)).trans <|
  (StableHlo.after_of_writes_sub hostOps0 _ hostOps0_writes (r := main_arg3) (by decide)).trans rfl
theorem W9_main_arg4 (c : Dev nD) : W9 m ρ c (Proc.devRef .tc main_arg4) = m ((c : Thread nD τ).loc main_arg4) :=
  (StableHlo.after_of_writes_sub hostOps4 _ hostOps4_writes (r := main_arg4) (by decide)).trans <|
  (W8_of_ne m ρ c main_arg4 (by decide)).trans <|
  (StableHlo.after_of_writes_sub hostOps3 _ hostOps3_writes (r := main_arg4) (by decide)).trans <|
  (W6_of_ne m ρ c main_arg4 (by decide)).trans <|
  (StableHlo.after_of_writes_sub hostOps2 _ hostOps2_writes (r := main_arg4) (by decide)).trans <|
  ((W4_arr m ρ c 2).trans (((dat1 (V3 m ρ) c).arrAt_in 2 rfl _).trans (A_eq1 (V3 m ρ) c 2))).trans <|
  (StableHlo.after_of_writes_sub hostOps1 _ hostOps1_writes (r := main_arg4) (by decide)).trans <|
  (W2_of_ne m ρ c main_arg4 (by decide)).trans <|
  (StableHlo.after_of_writes_sub hostOps0 _ hostOps0_writes (r := main_arg4) (by decide)).trans rfl
theorem W9_main_arg5 (c : Dev nD) : W9 m ρ c (Proc.devRef .tc main_arg5) = m ((c : Thread nD τ).loc main_arg5) :=
  (StableHlo.after_of_writes_sub hostOps4 _ hostOps4_writes (r := main_arg5) (by decide)).trans <|
  (W8_of_ne m ρ c main_arg5 (by decide)).trans <|
  (StableHlo.after_of_writes_sub hostOps3 _ hostOps3_writes (r := main_arg5) (by decide)).trans <|
  (W6_of_ne m ρ c main_arg5 (by decide)).trans <|
  (StableHlo.after_of_writes_sub hostOps2 _ hostOps2_writes (r := main_arg5) (by decide)).trans <|
  (W4_of_ne m ρ c main_arg5 (by decide)).trans <|
  (StableHlo.after_of_writes_sub hostOps1 _ hostOps1_writes (r := main_arg5) (by decide)).trans <|
  (W2_of_ne m ρ c main_arg5 (by decide)).trans <|
  (StableHlo.after_of_writes_sub hostOps0 _ hostOps0_writes (r := main_arg5) (by decide)).trans rfl
theorem W9_main_arg6 (c : Dev nD) : W9 m ρ c (Proc.devRef .tc main_arg6) = m ((c : Thread nD τ).loc main_arg6) :=
  (StableHlo.after_of_writes_sub hostOps4 _ hostOps4_writes (r := main_arg6) (by decide)).trans <|
  (W8_of_ne m ρ c main_arg6 (by decide)).trans <|
  (StableHlo.after_of_writes_sub hostOps3 _ hostOps3_writes (r := main_arg6) (by decide)).trans <|
  (W6_of_ne m ρ c main_arg6 (by decide)).trans <|
  (StableHlo.after_of_writes_sub hostOps2 _ hostOps2_writes (r := main_arg6) (by decide)).trans <|
  ((W4_arr m ρ c 4).trans (((dat1 (V3 m ρ) c).arrAt_in 4 rfl _).trans (A_eq1 (V3 m ρ) c 4))).trans <|
  (StableHlo.after_of_writes_sub hostOps1 _ hostOps1_writes (r := main_arg6) (by decide)).trans <|
  (W2_of_ne m ρ c main_arg6 (by decide)).trans <|
  (StableHlo.after_of_writes_sub hostOps0 _ hostOps0_writes (r := main_arg6) (by decide)).trans rfl
theorem W9_main_arg7 (c : Dev nD) : W9 m ρ c (Proc.devRef .tc main_arg7) = m ((c : Thread nD τ).loc main_arg7) :=
  (StableHlo.after_of_writes_sub hostOps4 _ hostOps4_writes (r := main_arg7) (by decide)).trans <|
  (W8_of_ne m ρ c main_arg7 (by decide)).trans <|
  (StableHlo.after_of_writes_sub hostOps3 _ hostOps3_writes (r := main_arg7) (by decide)).trans <|
  (W6_of_ne m ρ c main_arg7 (by decide)).trans <|
  (StableHlo.after_of_writes_sub hostOps2 _ hostOps2_writes (r := main_arg7) (by decide)).trans <|
  (W4_of_ne m ρ c main_arg7 (by decide)).trans <|
  (StableHlo.after_of_writes_sub hostOps1 _ hostOps1_writes (r := main_arg7) (by decide)).trans <|
  (W2_of_ne m ρ c main_arg7 (by decide)).trans <|
  (StableHlo.after_of_writes_sub hostOps0 _ hostOps0_writes (r := main_arg7) (by decide)).trans rfl
theorem W9_main_arg8 (c : Dev nD) : W9 m ρ c (Proc.devRef .tc main_arg8) = m ((c : Thread nD τ).loc main_arg8) :=
  (StableHlo.after_of_writes_sub hostOps4 _ hostOps4_writes (r := main_arg8) (by decide)).trans <|
  (W8_of_ne m ρ c main_arg8 (by decide)).trans <|
  (StableHlo.after_of_writes_sub hostOps3 _ hostOps3_writes (r := main_arg8) (by decide)).trans <|
  ((W6_arr m ρ c 3).trans (((dat2 (V5 m ρ) c).arrAt_in 3 rfl _).trans (A_eq2 (V5 m ρ) c 3))).trans <|
  (StableHlo.after_of_writes_sub hostOps2 _ hostOps2_writes (r := main_arg8) (by decide)).trans <|
  (W4_of_ne m ρ c main_arg8 (by decide)).trans <|
  (StableHlo.after_of_writes_sub hostOps1 _ hostOps1_writes (r := main_arg8) (by decide)).trans <|
  (W2_of_ne m ρ c main_arg8 (by decide)).trans <|
  (StableHlo.after_of_writes_sub hostOps0 _ hostOps0_writes (r := main_arg8) (by decide)).trans rfl
theorem W9_main_arg9 (c : Dev nD) : W9 m ρ c (Proc.devRef .tc main_arg9) = m ((c : Thread nD τ).loc main_arg9) :=
  (StableHlo.after_of_writes_sub hostOps4 _ hostOps4_writes (r := main_arg9) (by decide)).trans <|
  (W8_of_ne m ρ c main_arg9 (by decide)).trans <|
  (StableHlo.after_of_writes_sub hostOps3 _ hostOps3_writes (r := main_arg9) (by decide)).trans <|
  (W6_of_ne m ρ c main_arg9 (by decide)).trans <|
  (StableHlo.after_of_writes_sub hostOps2 _ hostOps2_writes (r := main_arg9) (by decide)).trans <|
  (W4_of_ne m ρ c main_arg9 (by decide)).trans <|
  (StableHlo.after_of_writes_sub hostOps1 _ hostOps1_writes (r := main_arg9) (by decide)).trans <|
  (W2_of_ne m ρ c main_arg9 (by decide)).trans <|
  (StableHlo.after_of_writes_sub hostOps0 _ hostOps0_writes (r := main_arg9) (by decide)).trans rfl
theorem W9_main_arg10 (c : Dev nD) : W9 m ρ c (Proc.devRef .tc main_arg10) = m ((c : Thread nD τ).loc main_arg10) :=
  (StableHlo.after_of_writes_sub hostOps4 _ hostOps4_writes (r := main_arg10) (by decide)).trans <|
  ((W8_arr m ρ c 2).trans (((dat3 (V7 m ρ) c).arrAt_in 2 rfl _).trans (A_eq3 (V7 m ρ) c 2))).trans <|
  (StableHlo.after_of_writes_sub hostOps3 _ hostOps3_writes (r := main_arg10) (by decide)).trans <|
  (W6_of_ne m ρ c main_arg10 (by decide)).trans <|
  (StableHlo.after_of_writes_sub hostOps2 _ hostOps2_writes (r := main_arg10) (by decide)).trans <|
  (W4_of_ne m ρ c main_arg10 (by decide)).trans <|
  (StableHlo.after_of_writes_sub hostOps1 _ hostOps1_writes (r := main_arg10) (by decide)).trans <|
  (W2_of_ne m ρ c main_arg10 (by decide)).trans <|
  (StableHlo.after_of_writes_sub hostOps0 _ hostOps0_writes (r := main_arg10) (by decide)).trans rfl
theorem W9_main_arg11 (c : Dev nD) : W9 m ρ c (Proc.devRef .tc main_arg11) = m ((c : Thread nD τ).loc main_arg11) :=
  (StableHlo.after_of_writes_sub hostOps4 _ hostOps4_writes (r := main_arg11) (by decide)).trans <|
  (W8_of_ne m ρ c main_arg11 (by decide)).trans <|
  (StableHlo.after_of_writes_sub hostOps3 _ hostOps3_writes (r := main_arg11) (by decide)).trans <|
  (W6_of_ne m ρ c main_arg11 (by decide)).trans <|
  (StableHlo.after_of_writes_sub hostOps2 _ hostOps2_writes (r := main_arg11) (by decide)).trans <|
  (W4_of_ne m ρ c main_arg11 (by decide)).trans <|
  (StableHlo.after_of_writes_sub hostOps1 _ hostOps1_writes (r := main_arg11) (by decide)).trans <|
  (W2_of_ne m ρ c main_arg11 (by decide)).trans <|
  (StableHlo.after_of_writes_sub hostOps0 _ hostOps0_writes (r := main_arg11) (by decide)).trans rfl
theorem W9_main_arg12 (c : Dev nD) : W9 m ρ c (Proc.devRef .tc main_arg12) = m ((c : Thread nD τ).loc main_arg12) :=
  (StableHlo.after_of_writes_sub hostOps4 _ hostOps4_writes (r := main_arg12) (by decide)).trans <|
  ((W8_arr m ρ c 4).trans (((dat3 (V7 m ρ) c).arrAt_in 4 rfl _).trans (A_eq3 (V7 m ρ) c 4))).trans <|
  (StableHlo.after_of_writes_sub hostOps3 _ hostOps3_writes (r := main_arg12) (by decide)).trans <|
  (W6_of_ne m ρ c main_arg12 (by decide)).trans <|
  (StableHlo.after_of_writes_sub hostOps2 _ hostOps2_writes (r := main_arg12) (by decide)).trans <|
  (W4_of_ne m ρ c main_arg12 (by decide)).trans <|
  (StableHlo.after_of_writes_sub hostOps1 _ hostOps1_writes (r := main_arg12) (by decide)).trans <|
  (W2_of_ne m ρ c main_arg12 (by decide)).trans <|
  (StableHlo.after_of_writes_sub hostOps0 _ hostOps0_writes (r := main_arg12) (by decide)).trans rfl
theorem W9_main_arg13 (c : Dev nD) : W9 m ρ c (Proc.devRef .tc main_arg13) = m ((c : Thread nD τ).loc main_arg13) :=
  (StableHlo.after_of_writes_sub hostOps4 _ hostOps4_writes (r := main_arg13) (by decide)).trans <|
  (W8_of_ne m ρ c main_arg13 (by decide)).trans <|
  (StableHlo.after_of_writes_sub hostOps3 _ hostOps3_writes (r := main_arg13) (by decide)).trans <|
  (W6_of_ne m ρ c main_arg13 (by decide)).trans <|
  (StableHlo.after_of_writes_sub hostOps2 _ hostOps2_writes (r := main_arg13) (by decide)).trans <|
  (W4_of_ne m ρ c main_arg13 (by decide)).trans <|
  (StableHlo.after_of_writes_sub hostOps1 _ hostOps1_writes (r := main_arg13) (by decide)).trans <|
  (W2_of_ne m ρ c main_arg13 (by decide)).trans <|
  (StableHlo.after_of_writes_sub hostOps0 _ hostOps0_writes (r := main_arg13) (by decide)).trans rfl
theorem W9_main_arg14 (c : Dev nD) : W9 m ρ c (Proc.devRef .tc main_arg14) = m ((c : Thread nD τ).loc main_arg14) :=
  (StableHlo.after_of_writes_sub hostOps4 _ hostOps4_writes (r := main_arg14) (by decide)).trans <|
  (W8_of_ne m ρ c main_arg14 (by decide)).trans <|
  (StableHlo.after_of_writes_sub hostOps3 _ hostOps3_writes (r := main_arg14) (by decide)).trans <|
  (W6_of_ne m ρ c main_arg14 (by decide)).trans <|
  (StableHlo.after_of_writes_sub hostOps2 _ hostOps2_writes (r := main_arg14) (by decide)).trans <|
  (W4_of_ne m ρ c main_arg14 (by decide)).trans <|
  (StableHlo.after_of_writes_sub hostOps1 _ hostOps1_writes (r := main_arg14) (by decide)).trans <|
  (W2_of_ne m ρ c main_arg14 (by decide)).trans <|
  (StableHlo.after_of_writes_sub hostOps0 _ hostOps0_writes (r := main_arg14) (by decide)).trans rfl
theorem W9_main_arg15 (c : Dev nD) : W9 m ρ c (Proc.devRef .tc main_arg15) = m ((c : Thread nD τ).loc main_arg15) :=
  (StableHlo.after_of_writes_sub hostOps4 _ hostOps4_writes (r := main_arg15) (by decide)).trans <|
  (W8_of_ne m ρ c main_arg15 (by decide)).trans <|
  (StableHlo.after_of_writes_sub hostOps3 _ hostOps3_writes (r := main_arg15) (by decide)).trans <|
  (W6_of_ne m ρ c main_arg15 (by decide)).trans <|
  (StableHlo.after_of_writes_sub hostOps2 _ hostOps2_writes (r := main_arg15) (by decide)).trans <|
  (W4_of_ne m ρ c main_arg15 (by decide)).trans <|
  (StableHlo.after_of_writes_sub hostOps1 _ hostOps1_writes (r := main_arg15) (by decide)).trans <|
  (W2_of_ne m ρ c main_arg15 (by decide)).trans <|
  (StableHlo.after_of_writes_sub hostOps0 _ hostOps0_writes (r := main_arg15) (by decide)).trans rfl

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last contents, the generator register at some state. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W7`, left at `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]
theorem main_run (c : Dev nD) : main (F := F) c = Pipeline.Seg.run (segs m ρ) := (main_chain c).trans (by chain_rfl)

set_option backward.isDefEq.respectTransparency.types false in
/-- Every weakly fair execution of @main terminates without a fault; the result buffer ends at the last fold's contents
    and every argument array as launched. -/
theorem run : θ_run defs (onTc (τ := τ) (main (F := F))) ⟨m, fun _ => 0, ρ⟩ (fun r => ∀ c : Dev nD,
      r.2.mem ((c.tc : Thread nD τ).loc main_v55) = W9 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (W9 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v55 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c)⟩)

end Cert.Kernel.Fr

end
-- ==== Proof.KI.Body0.lean ====
/- Region 0 of @main (custom_call 0, `cc0__attn_kernel`: the attention body on blocks of 8000 rows of width 64), its class-A half, at any float
   instance `F` and at a PARAMETER `V` — the TensorCore's buffer contents when the region is entered.
   Each window's block at a grid point (`iblk0`); what the body leaves in the output window's staging buffer
   (`out0`), which is the body's one payload of the input blocks (`out0_eq`: the body stores the whole block
   once); the body's triple on whole staging memrefs (`sound_kernel0`); the pipeline's proof data (`dat0`):
   arrays as found, every input's buffer left at its block, the output's at `out0` of the input blocks; and the
   library's body obligation at every grid point (`body_obligation0`).
   The constant-index windows (fetched at the first point only) need no special case: an input window that is
   not fetched at a point has not moved its block index, so its buffer still holds this point's block
   (`Dat.before_in_eq_fetched`). -/
import proofs.«133880_j17265768530448_1_alg».proof.Proof.KI.LaunchP
import proofs.«133880_j17265768530448_1_alg».proof.Proof.Gen.KernelIdeal.Skeleton
import proofs.«133880_j17265768530448_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

-- membership in a rectangle of these extents: the elaborator's structural look recurses once per coordinate
-- of the long axes
set_option maxRecDepth 16384

noncomputable section

namespace Cert.KernelIdeal.Fr

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): unfetched, the block
    index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): unfetched, the block
    index has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): unfetched, the block
    index has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): unfetched, the block
    index has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): unfetched, the block
    index has not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each memref is read, and the output's written, through its whole-shape rectangle -/

abbrev r0_0 : Rect S8000x64 := Rect.unit (s := S8000x64) ![0, 0] S8000x64.size inb_S8000x64_S8000x64_0_0
abbrev r0_1 : Rect S64x64 := Rect.unit (s := S64x64) ![0, 0] S64x64.size inb_S64x64_S64x64_0_0
abbrev r0_2 : Rect S1x64 := Rect.unit (s := S1x64) ![0, 0] S1x64.size inb_S1x64_S1x64_0_0

/-- The rectangles' offsets are zero on both axes. -/
theorem zeros0 : (![0, 0] : Fin 2 → Nat) = fun _ => 0 := funext fun a => by fin_cases a <;> rfl

/-! ## What the body leaves in the output window's buffer -/

/-- Window 5's staging buffer after the body, from the input windows' blocks: its one store as a piece (the
    payload is the skeleton's, of what the loads read). -/
def out0 (x0 : Vec F S8000x64 .f32) (x1 : Vec F S8000x64 .f32) (x2 : Vec F S8000x64 .f32) (x3 : Vec F S64x64 .f32) (x4 : Vec F S1x64 .f32) : Vec F S8000x64 .f32 :=
  View.canon [⟨r0_0, k0_pay1 (View.ld x0 r0_0) (View.ld x1 r0_0) (View.ld x2 r0_0) (View.ld x3 r0_1) (View.ld x4 r0_2)⟩]

/-- The one store is of the whole block and every load reads a whole block: the buffer is left at the payload of
    the input blocks. -/
theorem out0_eq (x0 : Vec F S8000x64 .f32) (x1 : Vec F S8000x64 .f32) (x2 : Vec F S8000x64 .f32) (x3 : Vec F S64x64 .f32) (x4 : Vec F S1x64 .f32) : out0 x0 x1 x2 x3 x4 = k0_pay1 x0 x1 x2 x3 x4 := by
  unfold out0
  rw [View.canon_unit_zero zeros0]
  simp only [View.ld_unit_zero (S := S8000x64) zeros0, View.ld_unit_zero (S := S64x64) zeros0, View.ld_unit_zero (S := S1x64) zeros0]

/-- Its store tiles the buffer (checked by evaluation), so it covers it. -/
theorem cover0 (p0 : Vec F S8000x64 .f32) (y : S8000x64.Idx) :
    ∃ pc ∈ ([⟨r0_0, p0⟩] : List (View.Piece (Elt F) S8000x64 .f32)), y ∈ pc.1.set :=
  View.cover_of_tiled [⟨r0_0, p0⟩] S8000x64.size (by rfl) y

/-! ## The body's triple -/

set_option maxHeartbeats 1000000 in
/-- The kernel body on whole staging memrefs, the inputs' at read contents `xW` and the output's at anything, runs to
    the continuation holding the inputs' as they were and the output's at `out0` of the inputs': the printed function
    is its skeleton, which is run operation by operation. -/
theorem sound_kernel0 (c : Dev nD) (E : Set ℕ) (i : grid0.Coords) (arg1 : Memref sig .tc .vmem S8000x64 .f32) (harg1 : arg1.IsWhole) (arg2 : Memref sig .tc .vmem S8000x64 .f32) (harg2 : arg2.IsWhole) (arg3 : Memref sig .tc .vmem S8000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S8000x64 .f32) (harg6 : arg6.IsWhole)
    (x0 : Vec F S8000x64 .f32) (x1 : Vec F S8000x64 .f32) (x2 : Vec F S8000x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0 x0 x1 x2 x3 x4)) -∗ K ⟨⟩))
      ⊢ wp frame (wpE (defs₀ (F := F)) Variants.none c none) E (cc0__attn_kernel i arg1 harg1 arg2 harg2 arg3 harg3 arg4 harg4 arg5 harg5 arg6 harg6) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0 _)

/-! ## The pipeline's proof data -/

/-- The proof data of pipeline 0 on core `c`: the arrays as the region finds them (`V`); after the body at
    point `t` each input's buffer at its block and the output's at `out0` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Body1.lean ====
/- Region 1 of @main (custom_call 1, `cc1__agg_kernel`: the aggregation body on blocks of 10000 rows, width 64 to 32), its class-A half, at any float
   instance `F` and at a PARAMETER `V` — the TensorCore's buffer contents when the region is entered.
   Each window's block at a grid point (`iblk1`); what the body leaves in the output window's staging buffer
   (`out1`), which is the body's one payload of the input blocks (`out1_eq`: the body stores the whole block
   once); the body's triple on whole staging memrefs (`sound_kernel1`); the pipeline's proof data (`dat1`):
   arrays as found, every input's buffer left at its block, the output's at `out1` of the input blocks; and the
   library's body obligation at every grid point (`body_obligation1`).
   The constant-index windows (fetched at the first point only) need no special case: an input window that is
   not fetched at a point has not moved its block index, so its buffer still holds this point's block
   (`Dat.before_in_eq_fetched`). -/
import proofs.«133880_j17265768530448_1_alg».proof.Proof.KI.LaunchP
import proofs.«133880_j17265768530448_1_alg».proof.Proof.Gen.KernelIdeal.Skeleton
import proofs.«133880_j17265768530448_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

-- membership in a rectangle of these extents: the elaborator's structural look recurses once per coordinate
-- of the long axes
set_option maxRecDepth 16384

noncomputable section

namespace Cert.KernelIdeal.Fr

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): unfetched, the block
    index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): unfetched, the block
    index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): unfetched, the block
    index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): unfetched, the block
    index has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): unfetched, the block
    index has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): unfetched, the block
    index has not moved; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each memref is read, and the output's written, through its whole-shape rectangle -/

abbrev r1_0 : Rect S10000x64 := Rect.unit (s := S10000x64) ![0, 0] S10000x64.size inb_S10000x64_S10000x64_0_0
abbrev r1_1 : Rect S64x32 := Rect.unit (s := S64x32) ![0, 0] S64x32.size inb_S64x32_S64x32_0_0
abbrev r1_2 : Rect S1x32 := Rect.unit (s := S1x32) ![0, 0] S1x32.size inb_S1x32_S1x32_0_0
abbrev r1_3 : Rect S10000x32 := Rect.unit (s := S10000x32) ![0, 0] S10000x32.size inb_S10000x32_S10000x32_0_0

/-- The rectangles' offsets are zero on both axes. -/
theorem zeros1 : (![0, 0] : Fin 2 → Nat) = fun _ => 0 := funext fun a => by fin_cases a <;> rfl

/-! ## What the body leaves in the output window's buffer -/

/-- Window 6's staging buffer after the body, from the input windows' blocks: its one store as a piece (the
    payload is the skeleton's, of what the loads read). -/
def out1 (x0 : Vec F S10000x64 .f32) (x1 : Vec F S10000x64 .f32) (x2 : Vec F S64x32 .f32) (x3 : Vec F S1x32 .f32) (x4 : Vec F S64x32 .f32) (x5 : Vec F S1x32 .f32) : Vec F S10000x32 .f32 :=
  View.canon [⟨r1_3, k1_pay1 (View.ld x0 r1_0) (View.ld x1 r1_0) (View.ld x2 r1_1) (View.ld x3 r1_2) (View.ld x4 r1_1) (View.ld x5 r1_2)⟩]

/-- The one store is of the whole block and every load reads a whole block: the buffer is left at the payload of
    the input blocks. -/
theorem out1_eq (x0 : Vec F S10000x64 .f32) (x1 : Vec F S10000x64 .f32) (x2 : Vec F S64x32 .f32) (x3 : Vec F S1x32 .f32) (x4 : Vec F S64x32 .f32) (x5 : Vec F S1x32 .f32) : out1 x0 x1 x2 x3 x4 x5 = k1_pay1 x0 x1 x2 x3 x4 x5 := by
  unfold out1
  rw [View.canon_unit_zero zeros1]
  simp only [View.ld_unit_zero (S := S10000x64) zeros1, View.ld_unit_zero (S := S64x32) zeros1, View.ld_unit_zero (S := S1x32) zeros1]

/-- Its store tiles the buffer (checked by evaluation), so it covers it. -/
theorem cover1 (p0 : Vec F S10000x32 .f32) (y : S10000x32.Idx) :
    ∃ pc ∈ ([⟨r1_3, p0⟩] : List (View.Piece (Elt F) S10000x32 .f32)), y ∈ pc.1.set :=
  View.cover_of_tiled [⟨r1_3, p0⟩] S10000x32.size (by rfl) y

/-! ## The body's triple -/

set_option maxHeartbeats 1000000 in
/-- The kernel body on whole staging memrefs, the inputs' at read contents `xW` and the output's at anything, runs to
    the continuation holding the inputs' as they were and the output's at `out1` of the inputs': the printed function
    is its skeleton, which is run operation by operation. -/
theorem sound_kernel1 (c : Dev nD) (E : Set ℕ) (i : grid1.Coords) (arg1 : Memref sig .tc .vmem S10000x64 .f32) (harg1 : arg1.IsWhole) (arg2 : Memref sig .tc .vmem S10000x64 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S10000x32 .f32) (harg7 : arg7.IsWhole)
    (x0 : Vec F S10000x64 .f32) (x1 : Vec F S10000x64 .f32) (x2 : Vec F S64x32 .f32) (x3 : Vec F S1x32 .f32) (x4 : Vec F S64x32 .f32) (x5 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1 x0 x1 x2 x3 x4 x5)) -∗ K ⟨⟩))
      ⊢ wp frame (wpE (defs₀ (F := F)) Variants.none c none) E (cc1__agg_kernel i arg1 harg1 arg2 harg2 arg3 harg3 arg4 harg4 arg5 harg5 arg6 harg6 arg7 harg7) K := by
  simp only [cc1__agg_kernel_eq_skeleton]; unfold cc1__agg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1 _)

/-! ## The pipeline's proof data -/

/-- The proof data of pipeline 1 on core `c`: the arrays as the region finds them (`V`); after the body at
    point `t` each input's buffer at its block and the output's at `out1` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the definition's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Body2.lean ====
/- Region 2 of @main (custom_call 2, `cc2__attn_kernel`: the attention body on blocks of 8000 rows of width 32), its class-A half, at any float
   instance `F` and at a PARAMETER `V` — the TensorCore's buffer contents when the region is entered.
   Each window's block at a grid point (`iblk2`); what the body leaves in the output window's staging buffer
   (`out2`), which is the body's one payload of the input blocks (`out2_eq`: the body stores the whole block
   once); the body's triple on whole staging memrefs (`sound_kernel2`); the pipeline's proof data (`dat2`):
   arrays as found, every input's buffer left at its block, the output's at `out2` of the input blocks; and the
   library's body obligation at every grid point (`body_obligation2`).
   The constant-index windows (fetched at the first point only) need no special case: an input window that is
   not fetched at a point has not moved its block index, so its buffer still holds this point's block
   (`Dat.before_in_eq_fetched`). -/
import proofs.«133880_j17265768530448_1_alg».proof.Proof.KI.LaunchP
import proofs.«133880_j17265768530448_1_alg».proof.Proof.Gen.KernelIdeal.Skeleton
import proofs.«133880_j17265768530448_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

-- membership in a rectangle of these extents: the elaborator's structural look recurses once per coordinate
-- of the long axes
set_option maxRecDepth 16384

noncomputable section

namespace Cert.KernelIdeal.Fr

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): unfetched, the block
    index has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): unfetched, the block
    index has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): unfetched, the block
    index has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): unfetched, the block
    index has not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): unfetched, the block
    index has not moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each memref is read, and the output's written, through its whole-shape rectangle -/

abbrev r2_0 : Rect S8000x32 := Rect.unit (s := S8000x32) ![0, 0] S8000x32.size inb_S8000x32_S8000x32_0_0
abbrev r2_1 : Rect S8000x64 := Rect.unit (s := S8000x64) ![0, 0] S8000x64.size inb_S8000x64_S8000x64_0_0
abbrev r2_2 : Rect S64x32 := Rect.unit (s := S64x32) ![0, 0] S64x32.size inb_S64x32_S64x32_0_0
abbrev r2_3 : Rect S1x32 := Rect.unit (s := S1x32) ![0, 0] S1x32.size inb_S1x32_S1x32_0_0

/-- The rectangles' offsets are zero on both axes. -/
theorem zeros2 : (![0, 0] : Fin 2 → Nat) = fun _ => 0 := funext fun a => by fin_cases a <;> rfl

/-! ## What the body leaves in the output window's buffer -/

/-- Window 5's staging buffer after the body, from the input windows' blocks: its one store as a piece (the
    payload is the skeleton's, of what the loads read). -/
def out2 (x0 : Vec F S8000x32 .f32) (x1 : Vec F S8000x32 .f32) (x2 : Vec F S8000x64 .f32) (x3 : Vec F S64x32 .f32) (x4 : Vec F S1x32 .f32) : Vec F S8000x32 .f32 :=
  View.canon [⟨r2_0, k2_pay1 (View.ld x0 r2_0) (View.ld x1 r2_0) (View.ld x2 r2_1) (View.ld x3 r2_2) (View.ld x4 r2_3)⟩]

/-- The one store is of the whole block and every load reads a whole block: the buffer is left at the payload of
    the input blocks. -/
theorem out2_eq (x0 : Vec F S8000x32 .f32) (x1 : Vec F S8000x32 .f32) (x2 : Vec F S8000x64 .f32) (x3 : Vec F S64x32 .f32) (x4 : Vec F S1x32 .f32) : out2 x0 x1 x2 x3 x4 = k2_pay1 x0 x1 x2 x3 x4 := by
  unfold out2
  rw [View.canon_unit_zero zeros2]
  simp only [View.ld_unit_zero (S := S8000x32) zeros2, View.ld_unit_zero (S := S8000x64) zeros2, View.ld_unit_zero (S := S64x32) zeros2, View.ld_unit_zero (S := S1x32) zeros2]

/-- Its store tiles the buffer (checked by evaluation), so it covers it. -/
theorem cover2 (p0 : Vec F S8000x32 .f32) (y : S8000x32.Idx) :
    ∃ pc ∈ ([⟨r2_0, p0⟩] : List (View.Piece (Elt F) S8000x32 .f32)), y ∈ pc.1.set :=
  View.cover_of_tiled [⟨r2_0, p0⟩] S8000x32.size (by rfl) y

/-! ## The body's triple -/

set_option maxHeartbeats 1000000 in
/-- The kernel body on whole staging memrefs, the inputs' at read contents `xW` and the output's at anything, runs to
    the continuation holding the inputs' as they were and the output's at `out2` of the inputs': the printed function
    is its skeleton, which is run operation by operation. -/
theorem sound_kernel2 (c : Dev nD) (E : Set ℕ) (i : grid2.Coords) (arg1 : Memref sig .tc .vmem S8000x32 .f32) (harg1 : arg1.IsWhole) (arg2 : Memref sig .tc .vmem S8000x32 .f32) (harg2 : arg2.IsWhole) (arg3 : Memref sig .tc .vmem S8000x64 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S8000x32 .f32) (harg6 : arg6.IsWhole)
    (x0 : Vec F S8000x32 .f32) (x1 : Vec F S8000x32 .f32) (x2 : Vec F S8000x64 .f32) (x3 : Vec F S64x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2 x0 x1 x2 x3 x4)) -∗ K ⟨⟩))
      ⊢ wp frame (wpE (defs₀ (F := F)) Variants.none c none) E (cc2__attn_kernel i arg1 harg1 arg2 harg2 arg3 harg3 arg4 harg4 arg5 harg5 arg6 harg6) K := by
  simp only [cc2__attn_kernel_eq_skeleton]; unfold cc2__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2 _)

/-! ## The pipeline's proof data -/

/-- The proof data of pipeline 2 on core `c`: the arrays as the region finds them (`V`); after the body at
    point `t` each input's buffer at its block and the output's at `out2` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the definition's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Body3.lean ====
/- Region 3 of @main (custom_call 3, `cc3__agg_kernel`: the aggregation body on blocks of 10000 rows, width 32 to 16), its class-A half, at any float
   instance `F` and at a PARAMETER `V` — the TensorCore's buffer contents when the region is entered.
   Each window's block at a grid point (`iblk3`); what the body leaves in the output window's staging buffer
   (`out3`), which is the body's one payload of the input blocks (`out3_eq`: the body stores the whole block
   once); the body's triple on whole staging memrefs (`sound_kernel3`); the pipeline's proof data (`dat3`):
   arrays as found, every input's buffer left at its block, the output's at `out3` of the input blocks; and the
   library's body obligation at every grid point (`body_obligation3`).
   The constant-index windows (fetched at the first point only) need no special case: an input window that is
   not fetched at a point has not moved its block index, so its buffer still holds this point's block
   (`Dat.before_in_eq_fetched`). -/
import proofs.«133880_j17265768530448_1_alg».proof.Proof.KI.LaunchP
import proofs.«133880_j17265768530448_1_alg».proof.Proof.Gen.KernelIdeal.Skeleton
import proofs.«133880_j17265768530448_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

-- membership in a rectangle of these extents: the elaborator's structural look recurses once per coordinate
-- of the long axes
set_option maxRecDepth 16384

noncomputable section

namespace Cert.KernelIdeal.Fr

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): unfetched, the block
    index has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): unfetched, the block
    index has not moved; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): unfetched, the block
    index has not moved; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for ANY proof
    data whose array is `V`'s (`hA`) and whose body leaves the block in place (`hafter`): unfetched, the block
    index has not moved; the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for ANY proof
    data whose array is `V`'s (`hA`) and whose body leaves the block in place (`hafter`): unfetched, the block
    index has not moved; the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not, for ANY proof
    data whose array is `V`'s (`hA`) and whose body leaves the block in place (`hafter`): unfetched, the block
    index has not moved; the window is uncut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each memref is read, and the output's written, through its whole-shape rectangle -/

abbrev r3_0 : Rect S10000x32 := Rect.unit (s := S10000x32) ![0, 0] S10000x32.size inb_S10000x32_S10000x32_0_0
abbrev r3_1 : Rect S32x16 := Rect.unit (s := S32x16) ![0, 0] S32x16.size inb_S32x16_S32x16_0_0
abbrev r3_2 : Rect S1x16 := Rect.unit (s := S1x16) ![0, 0] S1x16.size inb_S1x16_S1x16_0_0
abbrev r3_3 : Rect S10000x16 := Rect.unit (s := S10000x16) ![0, 0] S10000x16.size inb_S10000x16_S10000x16_0_0

/-- The rectangles' offsets are zero on both axes. -/
theorem zeros3 : (![0, 0] : Fin 2 → Nat) = fun _ => 0 := funext fun a => by fin_cases a <;> rfl

/-! ## What the body leaves in the output window's buffer -/

/-- Window 6's staging buffer after the body, from the input windows' blocks: its one store as a piece (the
    payload is the skeleton's, of what the loads read). -/
def out3 (x0 : Vec F S10000x32 .f32) (x1 : Vec F S10000x32 .f32) (x2 : Vec F S32x16 .f32) (x3 : Vec F S1x16 .f32) (x4 : Vec F S32x16 .f32) (x5 : Vec F S1x16 .f32) : Vec F S10000x16 .f32 :=
  View.canon [⟨r3_3, k3_pay1 (View.ld x0 r3_0) (View.ld x1 r3_0) (View.ld x2 r3_1) (View.ld x3 r3_2) (View.ld x4 r3_1) (View.ld x5 r3_2)⟩]

/-- The one store is of the whole block and every load reads a whole block: the buffer is left at the payload of
    the input blocks. -/
theorem out3_eq (x0 : Vec F S10000x32 .f32) (x1 : Vec F S10000x32 .f32) (x2 : Vec F S32x16 .f32) (x3 : Vec F S1x16 .f32) (x4 : Vec F S32x16 .f32) (x5 : Vec F S1x16 .f32) : out3 x0 x1 x2 x3 x4 x5 = k3_pay1 x0 x1 x2 x3 x4 x5 := by
  unfold out3
  rw [View.canon_unit_zero zeros3]
  simp only [View.ld_unit_zero (S := S10000x32) zeros3, View.ld_unit_zero (S := S32x16) zeros3, View.ld_unit_zero (S := S1x16) zeros3]

/-- Its store tiles the buffer (checked by evaluation), so it covers it. -/
theorem cover3 (p0 : Vec F S10000x16 .f32) (y : S10000x16.Idx) :
    ∃ pc ∈ ([⟨r3_3, p0⟩] : List (View.Piece (Elt F) S10000x16 .f32)), y ∈ pc.1.set :=
  View.cover_of_tiled [⟨r3_3, p0⟩] S10000x16.size (by rfl) y

/-! ## The body's triple -/

set_option maxHeartbeats 1000000 in
/-- The kernel body on whole staging memrefs, the inputs' at read contents `xW` and the output's at anything, runs to
    the continuation holding the inputs' as they were and the output's at `out3` of the inputs': the printed function
    is its skeleton, which is run operation by operation. -/
theorem sound_kernel3 (c : Dev nD) (E : Set ℕ) (i : grid3.Coords) (arg1 : Memref sig .tc .vmem S10000x32 .f32) (harg1 : arg1.IsWhole) (arg2 : Memref sig .tc .vmem S10000x32 .f32) (harg2 : arg2.IsWhole) (arg3 : Memref sig .tc .vmem S32x16 .f32) (harg3 : arg3.IsWhole) (arg4 : Memref sig .tc .vmem S1x16 .f32) (harg4 : arg4.IsWhole) (arg5 : Memref sig .tc .vmem S32x16 .f32) (harg5 : arg5.IsWhole) (arg6 : Memref sig .tc .vmem S1x16 .f32) (harg6 : arg6.IsWhole) (arg7 : Memref sig .tc .vmem S10000x16 .f32) (harg7 : arg7.IsWhole)
    (x0 : Vec F S10000x32 .f32) (x1 : Vec F S10000x32 .f32) (x2 : Vec F S32x16 .f32) (x3 : Vec F S1x16 .f32) (x4 : Vec F S32x16 .f32) (x5 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3 x0 x1 x2 x3 x4 x5)) -∗ K ⟨⟩))
      ⊢ wp frame (wpE (defs₀ (F := F)) Variants.none c none) E (cc3__agg_kernel i arg1 harg1 arg2 harg2 arg3 harg3 arg4 harg4 arg5 harg5 arg6 harg6 arg7 harg7) K := by
  simp only [cc3__agg_kernel_eq_skeleton]; unfold cc3__agg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3 _)

/-! ## The pipeline's proof data -/

/-- The proof data of pipeline 3 on core `c`: the arrays as the region finds them (`V`); after the body at
    point `t` each input's buffer at its block and the output's at `out3` of the input blocks; the invariant
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3 (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the definition's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3 (iblk3 V c 0 t) (iblk3 V c 1 t) (iblk3 V c 2 t) (iblk3 V c 3 t) (iblk3 V c 4 t) (iblk3 V c 5 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t` (the obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.Run.lean ====
/-
  The run of @main as a chain of segments: five stretches of host operations and, between them, the four kernel
  regions. Between two segments every unscoped buffer of a core is held whole at a known contents: the launch memory,
  then the host operations' results folded in, then — after a region — that region's arrays at what its pipeline leaves
  (an input array as it was entered, the output array with every grid point's block written back). Each region is entered
  with its arrays split out of the unscoped buffers and left with them put back; the generator register and the (empty)
  debt of the core ride along. Read at the end: the result buffer holds the last fold's contents at `main_v55`, and no
  host operation or region writes an argument, so each argument array is read back to its launch contents.
-/
import proofs.«133880_j17265768530448_1_alg».proof.Proof.KI.LaunchP
import proofs.«133880_j17265768530448_1_alg».proof.Proof.KI.RegionsP
import proofs.«133880_j17265768530448_1_alg».proof.Proof.Gen.KernelIdeal.Skeleton
import proofs.«133880_j17265768530448_1_alg».proof.Proof.Gen.KernelIdeal.Points
import proofs.«133880_j17265768530448_1_alg».proof.Proof.KI.Body0
import proofs.«133880_j17265768530448_1_alg».proof.Proof.KI.Body1
import proofs.«133880_j17265768530448_1_alg».proof.Proof.KI.Body2
import proofs.«133880_j17265768530448_1_alg».proof.Proof.KI.Body3

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)

/-- After the host stretch `hostOps0`: what region 0 is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`: what region 1 is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`: what region 2 is entered with. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`: what region 3 is entered with. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the last host stretch (the concatenation): the contents the launch reads at the end. -/
abbrev W9 : Dev nD → Valuation τ sig (Elt F) := fun c => StableHlo.after hostOps4 (W8 m ρ c)

/-! ## The arguments end as launched -/
theorem W9_main_arg0 (c : Dev nD) : W9 m ρ c (Proc.devRef .tc main_arg0) = m ((c : Thread nD τ).loc main_arg0) :=
  (StableHlo.after_of_writes_sub hostOps4 _ hostOps4_writes (r := main_arg0) (by decide)).trans <|
  (W8_of_ne m ρ c main_arg0 (by decide)).trans <|
  (StableHlo.after_of_writes_sub hostOps3 _ hostOps3_writes (r := main_arg0) (by decide)).trans <|
  (W6_of_ne m ρ c main_arg0 (by decide)).trans <|
  (StableHlo.after_of_writes_sub hostOps2 _ hostOps2_writes (r := main_arg0) (by decide)).trans <|
  ((W4_arr m ρ c 0).trans (((dat1 (V3 m ρ) c).arrAt_in 0 rfl _).trans (A_eq1 (V3 m ρ) c 0))).trans <|
  (StableHlo.after_of_writes_sub hostOps1 _ hostOps1_writes (r := main_arg0) (by decide)).trans <|
  (W2_of_ne m ρ c main_arg0 (by decide)).trans <|
  (StableHlo.after_of_writes_sub hostOps0 _ hostOps0_writes (r := main_arg0) (by decide)).trans rfl
theorem W9_main_arg1 (c : Dev nD) : W9 m ρ c (Proc.devRef .tc main_arg1) = m ((c : Thread nD τ).loc main_arg1) :=
  (StableHlo.after_of_writes_sub hostOps4 _ hostOps4_writes (r := main_arg1) (by decide)).trans <|
  (W8_of_ne m ρ c main_arg1 (by decide)).trans <|
  (StableHlo.after_of_writes_sub hostOps3 _ hostOps3_writes (r := main_arg1) (by decide)).trans <|
  (W6_of_ne m ρ c main_arg1 (by decide)).trans <|
  (StableHlo.after_of_writes_sub hostOps2 _ hostOps2_writes (r := main_arg1) (by decide)).trans <|
  (W4_of_ne m ρ c main_arg1 (by decide)).trans <|
  (StableHlo.after_of_writes_sub hostOps1 _ hostOps1_writes (r := main_arg1) (by decide)).trans <|
  (W2_of_ne m ρ c main_arg1 (by decide)).trans <|
  (StableHlo.after_of_writes_sub hostOps0 _ hostOps0_writes (r := main_arg1) (by decide)).trans rfl
theorem W9_main_arg2 (c : Dev nD) : W9 m ρ c (Proc.devRef .tc main_arg2) = m ((c : Thread nD τ).loc main_arg2) :=
  (StableHlo.after_of_writes_sub hostOps4 _ hostOps4_writes (r := main_arg2) (by decide)).trans <|
  (W8_of_ne m ρ c main_arg2 (by decide)).trans <|
  (StableHlo.after_of_writes_sub hostOps3 _ hostOps3_writes (r := main_arg2) (by decide)).trans <|
  (W6_of_ne m ρ c main_arg2 (by decide)).trans <|
  (StableHlo.after_of_writes_sub hostOps2 _ hostOps2_writes (r := main_arg2) (by decide)).trans <|
  (W4_of_ne m ρ c main_arg2 (by decide)).trans <|
  (StableHlo.after_of_writes_sub hostOps1 _ hostOps1_writes (r := main_arg2) (by decide)).trans <|
  ((W2_arr m ρ c 3).trans (((dat0 (V1 m ρ) c).arrAt_in 3 rfl _).trans (A_eq0 (V1 m ρ) c 3))).trans <|
  (StableHlo.after_of_writes_sub hostOps0 _ hostOps0_writes (r := main_arg2) (by decide)).trans rfl
theorem W9_main_arg3 (c : Dev nD) : W9 m ρ c (Proc.devRef .tc main_arg3) = m ((c : Thread nD τ).loc main_arg3) :=
  (StableHlo.after_of_writes_sub hostOps4 _ hostOps4_writes (r := main_arg3) (by decide)).trans <|
  (W8_of_ne m ρ c main_arg3 (by decide)).trans <|
  (StableHlo.after_of_writes_sub hostOps3 _ hostOps3_writes (r := main_arg3) (by decide)).trans <|
  (W6_of_ne m ρ c main_arg3 (by decide)).trans <|
  (StableHlo.after_of_writes_sub hostOps2 _ hostOps2_writes (r := main_arg3) (by decide)).trans <|
  (W4_of_ne m ρ c main_arg3 (by decide)).trans <|
  (StableHlo.after_of_writes_sub hostOps1 _ hostOps1_writes (r := main_arg3) (by decide)).trans <|
  (W2_of_ne m ρ c main_arg3 (by decide)).trans <|
  (StableHlo.after_of_writes_sub hostOps0 _ hostOps0_writes (r := main_arg3) (by decide)).trans rfl
theorem W9_main_arg4 (c : Dev nD) : W9 m ρ c (Proc.devRef .tc main_arg4) = m ((c : Thread nD τ).loc main_arg4) :=
  (StableHlo.after_of_writes_sub hostOps4 _ hostOps4_writes (r := main_arg4) (by decide)).trans <|
  (W8_of_ne m ρ c main_arg4 (by decide)).trans <|
  (StableHlo.after_of_writes_sub hostOps3 _ hostOps3_writes (r := main_arg4) (by decide)).trans <|
  (W6_of_ne m ρ c main_arg4 (by decide)).trans <|
  (StableHlo.after_of_writes_sub hostOps2 _ hostOps2_writes (r := main_arg4) (by decide)).trans <|
  ((W4_arr m ρ c 2).trans (((dat1 (V3 m ρ) c).arrAt_in 2 rfl _).trans (A_eq1 (V3 m ρ) c 2))).trans <|
  (StableHlo.after_of_writes_sub hostOps1 _ hostOps1_writes (r := main_arg4) (by decide)).trans <|
  (W2_of_ne m ρ c main_arg4 (by decide)).trans <|
  (StableHlo.after_of_writes_sub hostOps0 _ hostOps0_writes (r := main_arg4) (by decide)).trans rfl
theorem W9_main_arg5 (c : Dev nD) : W9 m ρ c (Proc.devRef .tc main_arg5) = m ((c : Thread nD τ).loc main_arg5) :=
  (StableHlo.after_of_writes_sub hostOps4 _ hostOps4_writes (r := main_arg5) (by decide)).trans <|
  (W8_of_ne m ρ c main_arg5 (by decide)).trans <|
  (StableHlo.after_of_writes_sub hostOps3 _ hostOps3_writes (r := main_arg5) (by decide)).trans <|
  (W6_of_ne m ρ c main_arg5 (by decide)).trans <|
  (StableHlo.after_of_writes_sub hostOps2 _ hostOps2_writes (r := main_arg5) (by decide)).trans <|
  (W4_of_ne m ρ c main_arg5 (by decide)).trans <|
  (StableHlo.after_of_writes_sub hostOps1 _ hostOps1_writes (r := main_arg5) (by decide)).trans <|
  (W2_of_ne m ρ c main_arg5 (by decide)).trans <|
  (StableHlo.after_of_writes_sub hostOps0 _ hostOps0_writes (r := main_arg5) (by decide)).trans rfl
theorem W9_main_arg6 (c : Dev nD) : W9 m ρ c (Proc.devRef .tc main_arg6) = m ((c : Thread nD τ).loc main_arg6) :=
  (StableHlo.after_of_writes_sub hostOps4 _ hostOps4_writes (r := main_arg6) (by decide)).trans <|
  (W8_of_ne m ρ c main_arg6 (by decide)).trans <|
  (StableHlo.after_of_writes_sub hostOps3 _ hostOps3_writes (r := main_arg6) (by decide)).trans <|
  (W6_of_ne m ρ c main_arg6 (by decide)).trans <|
  (StableHlo.after_of_writes_sub hostOps2 _ hostOps2_writes (r := main_arg6) (by decide)).trans <|
  ((W4_arr m ρ c 4).trans (((dat1 (V3 m ρ) c).arrAt_in 4 rfl _).trans (A_eq1 (V3 m ρ) c 4))).trans <|
  (StableHlo.after_of_writes_sub hostOps1 _ hostOps1_writes (r := main_arg6) (by decide)).trans <|
  (W2_of_ne m ρ c main_arg6 (by decide)).trans <|
  (StableHlo.after_of_writes_sub hostOps0 _ hostOps0_writes (r := main_arg6) (by decide)).trans rfl
theorem W9_main_arg7 (c : Dev nD) : W9 m ρ c (Proc.devRef .tc main_arg7) = m ((c : Thread nD τ).loc main_arg7) :=
  (StableHlo.after_of_writes_sub hostOps4 _ hostOps4_writes (r := main_arg7) (by decide)).trans <|
  (W8_of_ne m ρ c main_arg7 (by decide)).trans <|
  (StableHlo.after_of_writes_sub hostOps3 _ hostOps3_writes (r := main_arg7) (by decide)).trans <|
  (W6_of_ne m ρ c main_arg7 (by decide)).trans <|
  (StableHlo.after_of_writes_sub hostOps2 _ hostOps2_writes (r := main_arg7) (by decide)).trans <|
  (W4_of_ne m ρ c main_arg7 (by decide)).trans <|
  (StableHlo.after_of_writes_sub hostOps1 _ hostOps1_writes (r := main_arg7) (by decide)).trans <|
  (W2_of_ne m ρ c main_arg7 (by decide)).trans <|
  (StableHlo.after_of_writes_sub hostOps0 _ hostOps0_writes (r := main_arg7) (by decide)).trans rfl
theorem W9_main_arg8 (c : Dev nD) : W9 m ρ c (Proc.devRef .tc main_arg8) = m ((c : Thread nD τ).loc main_arg8) :=
  (StableHlo.after_of_writes_sub hostOps4 _ hostOps4_writes (r := main_arg8) (by decide)).trans <|
  (W8_of_ne m ρ c main_arg8 (by decide)).trans <|
  (StableHlo.after_of_writes_sub hostOps3 _ hostOps3_writes (r := main_arg8) (by decide)).trans <|
  ((W6_arr m ρ c 3).trans (((dat2 (V5 m ρ) c).arrAt_in 3 rfl _).trans (A_eq2 (V5 m ρ) c 3))).trans <|
  (StableHlo.after_of_writes_sub hostOps2 _ hostOps2_writes (r := main_arg8) (by decide)).trans <|
  (W4_of_ne m ρ c main_arg8 (by decide)).trans <|
  (StableHlo.after_of_writes_sub hostOps1 _ hostOps1_writes (r := main_arg8) (by decide)).trans <|
  (W2_of_ne m ρ c main_arg8 (by decide)).trans <|
  (StableHlo.after_of_writes_sub hostOps0 _ hostOps0_writes (r := main_arg8) (by decide)).trans rfl
theorem W9_main_arg9 (c : Dev nD) : W9 m ρ c (Proc.devRef .tc main_arg9) = m ((c : Thread nD τ).loc main_arg9) :=
  (StableHlo.after_of_writes_sub hostOps4 _ hostOps4_writes (r := main_arg9) (by decide)).trans <|
  (W8_of_ne m ρ c main_arg9 (by decide)).trans <|
  (StableHlo.after_of_writes_sub hostOps3 _ hostOps3_writes (r := main_arg9) (by decide)).trans <|
  (W6_of_ne m ρ c main_arg9 (by decide)).trans <|
  (StableHlo.after_of_writes_sub hostOps2 _ hostOps2_writes (r := main_arg9) (by decide)).trans <|
  (W4_of_ne m ρ c main_arg9 (by decide)).trans <|
  (StableHlo.after_of_writes_sub hostOps1 _ hostOps1_writes (r := main_arg9) (by decide)).trans <|
  (W2_of_ne m ρ c main_arg9 (by decide)).trans <|
  (StableHlo.after_of_writes_sub hostOps0 _ hostOps0_writes (r := main_arg9) (by decide)).trans rfl
theorem W9_main_arg10 (c : Dev nD) : W9 m ρ c (Proc.devRef .tc main_arg10) = m ((c : Thread nD τ).loc main_arg10) :=
  (StableHlo.after_of_writes_sub hostOps4 _ hostOps4_writes (r := main_arg10) (by decide)).trans <|
  ((W8_arr m ρ c 2).trans (((dat3 (V7 m ρ) c).arrAt_in 2 rfl _).trans (A_eq3 (V7 m ρ) c 2))).trans <|
  (StableHlo.after_of_writes_sub hostOps3 _ hostOps3_writes (r := main_arg10) (by decide)).trans <|
  (W6_of_ne m ρ c main_arg10 (by decide)).trans <|
  (StableHlo.after_of_writes_sub hostOps2 _ hostOps2_writes (r := main_arg10) (by decide)).trans <|
  (W4_of_ne m ρ c main_arg10 (by decide)).trans <|
  (StableHlo.after_of_writes_sub hostOps1 _ hostOps1_writes (r := main_arg10) (by decide)).trans <|
  (W2_of_ne m ρ c main_arg10 (by decide)).trans <|
  (StableHlo.after_of_writes_sub hostOps0 _ hostOps0_writes (r := main_arg10) (by decide)).trans rfl
theorem W9_main_arg11 (c : Dev nD) : W9 m ρ c (Proc.devRef .tc main_arg11) = m ((c : Thread nD τ).loc main_arg11) :=
  (StableHlo.after_of_writes_sub hostOps4 _ hostOps4_writes (r := main_arg11) (by decide)).trans <|
  (W8_of_ne m ρ c main_arg11 (by decide)).trans <|
  (StableHlo.after_of_writes_sub hostOps3 _ hostOps3_writes (r := main_arg11) (by decide)).trans <|
  (W6_of_ne m ρ c main_arg11 (by decide)).trans <|
  (StableHlo.after_of_writes_sub hostOps2 _ hostOps2_writes (r := main_arg11) (by decide)).trans <|
  (W4_of_ne m ρ c main_arg11 (by decide)).trans <|
  (StableHlo.after_of_writes_sub hostOps1 _ hostOps1_writes (r := main_arg11) (by decide)).trans <|
  (W2_of_ne m ρ c main_arg11 (by decide)).trans <|
  (StableHlo.after_of_writes_sub hostOps0 _ hostOps0_writes (r := main_arg11) (by decide)).trans rfl
theorem W9_main_arg12 (c : Dev nD) : W9 m ρ c (Proc.devRef .tc main_arg12) = m ((c : Thread nD τ).loc main_arg12) :=
  (StableHlo.after_of_writes_sub hostOps4 _ hostOps4_writes (r := main_arg12) (by decide)).trans <|
  ((W8_arr m ρ c 4).trans (((dat3 (V7 m ρ) c).arrAt_in 4 rfl _).trans (A_eq3 (V7 m ρ) c 4))).trans <|
  (StableHlo.after_of_writes_sub hostOps3 _ hostOps3_writes (r := main_arg12) (by decide)).trans <|
  (W6_of_ne m ρ c main_arg12 (by decide)).trans <|
  (StableHlo.after_of_writes_sub hostOps2 _ hostOps2_writes (r := main_arg12) (by decide)).trans <|
  (W4_of_ne m ρ c main_arg12 (by decide)).trans <|
  (StableHlo.after_of_writes_sub hostOps1 _ hostOps1_writes (r := main_arg12) (by decide)).trans <|
  (W2_of_ne m ρ c main_arg12 (by decide)).trans <|
  (StableHlo.after_of_writes_sub hostOps0 _ hostOps0_writes (r := main_arg12) (by decide)).trans rfl
theorem W9_main_arg13 (c : Dev nD) : W9 m ρ c (Proc.devRef .tc main_arg13) = m ((c : Thread nD τ).loc main_arg13) :=
  (StableHlo.after_of_writes_sub hostOps4 _ hostOps4_writes (r := main_arg13) (by decide)).trans <|
  (W8_of_ne m ρ c main_arg13 (by decide)).trans <|
  (StableHlo.after_of_writes_sub hostOps3 _ hostOps3_writes (r := main_arg13) (by decide)).trans <|
  (W6_of_ne m ρ c main_arg13 (by decide)).trans <|
  (StableHlo.after_of_writes_sub hostOps2 _ hostOps2_writes (r := main_arg13) (by decide)).trans <|
  (W4_of_ne m ρ c main_arg13 (by decide)).trans <|
  (StableHlo.after_of_writes_sub hostOps1 _ hostOps1_writes (r := main_arg13) (by decide)).trans <|
  (W2_of_ne m ρ c main_arg13 (by decide)).trans <|
  (StableHlo.after_of_writes_sub hostOps0 _ hostOps0_writes (r := main_arg13) (by decide)).trans rfl
theorem W9_main_arg14 (c : Dev nD) : W9 m ρ c (Proc.devRef .tc main_arg14) = m ((c : Thread nD τ).loc main_arg14) :=
  (StableHlo.after_of_writes_sub hostOps4 _ hostOps4_writes (r := main_arg14) (by decide)).trans <|
  (W8_of_ne m ρ c main_arg14 (by decide)).trans <|
  (StableHlo.after_of_writes_sub hostOps3 _ hostOps3_writes (r := main_arg14) (by decide)).trans <|
  (W6_of_ne m ρ c main_arg14 (by decide)).trans <|
  (StableHlo.after_of_writes_sub hostOps2 _ hostOps2_writes (r := main_arg14) (by decide)).trans <|
  (W4_of_ne m ρ c main_arg14 (by decide)).trans <|
  (StableHlo.after_of_writes_sub hostOps1 _ hostOps1_writes (r := main_arg14) (by decide)).trans <|
  (W2_of_ne m ρ c main_arg14 (by decide)).trans <|
  (StableHlo.after_of_writes_sub hostOps0 _ hostOps0_writes (r := main_arg14) (by decide)).trans rfl
theorem W9_main_arg15 (c : Dev nD) : W9 m ρ c (Proc.devRef .tc main_arg15) = m ((c : Thread nD τ).loc main_arg15) :=
  (StableHlo.after_of_writes_sub hostOps4 _ hostOps4_writes (r := main_arg15) (by decide)).trans <|
  (W8_of_ne m ρ c main_arg15 (by decide)).trans <|
  (StableHlo.after_of_writes_sub hostOps3 _ hostOps3_writes (r := main_arg15) (by decide)).trans <|
  (W6_of_ne m ρ c main_arg15 (by decide)).trans <|
  (StableHlo.after_of_writes_sub hostOps2 _ hostOps2_writes (r := main_arg15) (by decide)).trans <|
  (W4_of_ne m ρ c main_arg15 (by decide)).trans <|
  (StableHlo.after_of_writes_sub hostOps1 _ hostOps1_writes (r := main_arg15) (by decide)).trans <|
  (W2_of_ne m ρ c main_arg15 (by decide)).trans <|
  (StableHlo.after_of_writes_sub hostOps0 _ hostOps0_writes (r := main_arg15) (by decide)).trans rfl

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last contents, the generator register at some state. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W7`, left at `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]
theorem main_run (c : Dev nD) : main (F := F) c = Pipeline.Seg.run (segs m ρ) := (main_chain c).trans (by chain_rfl)

set_option backward.isDefEq.respectTransparency.types false in
/-- Every weakly fair execution of @main terminates without a fault; the result buffer ends at the last fold's contents
    and every argument array as launched. -/
theorem run : θ_run defs (onTc (τ := τ) (main (F := F))) ⟨m, fun _ => 0, ρ⟩ (fun r => ∀ c : Dev nD,
      r.2.mem ((c.tc : Thread nD τ).loc main_v55) = W9 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (W9 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v55 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c)⟩)

end Cert.KernelIdeal.Fr

end
-- ==== Proof.Ref.Spec.lean ====
/-
  The layer functions of the message-passing network, written with the reference program's own host operations
  at the exact instance (floats are extended reals). One layer is two maps:
  * the attention message of an edge: with r = r_base · pW + pb, the tail row scaled by the edge's score
    Σ_k h[e,k] · tanh (h[e,k] + r[e,k]);
  * the aggregator of a node: with a = cur + neigh and b = cur · neigh, the row
    leaky_relu ((a·W1 + b1) + b·W2 + b2), divided by the larger of its Euclidean norm and a small constant.
  Between them sit a row gather by (wrapped) edge endpoints and a scatter-add of the messages onto the head nodes.
  The whole network is the concatenation of the input embedding with the two layers' outputs.
-/
import proofs.«133880_j17265768530448_1_alg».proof.ReferenceIdeal
import proofs.«133880_j17265768530448_1_alg».proof.Proof.Gen.ReferenceIdeal
import Idealize.ShloMosaic.PureOps.Ideal

noncomputable section

namespace Cert.ReferenceIdeal.Spec

open Idealize.ShloMosaic Cert.ReferenceIdeal Cert.ReferenceIdeal.Facts₀

/-- A negative index wraps once by the extent `n`; the result is laid out as a column of start indices. -/
def wrapIdx (n : BitVec 32) (idx : IVec S1600000 32) : IVec S1600000x1 32 :=
  broadcastInDim S1600000x1 ![0] bcast_S1600000_S1600000x1_0
    (select (cmpi .slt idx (broadcastInDim S1600000 ![] bcast_S_S1600000 (constantI S_ 32 0#32)))
      (addi idx (broadcastInDim S1600000 ![] bcast_S_S1600000 (constantI S_ 32 n))) idx)

/-- Row 0 of the edge list: the head of every edge. -/
def heads (ei : IVec S2x1600000 32) : IVec S1600000 32 :=
  shapeCast S1600000 (extractStridedSlice S1x1600000 ![0, 0] ei slices_S2x1600000_S1x1600000_0_0) shapeCasts_S1x1600000_S1600000
/-- Row 1 of the edge list: the tail of every edge. -/
def tails (ei : IVec S2x1600000 32) : IVec S1600000 32 :=
  shapeCast S1600000 (extractStridedSlice S1x1600000 ![1, 0] ei slices_S2x1600000_S1x1600000_1_0) shapeCasts_S1x1600000_S1600000

/-- The relation embedding of every edge's type. -/
def relBase (rel : FVec Ideal S40x64 .f32) (ty : IVec S1600000 32) : FVec Ideal S1600000x64 .f32 :=
  Host.gather gather_S40x64_S1600000x1_S1600000x64_1_0_n_n_0_1_164 rel (wrapIdx 40#32 ty)

def gather64 (x : FVec Ideal S100000x64 .f32) (idx : IVec S1600000 32) : FVec Ideal S1600000x64 .f32 :=
  Host.gather gather_S100000x64_S1600000x1_S1600000x64_1_0_n_n_0_1_164 x (wrapIdx 100000#32 idx)
def gather32 (x : FVec Ideal S100000x32 .f32) (idx : IVec S1600000 32) : FVec Ideal S1600000x32 .f32 :=
  Host.gather gather_S100000x32_S1600000x1_S1600000x32_1_0_n_n_0_1_132 x (wrapIdx 100000#32 idx)

/-- The messages summed onto their head nodes (the index column is the heads, unwrapped, as the program has it). -/
def scatter64 (hd : IVec S1600000 32) (u : FVec Ideal S1600000x64 .f32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 hd) u
def scatter32 (hd : IVec S1600000 32) (u : FVec Ideal S1600000x32 .f32) : FVec Ideal S100000x32 .f32 :=
  Host.scatterAdd scatter_S100000x32_S1600000x1_S1600000x32_1_0_0_1
    (broadcastInDim S100000x32 ![] bcast_S_S100000x32 (constant (F := Ideal) S_ .f32 0x00000000#32))
    (broadcastInDim S1600000x1 ![0] bcast_S1600000_S1600000x1_0 hd) u

/-- Layer 0's attention message, edge by edge. -/
def attn64 (h t rb : FVec Ideal S1600000x64 .f32) (pW : FVec Ideal S64x64 .f32) (pb : FVec Ideal S64 .f32) :
    FVec Ideal S1600000x64 .f32 :=
  mulf t (broadcastInDim S1600000x64 ![0, 1] bcast_S1600000x1_S1600000x64_0_1
    (broadcastInDim S1600000x1 ![0] bcast_S1600000_S1600000x1_0
      (Host.reduceAdd (F := Ideal)
        (mulf h (Host.tanh (addf h (addf (Host.dotGeneral dot_S1600000x64_S64x64_S1600000x64_1_0_0_1_n_n none rb pW)
          (broadcastInDim S1600000x64 ![0, 1] bcast_S1x64_S1600000x64_0_1 (broadcastInDim S1x64 ![1] bcast_S64_S1x64_1 pb))))))
        (constant (F := Ideal) S_ .f32 0x00000000#32) reducesTo_S1600000x64_S1600000_d1 h_S_)))

/-- Layer 1's attention message, edge by edge. -/
def attn32 (h t : FVec Ideal S1600000x32 .f32) (rb : FVec Ideal S1600000x64 .f32) (pW : FVec Ideal S64x32 .f32)
    (pb : FVec Ideal S32 .f32) : FVec Ideal S1600000x32 .f32 :=
  mulf t (broadcastInDim S1600000x32 ![0, 1] bcast_S1600000x1_S1600000x32_0_1
    (broadcastInDim S1600000x1 ![0] bcast_S1600000_S1600000x1_0
      (Host.reduceAdd (F := Ideal)
        (mulf h (Host.tanh (addf h (addf (Host.dotGeneral dot_S1600000x64_S64x32_S1600000x32_1_0_0_1_n_n none rb pW)
          (broadcastInDim S1600000x32 ![0, 1] bcast_S1x32_S1600000x32_0_1 (broadcastInDim S1x32 ![1] bcast_S32_S1x32_1 pb))))))
        (constant (F := Ideal) S_ .f32 0x00000000#32) reducesTo_S1600000x32_S1600000_d1 h_S_)))

/-- Layer 0's pre-activation: ((a·W1 + b1) + b·W2) + b2 with a = cur + neigh, b = cur · neigh. -/
def pre64 (cur neigh : FVec Ideal S100000x64 .f32) (W1 : FVec Ideal S64x32 .f32) (b1 : FVec Ideal S32 .f32)
    (W2 : FVec Ideal S64x32 .f32) (b2 : FVec Ideal S32 .f32) : FVec Ideal S100000x32 .f32 :=
  addf (addf (addf (Host.dotGeneral dot_S100000x64_S64x32_S100000x32_1_0_0_1_n_n none (addf cur neigh) W1)
      (broadcastInDim S100000x32 ![0, 1] bcast_S1x32_S100000x32_0_1 (broadcastInDim S1x32 ![1] bcast_S32_S1x32_1 b1)))
    (Host.dotGeneral dot_S100000x64_S64x32_S100000x32_1_0_0_1_n_n none (mulf cur neigh) W2))
    (broadcastInDim S100000x32 ![0, 1] bcast_S1x32_S100000x32_0_1 (broadcastInDim S1x32 ![1] bcast_S32_S1x32_1 b2))

/-- The leaky rectifier with slope 0x3C23D70A, then the row divided by max (‖row‖, 0x2B8CBCCC). -/
def act32 (x : FVec Ideal S100000x32 .f32) : FVec Ideal S100000x32 .f32 :=
  let y : FVec Ideal S100000x32 .f32 :=
    select (cmpf .oge x (broadcastInDim S100000x32 ![] bcast_S_S100000x32 (constant (F := Ideal) S_ .f32 0x00000000#32))) x
      (mulf (broadcastInDim S100000x32 ![] bcast_S_S100000x32 (id (constant (F := Ideal) S_ .f32 0x3C23D70A#32))) x)
  Host.divf y (broadcastInDim S100000x32 ![0, 1] bcast_S100000x1_S100000x32_0_1
    (maximumf (Host.sqrt (broadcastInDim S100000x1 ![0] bcast_S100000_S100000x1_0
        (Host.reduceAdd (F := Ideal) (mulf y y) (constant (F := Ideal) S_ .f32 0x00000000#32) reducesTo_S100000x32_S100000_d1 h_S_)))
      (broadcastInDim S100000x1 ![] bcast_S_S100000x1 (constant (F := Ideal) S_ .f32 0x2B8CBCCC#32))))

def agg64 (cur neigh : FVec Ideal S100000x64 .f32) (W1 : FVec Ideal S64x32 .f32) (b1 : FVec Ideal S32 .f32)
    (W2 : FVec Ideal S64x32 .f32) (b2 : FVec Ideal S32 .f32) : FVec Ideal S100000x32 .f32 :=
  act32 (pre64 cur neigh W1 b1 W2 b2)

/-- Layer 1's pre-activation. -/
def pre32 (cur neigh : FVec Ideal S100000x32 .f32) (W1 : FVec Ideal S32x16 .f32) (b1 : FVec Ideal S16 .f32)
    (W2 : FVec Ideal S32x16 .f32) (b2 : FVec Ideal S16 .f32) : FVec Ideal S100000x16 .f32 :=
  addf (addf (addf (Host.dotGeneral dot_S100000x32_S32x16_S100000x16_1_0_0_1_n_n none (addf cur neigh) W1)
      (broadcastInDim S100000x16 ![0, 1] bcast_S1x16_S100000x16_0_1 (broadcastInDim S1x16 ![1] bcast_S16_S1x16_1 b1)))
    (Host.dotGeneral dot_S100000x32_S32x16_S100000x16_1_0_0_1_n_n none (mulf cur neigh) W2))
    (broadcastInDim S100000x16 ![0, 1] bcast_S1x16_S100000x16_0_1 (broadcastInDim S1x16 ![1] bcast_S16_S1x16_1 b2))

def act16 (x : FVec Ideal S100000x16 .f32) : FVec Ideal S100000x16 .f32 :=
  let y : FVec Ideal S100000x16 .f32 :=
    select (cmpf .oge x (broadcastInDim S100000x16 ![] bcast_S_S100000x16 (constant (F := Ideal) S_ .f32 0x00000000#32))) x
      (mulf (broadcastInDim S100000x16 ![] bcast_S_S100000x16 (id (constant (F := Ideal) S_ .f32 0x3C23D70A#32))) x)
  Host.divf y (broadcastInDim S100000x16 ![0, 1] bcast_S100000x1_S100000x16_0_1
    (maximumf (Host.sqrt (broadcastInDim S100000x1 ![0] bcast_S100000_S100000x1_0
        (Host.reduceAdd (F := Ideal) (mulf y y) (constant (F := Ideal) S_ .f32 0x00000000#32) reducesTo_S100000x16_S100000_d1 h_S_)))
      (broadcastInDim S100000x1 ![] bcast_S_S100000x1 (constant (F := Ideal) S_ .f32 0x2B8CBCCC#32))))

def agg32 (cur neigh : FVec Ideal S100000x32 .f32) (W1 : FVec Ideal S32x16 .f32) (b1 : FVec Ideal S16 .f32)
    (W2 : FVec Ideal S32x16 .f32) (b2 : FVec Ideal S16 .f32) : FVec Ideal S100000x16 .f32 :=
  act16 (pre32 cur neigh W1 b1 W2 b2)

/-- Layer 0's node embedding. -/
def layer0 (x : FVec Ideal S100000x64 .f32) (rel : FVec Ideal S40x64 .f32) (pW : FVec Ideal S64x64 .f32) (pb : FVec Ideal S64 .f32)
    (W1 : FVec Ideal S64x32 .f32) (b1 : FVec Ideal S32 .f32) (W2 : FVec Ideal S64x32 .f32) (b2 : FVec Ideal S32 .f32)
    (ei : IVec S2x1600000 32) (ty : IVec S1600000 32) : FVec Ideal S100000x32 .f32 :=
  agg64 x (scatter64 (heads ei) (attn64 (gather64 x (heads ei)) (gather64 x (tails ei)) (relBase rel ty) pW pb)) W1 b1 W2 b2

/-- Layer 1's node embedding, from layer 0's. -/
def layer1 (x1 : FVec Ideal S100000x32 .f32) (rel : FVec Ideal S40x64 .f32) (pW : FVec Ideal S64x32 .f32) (pb : FVec Ideal S32 .f32)
    (W1 : FVec Ideal S32x16 .f32) (b1 : FVec Ideal S16 .f32) (W2 : FVec Ideal S32x16 .f32) (b2 : FVec Ideal S16 .f32)
    (ei : IVec S2x1600000 32) (ty : IVec S1600000 32) : FVec Ideal S100000x16 .f32 :=
  agg32 x1 (scatter32 (heads ei) (attn32 (gather32 x1 (heads ei)) (gather32 x1 (tails ei)) (relBase rel ty) pW pb)) W1 b1 W2 b2

/-- The network's result: the input embedding and both layers' embeddings side by side. -/
def network (a0 : FVec Ideal S100000x64 .f32) (a1 : FVec Ideal S40x64 .f32) (a2 : FVec Ideal S64x64 .f32) (a3 : FVec Ideal S64 .f32)
    (a4 : FVec Ideal S64x32 .f32) (a5 : FVec Ideal S32 .f32) (a6 : FVec Ideal S64x32 .f32) (a7 : FVec Ideal S32 .f32)
    (a8 : FVec Ideal S64x32 .f32) (a9 : FVec Ideal S32 .f32) (a10 : FVec Ideal S32x16 .f32) (a11 : FVec Ideal S16 .f32)
    (a12 : FVec Ideal S32x16 .f32) (a13 : FVec Ideal S16 .f32) (a14 : IVec S2x1600000 32) (a15 : IVec S1600000 32) :
    FVec Ideal S100000x112 .f32 :=
  concatenate S100000x112 1
    [⟨S100000x64, a0⟩, ⟨S100000x32, layer0 a0 a1 a2 a3 a4 a5 a6 a7 a14 a15⟩,
     ⟨S100000x16, layer1 (layer0 a0 a1 a2 a3 a4 a5 a6 a7 a14 a15) a1 a8 a9 a10 a11 a12 a13 a14 a15⟩]
    concatenates_S100000x64_S100000x32_S100000x16_S100000x112_d1

end Cert.ReferenceIdeal.Spec

end
-- ==== Proof.Val.Common.lean ====
/-
  Reading, entry by entry, the operations a row-blocked kernel and its whole-array reference are made of, at a
  matrix index (p, q): the column forms of a broadcast and of a shape cast ([m] → [m,1], [m,1] → [m,n], [n] → [1,n]),
  a one-axis contraction (a matrix product into a zero accumulator, or the host's dot product) as the sum over the
  contracted coordinate, a sum along the rows' entries as the sum over the column coordinate, and the two per-row
  functions built from them: the leaky rectifier followed by the division of a row by the larger of its Euclidean
  norm and a constant, and the score-weighted row of the attention message. Everything is over the extended reals.
-/
import Idealize.ShloMosaic.Lib.KernelVsHost
import Idealize.ShloMosaic.Lib.ValueLayout

noncomputable section

open scoped BigOperators

namespace Cert.KernelIdeal.Val

open Idealize.ShloMosaic Idealize.ShloMosaic.ValueIdx

/-! ## Layout operations at (p, q) -/

section Layout
variable {α : Type}

/-- An [m, 1] column broadcast along the rows' entries reads, at (p, q), the column at p. -/
theorem broadcastTo_col_apply {m n : ℕ} (v : (⟨2, ![m, 1]⟩ : Shape).Idx → α)
    (h : (⟨2, ![m, 1]⟩ : Shape).Broadcasts ⟨2, ![m, n]⟩) (p : Fin m) (q : Fin n) :
    broadcastTo ⟨2, ![m, n]⟩ v h (ix2 p q) = v (ix2 p (0 : Fin 1)) := by
  refine broadcastTo_apply v h (ix2 p q) (ix2 p (0 : Fin 1)) fun ax => ?_
  match ax with
  | ⟨0, _⟩ =>
    show p.val = if m = 1 then 0 else p.val
    split
    · have := p.isLt; omega
    · rfl
  | ⟨1, _⟩ =>
    show (0 : ℕ) = if (1 : ℕ) = 1 then 0 else _
    simp

/-- A vector of m entries cast to an [m, 1] column reads, at (p, 0), the vector at p. -/
theorem shapeCast_vec_col_apply {m : ℕ} (x : (⟨1, ![m]⟩ : Shape).Idx → α)
    (h : (⟨1, ![m]⟩ : Shape).ShapeCasts ⟨2, ![m, 1]⟩) (p : Fin m) (u : Fin 1) :
    shapeCast ⟨2, ![m, 1]⟩ x h (ix2 p u) = x (ix1 p) := by
  refine shapeCast_apply x h (ix2 p u) (ix1 p) ?_
  rw [Shape.rowMajor_val_two, Shape.rowMajor_val_one]
  show p.val = p.val * 1 + u.val
  have := u.isLt; omega

/-- The host's broadcast of a vector of n entries to one row [1, n] reads, at (0, q), the vector at q. -/
theorem broadcastInDim_vec_row_apply {n : ℕ} (hd : (⟨1, ![n]⟩ : Shape).BroadcastsInDim ⟨2, ![1, n]⟩ ![1])
    (x : (⟨1, ![n]⟩ : Shape).Idx → α) (u : Fin 1) (q : Fin n) :
    broadcastInDim ⟨2, ![1, n]⟩ ![1] hd x (ix2 u q) = x (ix1 q) := by
  refine broadcastInDim_apply ![1] hd x (ix2 u q) (ix1 q) fun a => ?_
  match a with
  | ⟨0, _⟩ =>
    show q.val = if n = 1 then 0 else q.val
    split
    · have := q.isLt; omega
    · rfl

/-- The host's broadcast of a vector of m entries to a column [m, 1] reads, at (p, 0), the vector at p. -/
theorem broadcastInDim_vec_col_apply {m : ℕ} (hd : (⟨1, ![m]⟩ : Shape).BroadcastsInDim ⟨2, ![m, 1]⟩ ![0])
    (x : (⟨1, ![m]⟩ : Shape).Idx → α) (p : Fin m) (u : Fin 1) :
    broadcastInDim ⟨2, ![m, 1]⟩ ![0] hd x (ix2 p u) = x (ix1 p) := by
  refine broadcastInDim_apply ![0] hd x (ix2 p u) (ix1 p) fun a => ?_
  match a with
  | ⟨0, _⟩ =>
    show p.val = if m = 1 then 0 else p.val
    split
    · have := p.isLt; omega
    · rfl

/-- The host's broadcast of a column [m, 1] along the rows' entries reads, at (p, q), the column at p. -/
theorem broadcastInDim_col_apply {m n : ℕ} (hd : (⟨2, ![m, 1]⟩ : Shape).BroadcastsInDim ⟨2, ![m, n]⟩ ![0, 1])
    (x : (⟨2, ![m, 1]⟩ : Shape).Idx → α) (p : Fin m) (q : Fin n) :
    broadcastInDim ⟨2, ![m, n]⟩ ![0, 1] hd x (ix2 p q) = x (ix2 p (0 : Fin 1)) := by
  refine broadcastInDim_apply ![0, 1] hd x (ix2 p q) (ix2 p (0 : Fin 1)) fun a => ?_
  match a with
  | ⟨0, _⟩ =>
    show p.val = if m = 1 then 0 else p.val
    split
    · have := p.isLt; omega
    · rfl
  | ⟨1, _⟩ =>
    show (0 : ℕ) = if (1 : ℕ) = 1 then 0 else _
    simp

end Layout

/-! ## A one-axis contraction and a row sum, as sums over one coordinate -/

/-- For an [M, K] by [K, N] contraction of axis 1 with axis 0, the sum over the contraction index is the sum over
    k of the left operand at (p, k) times the right operand at (k, q). -/
theorem sum_contr_ix2 {M K N : ℕ} (d : DotDims ⟨2, ![M, K]⟩ ⟨2, ![K, N]⟩ ⟨2, ![M, N]⟩)
    (hl : d.lhsContracting = [1]) (hr : d.rhsContracting = [0]) (hrk : d.contr.rank = 1)
    (hs : d.contr.size ⟨0, by omega⟩ = K)
    (h0 : ∀ j k, (d.lhsIdx j k 0).val = (j 0).val) (h1 : ∀ j k, (d.rhsIdx j k 1).val = (j 1).val)
    (lhs : (⟨2, ![M, K]⟩ : Shape).Idx → EReal) (rhs : (⟨2, ![K, N]⟩ : Shape).Idx → EReal) (p : Fin M) (q : Fin N) :
    ∑ k : d.contr.Idx, lhs (d.lhsIdx (ix2 p q) k) * rhs (d.rhsIdx (ix2 p q) k)
      = ∑ k : Fin K, lhs (ix2 p k) * rhs (ix2 k q) := by
  rw [← Equiv.sum_comp (contrEquiv1 d K hrk hs).symm]
  refine Finset.sum_congr rfl fun k _ => ?_
  have el : d.lhsIdx (ix2 p q) ((contrEquiv1 d K hrk hs).symm k) = ix2 p k := by
    funext a
    apply Fin.ext
    match a with
    | ⟨0, _⟩ => exact h0 _ _
    | ⟨1, _⟩ => exact (d.lhsIdx_val_of_single hl _ _).trans (contrEquiv1_symm_val d K hrk hs k)
  have er : d.rhsIdx (ix2 p q) ((contrEquiv1 d K hrk hs).symm k) = ix2 k q := by
    funext a
    apply Fin.ext
    match a with
    | ⟨0, _⟩ => exact (d.rhsIdx_val_of_single hr _ _).trans (contrEquiv1_symm_val d K hrk hs k)
    | ⟨1, _⟩ => exact h1 _ _
  rw [el, er]

/-- A matrix product into a zero accumulator, at (p, q). -/
theorem matmul_zero_ix2 {M K N : ℕ} {φ₁ φ₂ : FTy} (d : DotDims ⟨2, ![M, K]⟩ ⟨2, ![K, N]⟩ ⟨2, ![M, N]⟩)
    (hl : d.lhsContracting = [1]) (hr : d.rhsContracting = [0]) (hrk : d.contr.rank = 1)
    (hs : d.contr.size ⟨0, by omega⟩ = K)
    (h0 : ∀ j k, (d.lhsIdx j k 0).val = (j 0).val) (h1 : ∀ j k, (d.rhsIdx j k 1).val = (j 1).val)
    (prec : Option ContractPrecision) (lhs : FVec Ideal ⟨2, ![M, K]⟩ φ₁) (rhs : FVec Ideal ⟨2, ![K, N]⟩ φ₂)
    (p : Fin M) (q : Fin N) :
    FloatOps.matmul d prec lhs rhs (constant (F := Ideal) ⟨2, ![M, N]⟩ .f32 0x00000000#32) (ix2 p q)
      = ∑ k : Fin K, lhs (ix2 p k) * rhs (ix2 k q) :=
  (Ideal.matmul_constant_zero_apply d prec lhs rhs (ix2 p q)).trans (sum_contr_ix2 d hl hr hrk hs h0 h1 lhs rhs p q)

/-- The host's dot product, at (p, q). -/
theorem dotGeneral_ix2 {M K N : ℕ} {φ₁ φ₂ : FTy} (d : DotDims ⟨2, ![M, K]⟩ ⟨2, ![K, N]⟩ ⟨2, ![M, N]⟩)
    (hl : d.lhsContracting = [1]) (hr : d.rhsContracting = [0]) (hrk : d.contr.rank = 1)
    (hs : d.contr.size ⟨0, by omega⟩ = K)
    (h0 : ∀ j k, (d.lhsIdx j k 0).val = (j 0).val) (h1 : ∀ j k, (d.rhsIdx j k 1).val = (j 1).val)
    (prec : Option ContractPrecision) (sched : HostSchedule) (lhs : FVec Ideal ⟨2, ![M, K]⟩ φ₁)
    (rhs : FVec Ideal ⟨2, ![K, N]⟩ φ₂) (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr_ix2 d hl hr hrk hs h0 h1 lhs rhs p q)

/-- The index a sum along axis 1 reads: row p, entry k. -/
theorem lift_row {m n : ℕ} (h : (⟨2, ![m, n]⟩ : Shape).Reduces [1] ⟨1, ![m]⟩) (p : Fin m) (k : Fin n) :
    h.lift (ix1 p) k = ix2 p k := by
  funext a
  apply Fin.ext
  match a with
  | ⟨0, _⟩ => rfl
  | ⟨1, _⟩ => rfl

/-- A kernel's sum along the rows' entries, at row p. -/
theorem multiReduction_row {m n : ℕ} {φ : FTy} (src : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (p : Fin m) :
    multiReduction .add [1] ⟨1, ![m]⟩ src acc h hφ hacc (ix1 p) = ∑ k : Fin n, src (ix2 p k) :=
  (Ideal.multiReduction_add_single src acc h hφ hacc (ix1 p)).trans
    (Finset.sum_congr rfl fun k _ => congrArg src (lift_row h p k))

/-- The host's sum along the rows' entries from an initial value, at row p. -/
theorem hostReduceAdd_row {m n : ℕ} (h' : (⟨2, ![m, n]⟩ : Shape).ReducesTo [1] ⟨1, ![m]⟩)
    (h : (⟨2, ![m, n]⟩ : Shape).Reduces [1] ⟨1, ![m]⟩) (x : (⟨2, ![m, n]⟩ : Shape).Idx → EReal) (init : EReal)
    (p : Fin m) :
    Ideal.hostReduceAdd h' x init (ix1 p) = init + ∑ k : Fin n, x (ix2 p k) :=
  (Ideal.hostReduceAdd_single h' h x init (ix1 p)).trans
    (congrArg (init + ·) (Finset.sum_congr rfl fun k _ => congrArg x (lift_row h p k)))

/-! ## The per-row functions -/

/-- The leaky rectifier on one value: z where z ≥ 0, else z times the slope. -/
def lrelu (z : EReal) : EReal :=
  Scalar.select (Ideal.cmp .oge z (Ideal.ofBits .f32 0x00000000#32)) z (z * Ideal.ofBits .f32 0x3C23D70A#32)

/-- A row divided by the larger of its Euclidean norm and a small constant, at entry q. -/
def rowNorm {n : ℕ} (y : Fin n → EReal) (q : Fin n) : EReal :=
  Ideal.div (y q) (max (Ideal.sqrt (∑ j : Fin n, y j * y j)) (Ideal.ofBits .f32 0x2B8CBCCC#32))

/-- The aggregator's pre-activation in the kernel's grouping: (a·W1 + b1) + (b·W2 + b2) at (p, j), with
    a = x0 + x1 and b = x0 · x1 the sum and the product of the two row blocks. -/
def preK {M K N : ℕ} (x0 x1 : (⟨2, ![M, K]⟩ : Shape).Idx → EReal) (w1 : (⟨2, ![K, N]⟩ : Shape).Idx → EReal)
    (b1 : (⟨2, ![1, N]⟩ : Shape).Idx → EReal) (w2 : (⟨2, ![K, N]⟩ : Shape).Idx → EReal)
    (b2 : (⟨2, ![1, N]⟩ : Shape).Idx → EReal) (p : Fin M) (j : Fin N) : EReal :=
  ((∑ k : Fin K, (x0 (ix2 p k) + x1 (ix2 p k)) * w1 (ix2 k j)) + b1 (ix2 (0 : Fin 1) j))
    + ((∑ k : Fin K, (x0 (ix2 p k) * x1 (ix2 p k)) * w2 (ix2 k j)) + b2 (ix2 (0 : Fin 1) j))

/-- The same in the reference's grouping: ((a·W1 + b1) + b·W2) + b2 at (r, j). -/
def preS {R K N : ℕ} (cur neigh : (⟨2, ![R, K]⟩ : Shape).Idx → EReal) (w1 : (⟨2, ![K, N]⟩ : Shape).Idx → EReal)
    (b1 : (⟨1, ![N]⟩ : Shape).Idx → EReal) (w2 : (⟨2, ![K, N]⟩ : Shape).Idx → EReal)
    (b2 : (⟨1, ![N]⟩ : Shape).Idx → EReal) (r : Fin R) (j : Fin N) : EReal :=
  (((∑ k : Fin K, (cur (ix2 r k) + neigh (ix2 r k)) * w1 (ix2 k j)) + b1 (ix1 j))
    + (∑ k : Fin K, (cur (ix2 r k) * neigh (ix2 r k)) * w2 (ix2 k j))) + b2 (ix1 j)

/-- The two groupings agree when the blocks are row r of the arrays: addition on the extended reals is associative. -/
theorem preK_eq_preS {M R K N : ℕ} (x0 x1 : (⟨2, ![M, K]⟩ : Shape).Idx → EReal)
    (cur neigh : (⟨2, ![R, K]⟩ : Shape).Idx → EReal) (w1 W1 w2 W2 : (⟨2, ![K, N]⟩ : Shape).Idx → EReal)
    (b1 b2 : (⟨2, ![1, N]⟩ : Shape).Idx → EReal) (B1 B2 : (⟨1, ![N]⟩ : Shape).Idx → EReal) (p : Fin M) (r : Fin R)
    (h0 : ∀ k : Fin K, x0 (ix2 p k) = cur (ix2 r k)) (h1 : ∀ k : Fin K, x1 (ix2 p k) = neigh (ix2 r k))
    (hw1 : ∀ (k : Fin K) (j : Fin N), w1 (ix2 k j) = W1 (ix2 k j)) (hb1 : ∀ j : Fin N, b1 (ix2 (0 : Fin 1) j) = B1 (ix1 j))
    (hw2 : ∀ (k : Fin K) (j : Fin N), w2 (ix2 k j) = W2 (ix2 k j)) (hb2 : ∀ j : Fin N, b2 (ix2 (0 : Fin 1) j) = B2 (ix1 j))
    (j : Fin N) : preK x0 x1 w1 b1 w2 b2 p j = preS cur neigh W1 B1 W2 B2 r j := by
  unfold preK preS
  rw [hb1 j, hb2 j]
  simp only [h0, h1, hw1, hw2]
  exact (add_assoc _ _ _).symm

/-- The attention message in the kernel's spelling, at (p, q): the tail row's entry times the edge's score
    Σ_j h[p,j] · tanh (h[p,j] + (Σ_k rb[p,k] · w[k,j] + b[0,j])). -/
def attnK {M K N : ℕ} (h t : (⟨2, ![M, N]⟩ : Shape).Idx → EReal) (rb : (⟨2, ![M, K]⟩ : Shape).Idx → EReal)
    (w : (⟨2, ![K, N]⟩ : Shape).Idx → EReal) (b : (⟨2, ![1, N]⟩ : Shape).Idx → EReal) (p : Fin M) (q : Fin N) : EReal :=
  t (ix2 p q) * ∑ j : Fin N, h (ix2 p j)
    * Ideal.tanh (h (ix2 p j) + ((∑ k : Fin K, rb (ix2 p k) * w (ix2 k j)) + b (ix2 (0 : Fin 1) j)))

/-- The same over the whole arrays, the bias a vector, at (r, q). -/
def attnS {R K N : ℕ} (h t : (⟨2, ![R, N]⟩ : Shape).Idx → EReal) (rb : (⟨2, ![R, K]⟩ : Shape).Idx → EReal)
    (w : (⟨2, ![K, N]⟩ : Shape).Idx → EReal) (b : (⟨1, ![N]⟩ : Shape).Idx → EReal) (r : Fin R) (q : Fin N) : EReal :=
  t (ix2 r q) * ∑ j : Fin N, h (ix2 r j)
    * Ideal.tanh (h (ix2 r j) + ((∑ k : Fin K, rb (ix2 r k) * w (ix2 k j)) + b (ix1 j)))

/-- They agree when the blocks are row r of the arrays. -/
theorem attnK_eq_attnS {M R K N : ℕ} (x0 x1 : (⟨2, ![M, N]⟩ : Shape).Idx → EReal) (x2 : (⟨2, ![M, K]⟩ : Shape).Idx → EReal)
    (h t : (⟨2, ![R, N]⟩ : Shape).Idx → EReal) (rb : (⟨2, ![R, K]⟩ : Shape).Idx → EReal)
    (w W : (⟨2, ![K, N]⟩ : Shape).Idx → EReal) (b : (⟨2, ![1, N]⟩ : Shape).Idx → EReal) (B : (⟨1, ![N]⟩ : Shape).Idx → EReal)
    (p : Fin M) (r : Fin R)
    (h0 : ∀ j : Fin N, x0 (ix2 p j) = h (ix2 r j)) (h1 : ∀ j : Fin N, x1 (ix2 p j) = t (ix2 r j))
    (h2 : ∀ k : Fin K, x2 (ix2 p k) = rb (ix2 r k)) (hw : ∀ (k : Fin K) (j : Fin N), w (ix2 k j) = W (ix2 k j))
    (hb : ∀ j : Fin N, b (ix2 (0 : Fin 1) j) = B (ix1 j)) (q : Fin N) :
    attnK x0 x1 x2 w b p q = attnS h t rb W B r q := by
  unfold attnK attnS
  simp only [h0, h1, h2, hw, hb]

/-! ## The kernels' and the reference's vector terms at (p, q) -/

section Terms

/-- The kernel's leaky rectifier (a select on z ≥ 0 between z and z times the slope), at an index. -/
theorem lrelu_kernel_apply {s : Shape} (z : FVec Ideal s .f32) (i : s.Idx) :
    select (cmpf .oge z (broadcast s (FloatOps.ofBits (F := Ideal) .f32 0x00000000#32))) z
      (mulf z (broadcast s (FloatOps.ofBits (F := Ideal) .f32 0x3C23D70A#32))) i = lrelu (z i) := rfl

/-- The reference's leaky rectifier multiplies the slope from the left: the product commutes. -/
theorem lrelu_host_apply {s : Shape} (hb : (⟨0, ![]⟩ : Shape).BroadcastsInDim s ![]) (z : FVec Ideal s .f32) (i : s.Idx) :
    select (cmpf .oge z (broadcastInDim s ![] hb (constant (F := Ideal) ⟨0, ![]⟩ .f32 0x00000000#32))) z
      (mulf (broadcastInDim s ![] hb (id (constant (F := Ideal) ⟨0, ![]⟩ .f32 0x3C23D70A#32))) z) i = lrelu (z i) := by
  show Scalar.select (Ideal.cmp .oge (z i) (Ideal.ofBits .f32 0x00000000#32)) (z i) (Ideal.ofBits .f32 0x3C23D70A#32 * z i)
    = Scalar.select (Ideal.cmp .oge (z i) (Ideal.ofBits .f32 0x00000000#32)) (z i) (z i * Ideal.ofBits .f32 0x3C23D70A#32)
  rw [mul_comm (Ideal.ofBits .f32 0x3C23D70A#32) (z i)]

/-- The kernel's row normalization: y divided by the column max (√(Σ_j y²), ε) broadcast along the rows' entries. -/
theorem norm_kernel_apply {m n : ℕ} (y : FVec Ideal ⟨2, ![m, n]⟩ .f32)
    (hr : (⟨2, ![m, n]⟩ : Shape).Reduces [1] ⟨1, ![m]⟩) (hφ : FKind.Formats .f32)
    (hacc : (0x00000000#32 : BitVec 32) = FKind.add.neutral .f32 hφ)
    (hc : (⟨1, ![m]⟩ : Shape).ShapeCasts ⟨2, ![m, 1]⟩) (hb : (⟨2, ![m, 1]⟩ : Shape).Broadcasts ⟨2, ![m, n]⟩)
    (p : Fin m) (q : Fin n) :
    divf y (broadcastTo ⟨2, ![m, n]⟩
      (maximumf (sqrt (shapeCast ⟨2, ![m, 1]⟩ (multiReduction .add [1] ⟨1, ![m]⟩ (mulf y y) 0x00000000#32 hr hφ hacc) hc))
        (broadcast ⟨2, ![m, 1]⟩ (FloatOps.ofBits (F := Ideal) .f32 0x2B8CBCCC#32))) hb) (ix2 p q)
      = rowNorm (fun j => y (ix2 p j)) q := by
  show Ideal.div (y (ix2 p q)) (broadcastTo ⟨2, ![m, n]⟩ _ hb (ix2 p q)) = _
  rw [broadcastTo_col_apply]
  show Ideal.div (y (ix2 p q)) (max (Ideal.sqrt (shapeCast ⟨2, ![m, 1]⟩ _ hc (ix2 p (0 : Fin 1))))
    (Ideal.ofBits .f32 0x2B8CBCCC#32)) = _
  rw [shapeCast_vec_col_apply, multiReduction_row]
  rfl

/-- The reference's row normalization: the same with the host's sum from the initial value 0 (0 + x = x). -/
theorem norm_host_apply {m n : ℕ} (y : FVec Ideal ⟨2, ![m, n]⟩ .f32)
    (hb1 : (⟨2, ![m, 1]⟩ : Shape).BroadcastsInDim ⟨2, ![m, n]⟩ ![0, 1])
    (hb0 : (⟨1, ![m]⟩ : Shape).BroadcastsInDim ⟨2, ![m, 1]⟩ ![0])
    (hbs : (⟨0, ![]⟩ : Shape).BroadcastsInDim ⟨2, ![m, 1]⟩ ![])
    (hr' : (⟨2, ![m, n]⟩ : Shape).ReducesTo [1] ⟨1, ![m]⟩) (hr : (⟨2, ![m, n]⟩ : Shape).Reduces [1] ⟨1, ![m]⟩)
    (hu : 0 < (⟨0, ![]⟩ : Shape).numel) (p : Fin m) (q : Fin n) :
    Host.divf y (broadcastInDim ⟨2, ![m, n]⟩ ![0, 1] hb1
      (maximumf (Host.sqrt (broadcastInDim ⟨2, ![m, 1]⟩ ![0] hb0
          (Host.reduceAdd (F := Ideal) (mulf y y) (constant (F := Ideal) ⟨0, ![]⟩ .f32 0x00000000#32) hr' hu)))
        (broadcastInDim ⟨2, ![m, 1]⟩ ![] hbs (constant (F := Ideal) ⟨0, ![]⟩ .f32 0x2B8CBCCC#32)))) (ix2 p q)
      = rowNorm (fun j => y (ix2 p j)) q := by
  show Ideal.div (y (ix2 p q)) (broadcastInDim (s := ⟨2, ![m, 1]⟩) ⟨2, ![m, n]⟩ ![0, 1] hb1 _ (ix2 p q)) = _
  rw [broadcastInDim_col_apply]
  show Ideal.div (y (ix2 p q)) (max (Ideal.sqrt (broadcastInDim (s := ⟨1, ![m]⟩) ⟨2, ![m, 1]⟩ ![0] hb0 _ (ix2 p (0 : Fin 1))))
    (Ideal.ofBits .f32 0x2B8CBCCC#32)) = _
  rw [broadcastInDim_vec_col_apply]
  show Ideal.div (y (ix2 p q)) (max (Ideal.sqrt (Ideal.hostReduceAdd hr' (mulf y y) (Ideal.ofBits .f32 0x00000000#32) (ix1 p)))
    (Ideal.ofBits .f32 0x2B8CBCCC#32)) = _
  rw [hostReduceAdd_row hr' hr, Ideal.ofBits_zero_f32, zero_add]
  rfl

/-- The kernel's pre-activation (two matrix products into zero accumulators of the operands narrowed to bf16, which
    at the extended reals is the identity; each plus its bias row broadcast down the rows), at (p, j). -/
theorem pre_kernel_apply {M K N : ℕ} (d : DotDims ⟨2, ![M, K]⟩ ⟨2, ![K, N]⟩ ⟨2, ![M, N]⟩)
    (hl : d.lhsContracting = [1]) (hr : d.rhsContracting = [0]) (hrk : d.contr.rank = 1)
    (hs : d.contr.size ⟨0, by omega⟩ = K)
    (h0 : ∀ j k, (d.lhsIdx j k 0).val = (j 0).val) (h1 : ∀ j k, (d.rhsIdx j k 1).val = (j 1).val)
    (hlt : FTy.bits .bf16 < FTy.bits .f32) (hb : (⟨2, ![1, N]⟩ : Shape).Broadcasts ⟨2, ![M, N]⟩)
    (x0 x1 : FVec Ideal ⟨2, ![M, K]⟩ .f32) (w1 : FVec Ideal ⟨2, ![K, N]⟩ .f32) (b1 : FVec Ideal ⟨2, ![1, N]⟩ .f32)
    (w2 : FVec Ideal ⟨2, ![K, N]⟩ .f32) (b2 : FVec Ideal ⟨2, ![1, N]⟩ .f32) (p : Fin M) (j : Fin N) :
    addf (addf (matmul d none (truncf .bf16 (addf x0 x1) hlt) (truncf .bf16 w1 hlt)
          (constant (F := Ideal) ⟨2, ![M, N]⟩ .f32 0x00000000#32)) (broadcastTo ⟨2, ![M, N]⟩ b1 hb))
      (addf (matmul d none (truncf .bf16 (mulf x0 x1) hlt) (truncf .bf16 w2 hlt)
          (constant (F := Ideal) ⟨2, ![M, N]⟩ .f32 0x00000000#32)) (broadcastTo ⟨2, ![M, N]⟩ b2 hb)) (ix2 p j)
      = preK x0 x1 w1 b1 w2 b2 p j := by
  show (FloatOps.matmul d none (truncf .bf16 (addf x0 x1) hlt) (truncf .bf16 w1 hlt)
          (constant (F := Ideal) ⟨2, ![M, N]⟩ .f32 0x00000000#32) (ix2 p j) + broadcastTo ⟨2, ![M, N]⟩ b1 hb (ix2 p j))
      + (FloatOps.matmul d none (truncf .bf16 (mulf x0 x1) hlt) (truncf .bf16 w2 hlt)
          (constant (F := Ideal) ⟨2, ![M, N]⟩ .f32 0x00000000#32) (ix2 p j) + broadcastTo ⟨2, ![M, N]⟩ b2 hb (ix2 p j)) = _
  rw [broadcastTo_1b_ab_apply, broadcastTo_1b_ab_apply, matmul_zero_ix2 d hl hr hrk hs h0 h1,
    matmul_zero_ix2 d hl hr hrk hs h0 h1]
  rfl

/-- The reference's pre-activation (two host dot products; each bias a vector broadcast to one row and down the
    rows), at (r, j). -/
theorem pre_host_apply {R K N : ℕ} (d : DotDims ⟨2, ![R, K]⟩ ⟨2, ![K, N]⟩ ⟨2, ![R, N]⟩)
    (hl : d.lhsContracting = [1]) (hr : d.rhsContracting = [0]) (hrk : d.contr.rank = 1)
    (hs : d.contr.size ⟨0, by omega⟩ = K)
    (h0 : ∀ j k, (d.lhsIdx j k 0).val = (j 0).val) (h1 : ∀ j k, (d.rhsIdx j k 1).val = (j 1).val)
    (hbr : (⟨2, ![1, N]⟩ : Shape).BroadcastsInDim ⟨2, ![R, N]⟩ ![0, 1])
    (hbv : (⟨1, ![N]⟩ : Shape).BroadcastsInDim ⟨2, ![1, N]⟩ ![1])
    (cur neigh : FVec Ideal ⟨2, ![R, K]⟩ .f32) (W1 : FVec Ideal ⟨2, ![K, N]⟩ .f32) (b1 : FVec Ideal ⟨1, ![N]⟩ .f32)
    (W2 : FVec Ideal ⟨2, ![K, N]⟩ .f32) (b2 : FVec Ideal ⟨1, ![N]⟩ .f32) (r : Fin R) (j : Fin N) :
    addf (addf (addf (Host.dotGeneral d none (addf cur neigh) W1)
          (broadcastInDim ⟨2, ![R, N]⟩ ![0, 1] hbr (broadcastInDim ⟨2, ![1, N]⟩ ![1] hbv b1)))
        (Host.dotGeneral d none (mulf cur neigh) W2))
      (broadcastInDim ⟨2, ![R, N]⟩ ![0, 1] hbr (broadcastInDim ⟨2, ![1, N]⟩ ![1] hbv b2)) (ix2 r j)
      = preS cur neigh W1 b1 W2 b2 r j := by
  show ((FloatOps.dotGeneral d none .single (addf cur neigh) W1 (ix2 r j)
          + broadcastInDim ⟨2, ![R, N]⟩ ![0, 1] hbr (broadcastInDim ⟨2, ![1, N]⟩ ![1] hbv b1) (ix2 r j))
        + FloatOps.dotGeneral d none .single (mulf cur neigh) W2 (ix2 r j))
      + broadcastInDim ⟨2, ![R, N]⟩ ![0, 1] hbr (broadcastInDim ⟨2, ![1, N]⟩ ![1] hbv b2) (ix2 r j) = _
  rw [broadcastInDim_oneRow_apply, broadcastInDim_oneRow_apply, broadcastInDim_vec_row_apply,
    broadcastInDim_vec_row_apply, dotGeneral_ix2 d hl hr hrk hs h0 h1, dotGeneral_ix2 d hl hr hrk hs h0 h1]
  rfl

/-- The kernel's attention message (the relation row through the projection, plus the bias row, added to the head
    row, through tanh, times the head row, summed along the row, and that score times the tail row), at (p, q). -/
theorem attn_kernel_apply {M K N : ℕ} (d : DotDims ⟨2, ![M, K]⟩ ⟨2, ![K, N]⟩ ⟨2, ![M, N]⟩)
    (hl : d.lhsContracting = [1]) (hr : d.rhsContracting = [0]) (hrk : d.contr.rank = 1)
    (hs : d.contr.size ⟨0, by omega⟩ = K)
    (h0 : ∀ j k, (d.lhsIdx j k 0).val = (j 0).val) (h1 : ∀ j k, (d.rhsIdx j k 1).val = (j 1).val)
    (hlt : FTy.bits .bf16 < FTy.bits .f32) (hb : (⟨2, ![1, N]⟩ : Shape).Broadcasts ⟨2, ![M, N]⟩)
    (hred : (⟨2, ![M, N]⟩ : Shape).Reduces [1] ⟨1, ![M]⟩) (hφ : FKind.Formats .f32)
    (hacc : (0x00000000#32 : BitVec 32) = FKind.add.neutral .f32 hφ)
    (hc : (⟨1, ![M]⟩ : Shape).ShapeCasts ⟨2, ![M, 1]⟩) (hbc : (⟨2, ![M, 1]⟩ : Shape).Broadcasts ⟨2, ![M, N]⟩)
    (h t : FVec Ideal ⟨2, ![M, N]⟩ .f32) (rb : FVec Ideal ⟨2, ![M, K]⟩ .f32) (w : FVec Ideal ⟨2, ![K, N]⟩ .f32)
    (b : FVec Ideal ⟨2, ![1, N]⟩ .f32) (p : Fin M) (q : Fin N) :
    mulf t (broadcastTo ⟨2, ![M, N]⟩ (shapeCast ⟨2, ![M, 1]⟩
      (multiReduction .add [1] ⟨1, ![M]⟩
        (mulf h (tanh (addf h (addf (matmul d none (truncf .bf16 rb hlt) (truncf .bf16 w hlt)
          (constant (F := Ideal) ⟨2, ![M, N]⟩ .f32 0x00000000#32)) (broadcastTo ⟨2, ![M, N]⟩ b hb)))))
        0x00000000#32 hred hφ hacc) hc) hbc) (ix2 p q)
      = attnK h t rb w b p q := by
  show t (ix2 p q) * broadcastTo ⟨2, ![M, N]⟩ _ hbc (ix2 p q) = _
  rw [broadcastTo_col_apply, shapeCast_vec_col_apply, multiReduction_row]
  unfold attnK
  refine congrArg (t (ix2 p q) * ·) (Finset.sum_congr rfl fun j _ => ?_)
  show h (ix2 p j) * Ideal.tanh (h (ix2 p j) + (FloatOps.matmul d none (truncf .bf16 rb hlt) (truncf .bf16 w hlt)
      (constant (F := Ideal) ⟨2, ![M, N]⟩ .f32 0x00000000#32) (ix2 p j) + broadcastTo ⟨2, ![M, N]⟩ b hb (ix2 p j))) = _
  rw [broadcastTo_1b_ab_apply, matmul_zero_ix2 d hl hr hrk hs h0 h1]
  rfl

/-- The reference's attention message (the host's dot product, sum from the initial value 0, and broadcasts), at (r, q). -/
theorem attn_host_apply {R K N : ℕ} (d : DotDims ⟨2, ![R, K]⟩ ⟨2, ![K, N]⟩ ⟨2, ![R, N]⟩)
    (hl : d.lhsContracting = [1]) (hr : d.rhsContracting = [0]) (hrk : d.contr.rank = 1)
    (hs : d.contr.size ⟨0, by omega⟩ = K)
    (h0 : ∀ j k, (d.lhsIdx j k 0).val = (j 0).val) (h1 : ∀ j k, (d.rhsIdx j k 1).val = (j 1).val)
    (hbr : (⟨2, ![1, N]⟩ : Shape).BroadcastsInDim ⟨2, ![R, N]⟩ ![0, 1])
    (hbv : (⟨1, ![N]⟩ : Shape).BroadcastsInDim ⟨2, ![1, N]⟩ ![1])
    (hb1 : (⟨2, ![R, 1]⟩ : Shape).BroadcastsInDim ⟨2, ![R, N]⟩ ![0, 1])
    (hb0 : (⟨1, ![R]⟩ : Shape).BroadcastsInDim ⟨2, ![R, 1]⟩ ![0])
    (hred' : (⟨2, ![R, N]⟩ : Shape).ReducesTo [1] ⟨1, ![R]⟩) (hred : (⟨2, ![R, N]⟩ : Shape).Reduces [1] ⟨1, ![R]⟩)
    (hu : 0 < (⟨0, ![]⟩ : Shape).numel)
    (h t : FVec Ideal ⟨2, ![R, N]⟩ .f32) (rb : FVec Ideal ⟨2, ![R, K]⟩ .f32) (w : FVec Ideal ⟨2, ![K, N]⟩ .f32)
    (b : FVec Ideal ⟨1, ![N]⟩ .f32) (r : Fin R) (q : Fin N) :
    mulf t (broadcastInDim ⟨2, ![R, N]⟩ ![0, 1] hb1 (broadcastInDim ⟨2, ![R, 1]⟩ ![0] hb0
      (Host.reduceAdd (F := Ideal)
        (mulf h (Host.tanh (addf h (addf (Host.dotGeneral d none rb w)
          (broadcastInDim ⟨2, ![R, N]⟩ ![0, 1] hbr (broadcastInDim ⟨2, ![1, N]⟩ ![1] hbv b))))))
        (constant (F := Ideal) ⟨0, ![]⟩ .f32 0x00000000#32) hred' hu))) (ix2 r q)
      = attnS h t rb w b r q := by
  show t (ix2 r q) * broadcastInDim (s := ⟨2, ![R, 1]⟩) ⟨2, ![R, N]⟩ ![0, 1] hb1 _ (ix2 r q) = _
  rw [broadcastInDim_col_apply, broadcastInDim_vec_col_apply]
  show t (ix2 r q) * Ideal.hostReduceAdd hred' _ (Ideal.ofBits .f32 0x00000000#32) (ix1 r) = _
  rw [hostReduceAdd_row hred' hred, Ideal.ofBits_zero_f32, zero_add]
  unfold attnS
  refine congrArg (t (ix2 r q) * ·) (Finset.sum_congr rfl fun j _ => ?_)
  show h (ix2 r j) * Ideal.tanh (h (ix2 r j) + (FloatOps.dotGeneral d none .single rb w (ix2 r j)
      + broadcastInDim ⟨2, ![R, N]⟩ ![0, 1] hbr (broadcastInDim ⟨2, ![1, N]⟩ ![1] hbv b) (ix2 r j))) = _
  rw [broadcastInDim_oneRow_apply, broadcastInDim_vec_row_apply, dotGeneral_ix2 d hl hr hrk hs h0 h1]

end Terms

end Cert.KernelIdeal.Val

end
-- ==== Proof.Val.Attn64.lean ====
/-
  The attention kernel of layer 0 on one block of 8000 edge rows against the reference's attention message on the whole
  arrays, entry by entry. With r = rb · pW + pb (an edge's relation embedding through the projection, plus the bias),
  both compute, per edge, the tail row t scaled by the score Σ_j h[j] · tanh (h[j] + r[j]) of the head row h. The
  kernel narrows the matrix product's operands to bf16 first, which on the extended reals is the identity; it
  accumulates into zero where the reference's dot product has no accumulator, and its row sum has none where the
  reference's starts from zero (0 + x = x); the bias is a one-row block in the kernel and a vector in the reference.
-/
import proofs.«133880_j17265768530448_1_alg».proof.Proof.Gen.KernelIdeal.Skeleton
import proofs.«133880_j17265768530448_1_alg».proof.Proof.Ref.Spec
import proofs.«133880_j17265768530448_1_alg».proof.Proof.Val.Common

noncomputable section

open scoped BigOperators

namespace Cert.KernelIdeal.Val

open Idealize.ShloMosaic Idealize.ShloMosaic.ValueIdx

section Kernel
open Cert.KernelIdeal Cert.KernelIdeal.Facts₀ Cert.KernelIdeal.Gen

/-- The kernel body's value at (p, q) of its block: the tail row's entry times the edge's score. -/
theorem k0_at (x0 x1 : Vec Ideal S8000x64 .f32) (x2 : Vec Ideal S8000x64 .f32) (x3 : Vec Ideal S64x64 .f32)
    (x4 : Vec Ideal S1x64 .f32) (p : Fin 8000) (q : Fin 64) :
    k0_pay1 (F := Ideal) x0 x1 x2 x3 x4 (ix2 p q) = attnK x0 x1 x2 x3 x4 p q := by
  unfold k0_pay1
  simp only [shapeCast_self]
  exact attn_kernel_apply dot_S8000x64_S64x64_S8000x64_1_0_0_1_n_n rfl rfl rfl rfl (fun _ _ => rfl) (fun _ _ => rfl) _ _ _ _ _ _ _
    x0 x1 x2 x3 x4 p q

end Kernel

section Reference
open Cert.ReferenceIdeal Cert.ReferenceIdeal.Facts₀

/-- The reference's attention message at (r, q) of the whole array: the same function of row r. -/
theorem attn64_at (h t : FVec Ideal S1600000x64 .f32) (rb : FVec Ideal S1600000x64 .f32) (pW : FVec Ideal S64x64 .f32)
    (pb : FVec Ideal S64 .f32) (r : Fin 1600000) (q : Fin 64) :
    Spec.attn64 h t rb pW pb (ix2 r q) = attnS h t rb pW pb r q := by
  unfold Spec.attn64
  exact attn_host_apply dot_S1600000x64_S64x64_S1600000x64_1_0_0_1_n_n rfl rfl rfl rfl (fun _ _ => rfl) (fun _ _ => rfl) _ _ _ _ _ (by decide) _
    h t rb pW pb r q

end Reference

/-- On blocks that are rows blk·8000 … blk·8000 + 7999 of the edge arrays (and the whole projection and bias), the kernel
    body's value at (p, q) is the reference's attention message at row blk·8000 + p, entry q. -/
theorem attn64_block (h t : FVec Ideal Cert.ReferenceIdeal.S1600000x64 .f32) (rb : FVec Ideal Cert.ReferenceIdeal.S1600000x64 .f32)
    (pW : FVec Ideal Cert.ReferenceIdeal.S64x64 .f32) (pb : FVec Ideal Cert.ReferenceIdeal.S64 .f32)
    (x0 x1 : Vec Ideal Cert.KernelIdeal.S8000x64 .f32) (x2 : Vec Ideal Cert.KernelIdeal.S8000x64 .f32)
    (x3 : Vec Ideal Cert.KernelIdeal.S64x64 .f32) (x4 : Vec Ideal Cert.KernelIdeal.S1x64 .f32) (blk : Fin 200)
    (h0 : ∀ (p : Fin 8000) (q : Fin 64), x0 (ix2 p q) = h (ix2 ⟨blk.val * 8000 + p.val, by omega⟩ q))
    (h1 : ∀ (p : Fin 8000) (q : Fin 64), x1 (ix2 p q) = t (ix2 ⟨blk.val * 8000 + p.val, by omega⟩ q))
    (h2 : ∀ (p : Fin 8000) (q : Fin 64), x2 (ix2 p q) = rb (ix2 ⟨blk.val * 8000 + p.val, by omega⟩ q))
    (h3 : ∀ (k : Fin 64) (q : Fin 64), x3 (ix2 k q) = pW (ix2 k q)) (h4 : ∀ q : Fin 64, x4 (ix2 0 q) = pb (ix1 q))
    (p : Fin 8000) (q : Fin 64) :
    Cert.KernelIdeal.Gen.k0_pay1 (F := Ideal) x0 x1 x2 x3 x4 (ix2 p q)
      = Cert.ReferenceIdeal.Spec.attn64 h t rb pW pb (ix2 ⟨blk.val * 8000 + p.val, by omega⟩ q) :=
  (k0_at x0 x1 x2 x3 x4 p q).trans
    ((attnK_eq_attnS x0 x1 x2 h t rb x3 pW x4 pb p ⟨blk.val * 8000 + p.val, by omega⟩ (h0 p) (h1 p) (h2 p) h3 h4 q).trans
      (attn64_at h t rb pW pb ⟨blk.val * 8000 + p.val, by omega⟩ q).symm)

end Cert.KernelIdeal.Val

end
-- ==== Proof.KI.Final0.lean ====
/- Region 0's output array after the region, at the exact reals: the reference's attention message of the arrays the
   region was entered with. Each row-blocked window's block at grid point `t` is rows 8000·t … 8000·t + 7999 of its
   array and each resident window's block is its whole array (`iblk0_w_apply`); reading any array through the output
   window's block at `t` reads those rows (`oblk0_apply`); so what point `t` writes back — the body's payload of the
   input blocks — is, entry by entry, the attention message at those rows (`flushed0_eq`, by the block value lemma);
   the 200 blocks of 8000 rows tile the 1600000 rows (`tiles0`), hence the whole array (`final0`). -/
import proofs.«133880_j17265768530448_1_alg».proof.Proof.KI.Body0
import proofs.«133880_j17265768530448_1_alg».proof.Proof.Ref.Spec
import proofs.«133880_j17265768530448_1_alg».proof.Proof.Val.Attn64
import Idealize.ShloMosaic.Lib.Pipeline.Value
import Idealize.ShloMosaic.Lib.ValueIdx

set_option maxRecDepth 16384

noncomputable section

namespace Cert.KernelIdeal.Fr

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The printed index maps of region 0, decided over its 200 grid points: a row-blocked window sits at block row `t`,
    a resident one at block (0, 0). -/
theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_5 : ∀ t : Fin cfg0.N, win0_5.index t (0 : Fin 2) = t.val ∧ win0_5.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)

/-- A row-blocked input's block at point `t` is rows 8000·t … 8000·t + 7999 of its array. -/
theorem iblk0_0_apply (c : Dev nD) (t : Fin cfg0.N) (p : Fin 8000) (q : Fin 64) (hb : t.val * 8000 + p.val < 1600000) :
    (iblk0 V c 0 t : Vec Ideal S8000x64 .f32) (ix2 p q) = (V c main_v17 : S1600000x64.Idx → Elt Ideal .f32) (ix2 ⟨t.val * 8000 + p.val, hb⟩ q) := by
  obtain ⟨e0, e1⟩ := idx0_0 t
  unfold iblk0
  rw [View.read_apply]
  show V c main_v17 _ = V c main_v17 _
  congr 1
  funext a
  apply Fin.ext
  match a with
  | ⟨0, _⟩ => show win0_0.index t 0 * 8000 + 1 * p.val = t.val * 8000 + p.val; rw [e0]; omega
  | ⟨1, _⟩ => show win0_0.index t 1 * 64 + 1 * q.val = q.val; rw [e1]; omega

/-- A row-blocked input's block at point `t` is rows 8000·t … 8000·t + 7999 of its array. -/
theorem iblk0_1_apply (c : Dev nD) (t : Fin cfg0.N) (p : Fin 8000) (q : Fin 64) (hb : t.val * 8000 + p.val < 1600000) :
    (iblk0 V c 1 t : Vec Ideal S8000x64 .f32) (ix2 p q) = (V c main_v24 : S1600000x64.Idx → Elt Ideal .f32) (ix2 ⟨t.val * 8000 + p.val, hb⟩ q) := by
  obtain ⟨e0, e1⟩ := idx0_1 t
  unfold iblk0
  rw [View.read_apply]
  show V c main_v24 _ = V c main_v24 _
  congr 1
  funext a
  apply Fin.ext
  match a with
  | ⟨0, _⟩ => show win0_1.index t 0 * 8000 + 1 * p.val = t.val * 8000 + p.val; rw [e0]; omega
  | ⟨1, _⟩ => show win0_1.index t 1 * 64 + 1 * q.val = q.val; rw [e1]; omega

/-- A row-blocked input's block at point `t` is rows 8000·t … 8000·t + 7999 of its array. -/
theorem iblk0_2_apply (c : Dev nD) (t : Fin cfg0.N) (p : Fin 8000) (q : Fin 64) (hb : t.val * 8000 + p.val < 1600000) :
    (iblk0 V c 2 t : Vec Ideal S8000x64 .f32) (ix2 p q) = (V c main_v10 : S1600000x64.Idx → Elt Ideal .f32) (ix2 ⟨t.val * 8000 + p.val, hb⟩ q) := by
  obtain ⟨e0, e1⟩ := idx0_2 t
  unfold iblk0
  rw [View.read_apply]
  show V c main_v10 _ = V c main_v10 _
  congr 1
  funext a
  apply Fin.ext
  match a with
  | ⟨0, _⟩ => show win0_2.index t 0 * 8000 + 1 * p.val = t.val * 8000 + p.val; rw [e0]; omega
  | ⟨1, _⟩ => show win0_2.index t 1 * 64 + 1 * q.val = q.val; rw [e1]; omega

/-- A resident window's block is its whole array at every point. -/
theorem iblk0_3_apply (c : Dev nD) (t : Fin cfg0.N) (k : Fin 64) (q : Fin 64) :
    (iblk0 V c 3 t : Vec Ideal S64x64 .f32) (ix2 k q) = (V c main_arg2 : S64x64.Idx → Elt Ideal .f32) (ix2 k q) := by
  obtain ⟨e0, e1⟩ := idx0_3 t
  unfold iblk0
  rw [View.read_apply]
  show V c main_arg2 _ = V c main_arg2 _
  congr 1
  funext a
  apply Fin.ext
  match a with
  | ⟨0, _⟩ => show win0_3.index t 0 * 64 + 1 * k.val = k.val; rw [e0]; omega
  | ⟨1, _⟩ => show win0_3.index t 1 * 64 + 1 * q.val = q.val; rw [e1]; omega

/-- A resident window's block is its whole array at every point. -/
theorem iblk0_4_apply (c : Dev nD) (t : Fin cfg0.N) (q : Fin 64) :
    (iblk0 V c 4 t : Vec Ideal S1x64 .f32) (ix2 0 q) = (V c main_v25 : S1x64.Idx → Elt Ideal .f32) (ix2 0 q) := by
  obtain ⟨e0, e1⟩ := idx0_4 t
  unfold iblk0
  rw [View.read_apply]
  show V c main_v25 _ = V c main_v25 _
  congr 1
  funext a
  apply Fin.ext
  match a with
  | ⟨0, _⟩ => show win0_4.index t 0 * 1 + 1 * 0 = 0; rw [e0]
  | ⟨1, _⟩ => show win0_4.index t 1 * 64 + 1 * q.val = q.val; rw [e1]; omega

/-- ANY array of the output's shape, read through the output window's block at point `t`, reads its rows
    8000·t … 8000·t + 7999. Stated for an arbitrary array `G` so that no particular array's definition is ever opened. -/
theorem oblk0_apply (G : S1600000x64.Idx → Elt Ideal .f32) (t : Fin cfg0.N) (p : Fin 8000) (q : Fin 64) (hb : t.val * 8000 + p.val < 1600000) :
    (((cfg0.win 5).blk t).view.read (Elt Ideal) G : Vec Ideal S8000x64 .f32) (ix2 p q) = G (ix2 ⟨t.val * 8000 + p.val, hb⟩ q) := by
  obtain ⟨e0, e1⟩ := idx0_5 t
  rw [View.read_apply]
  show G _ = G _
  congr 1
  funext a
  apply Fin.ext
  match a with
  | ⟨0, _⟩ => show win0_5.index t 0 * 8000 + 1 * p.val = t.val * 8000 + p.val; rw [e0]; omega
  | ⟨1, _⟩ => show win0_5.index t 1 * 64 + 1 * q.val = q.val; rw [e1]; omega

/-- What point `t` writes back is rows 8000·t … of the attention message of the whole arrays. The message is named
    `G` before the two sides are compared, so the comparison is of `G` at two spellings of one row index. -/
theorem flushed0_eq (c : Dev nD) (pb : FVec Ideal Cert.ReferenceIdeal.S64 .f32)
    (hpb : ∀ q : Fin 64, (V c main_v25 : S1x64.Idx → Elt Ideal .f32) (ix2 0 q) = pb (ix1 q)) (t : Fin cfg0.N) :
    (dat0 V c).flushed 5 t = ((cfg0.win 5).blk t).view.read (Elt Ideal)
      (Cert.ReferenceIdeal.Spec.attn64 (V c main_v17) (V c main_v24) (V c main_v10) (V c main_arg2) pb) := by
  have hN : t.val < 200 := by have h := t.isLt; have e : cfg0.N = 200 := N_0; omega
  have hb : ∀ p : Fin 8000, t.val * 8000 + p.val < 1600000 := fun p => by have := p.isLt; omega
  have h0 : ∀ (p : Fin 8000) (q : Fin 64), (iblk0 V c 0 t : Vec Ideal S8000x64 .f32) (ix2 p q)
      = (V c main_v17 : S1600000x64.Idx → Elt Ideal .f32) (ix2 ⟨t.val * 8000 + p.val, hb p⟩ q) :=
    fun p q => iblk0_0_apply V c t p q (hb p)
  have h1 : ∀ (p : Fin 8000) (q : Fin 64), (iblk0 V c 1 t : Vec Ideal S8000x64 .f32) (ix2 p q)
      = (V c main_v24 : S1600000x64.Idx → Elt Ideal .f32) (ix2 ⟨t.val * 8000 + p.val, hb p⟩ q) :=
    fun p q => iblk0_1_apply V c t p q (hb p)
  have h2 : ∀ (p : Fin 8000) (q : Fin 64), (iblk0 V c 2 t : Vec Ideal S8000x64 .f32) (ix2 p q)
      = (V c main_v10 : S1600000x64.Idx → Elt Ideal .f32) (ix2 ⟨t.val * 8000 + p.val, hb p⟩ q) :=
    fun p q => iblk0_2_apply V c t p q (hb p)
  have h3 : ∀ (k : Fin 64) (q : Fin 64), (iblk0 V c 3 t : Vec Ideal S64x64 .f32) (ix2 k q)
      = (V c main_arg2 : S64x64.Idx → Elt Ideal .f32) (ix2 k q) :=
    fun k q => iblk0_3_apply V c t k q
  have h4 : ∀ q : Fin 64, (iblk0 V c 4 t : Vec Ideal S1x64 .f32) (ix2 0 q) = pb (ix1 q) :=
    fun q => (iblk0_4_apply V c t q).trans (hpb q)
  show (cfg0.win 5).cut (grid0.coords t) ((dat0 V c).after 5 t) = _
  rw [after0_5, out0_eq]
  funext j
  obtain ⟨p, q, rfl⟩ : ∃ (p : Fin 8000) (q : Fin 64), j = ix2 p q := ⟨j 0, j 1, eq_ix2 j⟩
  have key := Val.attn64_block (V c main_v17) (V c main_v24) (V c main_v10) (V c main_arg2) pb
    (iblk0 V c 0 t) (iblk0 V c 1 t) (iblk0 V c 2 t) (iblk0 V c 3 t) (iblk0 V c 4 t) ⟨t.val, hN⟩ h0 h1 h2 h3 h4 p q
  refine Eq.trans ?_ (oblk0_apply (Cert.ReferenceIdeal.Spec.attn64 (V c main_v17) (V c main_v24) (V c main_v10) (V c main_arg2) pb) t p q (hb p)).symm
  generalize Cert.ReferenceIdeal.Spec.attn64 (V c main_v17) (V c main_v24) (V c main_v10) (V c main_arg2) pb = G at key ⊢
  exact key

/-- An index of the output array is in point `t`'s block iff each coordinate is in the block's range. -/
theorem mem_blk0 (t : Fin cfg0.N) (i : S1600000x64.Idx) :
    i ∈ ((cfg0.win 5).blk t).view.set ↔ ∀ a : Fin 2, win0_5.index t a * S8000x64.size a ≤ (i a).val ∧ (i a).val < win0_5.index t a * S8000x64.size a + S8000x64.size a := by
  show i ∈ ((View.whole main_v26).slice (win0_5.rect t)).set ↔ _
  rw [View.set_slice_whole, Rect.mem_set_unit]
  exact Iff.rfl

/-- The 200 blocks of 8000 rows tile the output array: row r is in block r / 8000. -/
theorem tiles0 (i : S1600000x64.Idx) : ∃ t : Fin cfg0.N, (cfg0.win 5).flush t = true ∧ i ∈ ((cfg0.win 5).blk t).view.set := by
  have hi0 : (i 0).val < 1600000 := (i 0).isLt
  have hi1 : (i 1).val < 64 := (i 1).isLt
  have e : cfg0.N = 200 := N_0
  refine ⟨⟨(i 0).val / 8000, by omega⟩, flush0_5 _, ?_⟩
  rw [mem_blk0]
  obtain ⟨e0, e1⟩ := idx0_5 ⟨(i 0).val / 8000, by omega⟩
  intro a
  match a with
  | ⟨0, _⟩ => show win0_5.index _ 0 * 8000 ≤ (i 0).val ∧ (i 0).val < win0_5.index _ 0 * 8000 + 8000; rw [e0]; show (i 0).val / 8000 * 8000 ≤ _ ∧ _ < (i 0).val / 8000 * 8000 + 8000; omega
  | ⟨1, _⟩ => show win0_5.index _ 1 * 64 ≤ (i 1).val ∧ (i 1).val < win0_5.index _ 1 * 64 + 64; rw [e1]; omega

/-- Region 0's output array after the region: the attention message of the arrays it was entered with. -/
theorem final0 (c : Dev nD) (pb : FVec Ideal Cert.ReferenceIdeal.S64 .f32)
    (hpb : ∀ q : Fin 64, (V c main_v25 : S1x64.Idx → Elt Ideal .f32) (ix2 0 q) = pb (ix1 q)) :
    (dat0 V c).arrAt 5 cfg0.N = Cert.ReferenceIdeal.Spec.attn64 (V c main_v17) (V c main_v24) (V c main_v10) (V c main_arg2) pb :=
  (dat0 V c).arrAt_eq_of_cover 5 _ (fun t _ => flushed0_eq V c pb hpb t) (tiles0)

end Cert.KernelIdeal.Fr
end
-- ==== Proof.Val.Agg64.lean ====
/-
  The aggregator kernel of layer 0 on one block of 10000 node rows against the reference's aggregator on the whole
  arrays, entry by entry. With a = cur + neigh and b = cur · neigh (sum and product of a node's own row and its
  summed messages), both compute, per row, the leaky rectifier of a·W1 + b1 + b·W2 + b2 divided by the larger of the
  row's Euclidean norm and a small constant. The kernel groups the four summands as (a·W1 + b1) + (b·W2 + b2), the
  reference as ((a·W1 + b1) + b·W2) + b2: addition on the extended reals is associative. The kernel narrows the
  matrix products' operands to bf16 first, which on the extended reals is the identity; it accumulates into zero
  where the reference's dot product has no accumulator, and its row sum has none where the reference's starts from
  zero (0 + x = x); it multiplies by the slope from the right, the reference from the left (the product commutes).
-/
import proofs.«133880_j17265768530448_1_alg».proof.Proof.Gen.KernelIdeal.Skeleton
import proofs.«133880_j17265768530448_1_alg».proof.Proof.Ref.Spec
import proofs.«133880_j17265768530448_1_alg».proof.Proof.Val.Common

noncomputable section

open scoped BigOperators

namespace Cert.KernelIdeal.Val

open Idealize.ShloMosaic Idealize.ShloMosaic.ValueIdx

section Kernel
open Cert.KernelIdeal Cert.KernelIdeal.Facts₀ Cert.KernelIdeal.Gen

/-- The kernel body's value at (p, q) of its block: the normalized rectified row of the pre-activation. -/
theorem k1_at (x0 x1 : Vec Ideal S10000x64 .f32) (x2 : Vec Ideal S64x32 .f32) (x3 : Vec Ideal S1x32 .f32)
    (x4 : Vec Ideal S64x32 .f32) (x5 : Vec Ideal S1x32 .f32) (p : Fin 10000) (q : Fin 32) :
    k1_pay1 (F := Ideal) x0 x1 x2 x3 x4 x5 (ix2 p q) = rowNorm (fun j => lrelu (preK x0 x1 x2 x3 x4 x5 p j)) q := by
  unfold k1_pay1
  simp only [shapeCast_self]
  refine (norm_kernel_apply _ _ _ _ _ _ p q).trans ?_
  refine congrArg (fun f => rowNorm f q) (funext fun j => ?_)
  refine (lrelu_kernel_apply _ _).trans (congrArg lrelu ?_)
  exact pre_kernel_apply dot_S10000x64_S64x32_S10000x32_1_0_0_1_n_n rfl rfl rfl rfl (fun _ _ => rfl) (fun _ _ => rfl) _ _
    x0 x1 x2 x3 x4 x5 p j

end Kernel

section Reference
open Cert.ReferenceIdeal Cert.ReferenceIdeal.Facts₀

/-- The reference's aggregator at (r, q) of the whole array: the same function of row r. -/
theorem agg64_at (cur neigh : FVec Ideal S100000x64 .f32) (W1 : FVec Ideal S64x32 .f32) (b1 : FVec Ideal S32 .f32)
    (W2 : FVec Ideal S64x32 .f32) (b2 : FVec Ideal S32 .f32) (r : Fin 100000) (q : Fin 32) :
    Spec.agg64 cur neigh W1 b1 W2 b2 (ix2 r q) = rowNorm (fun j => lrelu (preS cur neigh W1 b1 W2 b2 r j)) q := by
  unfold Spec.agg64 Spec.act32 Spec.pre64
  refine (norm_host_apply _ _ _ _ _ (by decide) _ r q).trans ?_
  refine congrArg (fun f => rowNorm f q) (funext fun j => ?_)
  refine (lrelu_host_apply _ _ _).trans (congrArg lrelu ?_)
  exact pre_host_apply dot_S100000x64_S64x32_S100000x32_1_0_0_1_n_n rfl rfl rfl rfl (fun _ _ => rfl) (fun _ _ => rfl) _ _
    cur neigh W1 b1 W2 b2 r j

end Reference

/-- On blocks that are rows blk·10000 … blk·10000 + 9999 of the node arrays (and the whole weights and biases), the kernel
    body's value at (p, q) is the reference's aggregator at row blk·10000 + p, entry q. -/
theorem agg64_block (cur neigh : FVec Ideal Cert.ReferenceIdeal.S100000x64 .f32) (W1 : FVec Ideal Cert.ReferenceIdeal.S64x32 .f32)
    (b1 : FVec Ideal Cert.ReferenceIdeal.S32 .f32) (W2 : FVec Ideal Cert.ReferenceIdeal.S64x32 .f32)
    (b2 : FVec Ideal Cert.ReferenceIdeal.S32 .f32)
    (x0 x1 : Vec Ideal Cert.KernelIdeal.S10000x64 .f32) (x2 : Vec Ideal Cert.KernelIdeal.S64x32 .f32)
    (x3 : Vec Ideal Cert.KernelIdeal.S1x32 .f32) (x4 : Vec Ideal Cert.KernelIdeal.S64x32 .f32)
    (x5 : Vec Ideal Cert.KernelIdeal.S1x32 .f32) (blk : Fin 10)
    (h0 : ∀ (p : Fin 10000) (k : Fin 64), x0 (ix2 p k) = cur (ix2 ⟨blk.val * 10000 + p.val, by omega⟩ k))
    (h1 : ∀ (p : Fin 10000) (k : Fin 64), x1 (ix2 p k) = neigh (ix2 ⟨blk.val * 10000 + p.val, by omega⟩ k))
    (h2 : ∀ (k : Fin 64) (j : Fin 32), x2 (ix2 k j) = W1 (ix2 k j)) (h3 : ∀ j : Fin 32, x3 (ix2 0 j) = b1 (ix1 j))
    (h4 : ∀ (k : Fin 64) (j : Fin 32), x4 (ix2 k j) = W2 (ix2 k j)) (h5 : ∀ j : Fin 32, x5 (ix2 0 j) = b2 (ix1 j))
    (p : Fin 10000) (q : Fin 32) :
    Cert.KernelIdeal.Gen.k1_pay1 (F := Ideal) x0 x1 x2 x3 x4 x5 (ix2 p q)
      = Cert.ReferenceIdeal.Spec.agg64 cur neigh W1 b1 W2 b2 (ix2 ⟨blk.val * 10000 + p.val, by omega⟩ q) :=
  (k1_at x0 x1 x2 x3 x4 x5 p q).trans
    ((congrArg (fun f => rowNorm f q) (funext fun j => congrArg lrelu
        (preK_eq_preS x0 x1 cur neigh x2 W1 x4 W2 x3 x5 b1 b2 p ⟨blk.val * 10000 + p.val, by omega⟩
          (h0 p) (h1 p) h2 h3 h4 h5 j))).trans
      (agg64_at cur neigh W1 b1 W2 b2 ⟨blk.val * 10000 + p.val, by omega⟩ q).symm)

end Cert.KernelIdeal.Val

end
-- ==== Proof.KI.Final1.lean ====
import proofs.«133880_j17265768530448_1_alg».proof.Proof.KI.Body1
import proofs.«133880_j17265768530448_1_alg».proof.Proof.Ref.Spec
import proofs.«133880_j17265768530448_1_alg».proof.Proof.Val.Agg64
import Idealize.ShloMosaic.Lib.Pipeline.Value
import Idealize.ShloMosaic.Lib.ValueIdx

set_option maxRecDepth 16384

noncomputable section

namespace Cert.KernelIdeal.Fr

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The printed index maps of region 1, decided over its 10 grid points: a row-blocked window sits at block row `t`,
    a resident one at block (0, 0). -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = t.val ∧ win1_6.index t (1 : Fin 2) = 0 :=
  (by decide +kernel : ∀ t : Fin grid1.N, _)

/-- A row-blocked input's block at point `t` is rows 10000·t … 10000·t + 9999 of its array. -/
theorem iblk1_0_apply (c : Dev nD) (t : Fin cfg1.N) (p : Fin 10000) (q : Fin 64) (hb : t.val * 10000 + p.val < 100000) :
    (iblk1 V c 0 t : Vec Ideal S10000x64 .f32) (ix2 p q) = (V c main_arg0 : S100000x64.Idx → Elt Ideal .f32) (ix2 ⟨t.val * 10000 + p.val, hb⟩ q) := by
  obtain ⟨e0, e1⟩ := idx1_0 t
  unfold iblk1
  rw [View.read_apply]
  show V c main_arg0 _ = V c main_arg0 _
  congr 1
  funext a
  apply Fin.ext
  match a with
  | ⟨0, _⟩ => show win1_0.index t 0 * 10000 + 1 * p.val = t.val * 10000 + p.val; rw [e0]; omega
  | ⟨1, _⟩ => show win1_0.index t 1 * 64 + 1 * q.val = q.val; rw [e1]; omega

/-- A row-blocked input's block at point `t` is rows 10000·t … 10000·t + 9999 of its array. -/
theorem iblk1_1_apply (c : Dev nD) (t : Fin cfg1.N) (p : Fin 10000) (q : Fin 64) (hb : t.val * 10000 + p.val < 100000) :
    (iblk1 V c 1 t : Vec Ideal S10000x64 .f32) (ix2 p q) = (V c main_v29 : S100000x64.Idx → Elt Ideal .f32) (ix2 ⟨t.val * 10000 + p.val, hb⟩ q) := by
  obtain ⟨e0, e1⟩ := idx1_1 t
  unfold iblk1
  rw [View.read_apply]
  show V c main_v29 _ = V c main_v29 _
  congr 1
  funext a
  apply Fin.ext
  match a with
  | ⟨0, _⟩ => show win1_1.index t 0 * 10000 + 1 * p.val = t.val * 10000 + p.val; rw [e0]; omega
  | ⟨1, _⟩ => show win1_1.index t 1 * 64 + 1 * q.val = q.val; rw [e1]; omega

/-- A resident window's block is its whole array at every point. -/
theorem iblk1_2_apply (c : Dev nD) (t : Fin cfg1.N) (k : Fin 64) (q : Fin 32) :
    (iblk1 V c 2 t : Vec Ideal S64x32 .f32) (ix2 k q) = (V c main_arg4 : S64x32.Idx → Elt Ideal .f32) (ix2 k q) := by
  obtain ⟨e0, e1⟩ := idx1_2 t
  unfold iblk1
  rw [View.read_apply]
  show V c main_arg4 _ = V c main_arg4 _
  congr 1
  funext a
  apply Fin.ext
  match a with
  | ⟨0, _⟩ => show win1_2.index t 0 * 64 + 1 * k.val = k.val; rw [e0]; omega
  | ⟨1, _⟩ => show win1_2.index t 1 * 32 + 1 * q.val = q.val; rw [e1]; omega

/-- A resident window's block is its whole array at every point. -/
theorem iblk1_3_apply (c : Dev nD) (t : Fin cfg1.N) (q : Fin 32) :
    (iblk1 V c 3 t : Vec Ideal S1x32 .f32) (ix2 0 q) = (V c main_v30 : S1x32.Idx → Elt Ideal .f32) (ix2 0 q) := by
  obtain ⟨e0, e1⟩ := idx1_3 t
  unfold iblk1
  rw [View.read_apply]
  show V c main_v30 _ = V c main_v30 _
  congr 1
  funext a
  apply Fin.ext
  match a with
  | ⟨0, _⟩ => show win1_3.index t 0 * 1 + 1 * 0 = 0; rw [e0]
  | ⟨1, _⟩ => show win1_3.index t 1 * 32 + 1 * q.val = q.val; rw [e1]; omega

/-- A resident window's block is its whole array at every point. -/
theorem iblk1_4_apply (c : Dev nD) (t : Fin cfg1.N) (k : Fin 64) (q : Fin 32) :
    (iblk1 V c 4 t : Vec Ideal S64x32 .f32) (ix2 k q) = (V c main_arg6 : S64x32.Idx → Elt Ideal .f32) (ix2 k q) := by
  obtain ⟨e0, e1⟩ := idx1_4 t
  unfold iblk1
  rw [View.read_apply]
  show V c main_arg6 _ = V c main_arg6 _
  congr 1
  funext a
  apply Fin.ext
  match a with
  | ⟨0, _⟩ => show win1_4.index t 0 * 64 + 1 * k.val = k.val; rw [e0]; omega
  | ⟨1, _⟩ => show win1_4.index t 1 * 32 + 1 * q.val = q.val; rw [e1]; omega

/-- A resident window's block is its whole array at every point. -/
theorem iblk1_5_apply (c : Dev nD) (t : Fin cfg1.N) (q : Fin 32) :
    (iblk1 V c 5 t : Vec Ideal S1x32 .f32) (ix2 0 q) = (V c main_v31 : S1x32.Idx → Elt Ideal .f32) (ix2 0 q) := by
  obtain ⟨e0, e1⟩ := idx1_5 t
  unfold iblk1
  rw [View.read_apply]
  show V c main_v31 _ = V c main_v31 _
  congr 1
  funext a
  apply Fin.ext
  match a with
  | ⟨0, _⟩ => show win1_5.index t 0 * 1 + 1 * 0 = 0; rw [e0]
  | ⟨1, _⟩ => show win1_5.index t 1 * 32 + 1 * q.val = q.val; rw [e1]; omega

/-- What point `t` writes back is rows 10000·t … of the aggregator of the whole arrays. -/
theorem flushed1_eq (c : Dev nD) (b1 : FVec Ideal Cert.ReferenceIdeal.S32 .f32) (b2 : FVec Ideal Cert.ReferenceIdeal.S32 .f32)
    (hb1 : ∀ q : Fin 32, (V c main_v30 : S1x32.Idx → Elt Ideal .f32) (ix2 0 q) = b1 (ix1 q))
    (hb2 : ∀ q : Fin 32, (V c main_v31 : S1x32.Idx → Elt Ideal .f32) (ix2 0 q) = b2 (ix1 q)) (t : Fin cfg1.N) :
    (dat1 V c).flushed 6 t = ((cfg1.win 6).blk t).view.read (Elt Ideal)
      (Cert.ReferenceIdeal.Spec.agg64 (V c main_arg0) (V c main_v29) (V c main_arg4) b1 (V c main_arg6) b2) := by
  have hN : t.val < 10 := by have h := t.isLt; have e : cfg1.N = 10 := N_1; omega
  show (cfg1.win 6).cut (grid1.coords t) ((dat1 V c).after 6 t) = _
  rw [after1_6, out1_eq]
  funext j
  obtain ⟨p, q, rfl⟩ : ∃ (p : Fin 10000) (q : Fin 32), j = ix2 p q := ⟨j 0, j 1, eq_ix2 j⟩
  rw [View.read_apply]
  have hemb : ((cfg1.win 6).blk t).view.emb (ix2 p q) = (ix2 ⟨t.val * 10000 + p.val, by omega⟩ q : S100000x32.Idx) := by
    obtain ⟨e0, e1⟩ := idx1_6 t
    funext a
    apply Fin.ext
    match a with
    | ⟨0, _⟩ => show win1_6.index t 0 * 10000 + 1 * p.val = t.val * 10000 + p.val; rw [e0]; omega
    | ⟨1, _⟩ => show win1_6.index t 1 * 32 + 1 * q.val = q.val; rw [e1]; omega
  rw [hemb]
  exact Val.agg64_block _ _ _ b1 _ b2 _ _ _ _ _ _ ⟨t.val, hN⟩
    (fun p q => iblk1_0_apply V c t p q _)
    (fun p q => iblk1_1_apply V c t p q _)
    (fun k q => iblk1_2_apply V c t k q)
    (fun q => (iblk1_3_apply V c t q).trans (hb1 q))
    (fun k q => iblk1_4_apply V c t k q)
    (fun q => (iblk1_5_apply V c t q).trans (hb2 q)) p q

/-- An index of the output array is in point `t`'s block iff each coordinate is in the block's range. -/
theorem mem_blk1 (t : Fin cfg1.N) (i : S100000x32.Idx) :
    i ∈ ((cfg1.win 6).blk t).view.set ↔ ∀ a : Fin 2, win1_6.index t a * S10000x32.size a ≤ (i a).val ∧ (i a).val < win1_6.index t a * S10000x32.size a + S10000x32.size a := by
  show i ∈ ((View.whole main_v32).slice (win1_6.rect t)).set ↔ _
  rw [View.set_slice_whole, Rect.mem_set_unit]
  exact Iff.rfl

/-- The 10 blocks of 10000 rows tile the output array: row r is in block r / 10000. -/
theorem tiles1 (i : S100000x32.Idx) : ∃ t : Fin cfg1.N, (cfg1.win 6).flush t = true ∧ i ∈ ((cfg1.win 6).blk t).view.set := by
  have hi0 : (i 0).val < 100000 := (i 0).isLt
  have hi1 : (i 1).val < 32 := (i 1).isLt
  have e : cfg1.N = 10 := N_1
  refine ⟨⟨(i 0).val / 10000, by omega⟩, flush1_6 _, ?_⟩
  rw [mem_blk1]
  obtain ⟨e0, e1⟩ := idx1_6 ⟨(i 0).val / 10000, by omega⟩
  intro a
  match a with
  | ⟨0, _⟩ => show win1_6.index _ 0 * 10000 ≤ (i 0).val ∧ (i 0).val < win1_6.index _ 0 * 10000 + 10000; rw [e0]; show (i 0).val / 10000 * 10000 ≤ _ ∧ _ < (i 0).val / 10000 * 10000 + 10000; omega
  | ⟨1, _⟩ => show win1_6.index _ 1 * 32 ≤ (i 1).val ∧ (i 1).val < win1_6.index _ 1 * 32 + 32; rw [e1]; omega

/-- Region 1's output array after the region: the aggregator of the arrays it was entered with. -/
theorem final1 (c : Dev nD) (b1 : FVec Ideal Cert.ReferenceIdeal.S32 .f32) (b2 : FVec Ideal Cert.ReferenceIdeal.S32 .f32)
    (hb1 : ∀ q : Fin 32, (V c main_v30 : S1x32.Idx → Elt Ideal .f32) (ix2 0 q) = b1 (ix1 q))
    (hb2 : ∀ q : Fin 32, (V c main_v31 : S1x32.Idx → Elt Ideal .f32) (ix2 0 q) = b2 (ix1 q)) :
    (dat1 V c).arrAt 6 cfg1.N = Cert.ReferenceIdeal.Spec.agg64 (V c main_arg0) (V c main_v29) (V c main_arg4) b1 (V c main_arg6) b2 :=
  (dat1 V c).arrAt_eq_of_cover 6 _ (fun t _ => flushed1_eq V c b1 b2 hb1 hb2 t) (tiles1)

end Cert.KernelIdeal.Fr
end
-- ==== Proof.Val.Attn32.lean ====
/-
  The attention kernel of layer 1 on one block of 8000 edge rows against the reference's attention message on the whole
  arrays, entry by entry. With r = rb · pW + pb (an edge's relation embedding through the projection, plus the bias),
  both compute, per edge, the tail row t scaled by the score Σ_j h[j] · tanh (h[j] + r[j]) of the head row h. The
  kernel narrows the matrix product's operands to bf16 first, which on the extended reals is the identity; it
  accumulates into zero where the reference's dot product has no accumulator, and its row sum has none where the
  reference's starts from zero (0 + x = x); the bias is a one-row block in the kernel and a vector in the reference.
-/
import proofs.«133880_j17265768530448_1_alg».proof.Proof.Gen.KernelIdeal.Skeleton
import proofs.«133880_j17265768530448_1_alg».proof.Proof.Ref.Spec
import proofs.«133880_j17265768530448_1_alg».proof.Proof.Val.Common

noncomputable section

open scoped BigOperators

namespace Cert.KernelIdeal.Val

open Idealize.ShloMosaic Idealize.ShloMosaic.ValueIdx

section Kernel
open Cert.KernelIdeal Cert.KernelIdeal.Facts₀ Cert.KernelIdeal.Gen

/-- The kernel body's value at (p, q) of its block: the tail row's entry times the edge's score. -/
theorem k2_at (x0 x1 : Vec Ideal S8000x32 .f32) (x2 : Vec Ideal S8000x64 .f32) (x3 : Vec Ideal S64x32 .f32)
    (x4 : Vec Ideal S1x32 .f32) (p : Fin 8000) (q : Fin 32) :
    k2_pay1 (F := Ideal) x0 x1 x2 x3 x4 (ix2 p q) = attnK x0 x1 x2 x3 x4 p q := by
  unfold k2_pay1
  simp only [shapeCast_self]
  exact attn_kernel_apply dot_S8000x64_S64x32_S8000x32_1_0_0_1_n_n rfl rfl rfl rfl (fun _ _ => rfl) (fun _ _ => rfl) _ _ _ _ _ _ _
    x0 x1 x2 x3 x4 p q

end Kernel

section Reference
open Cert.ReferenceIdeal Cert.ReferenceIdeal.Facts₀

/-- The reference's attention message at (r, q) of the whole array: the same function of row r. -/
theorem attn32_at (h t : FVec Ideal S1600000x32 .f32) (rb : FVec Ideal S1600000x64 .f32) (pW : FVec Ideal S64x32 .f32)
    (pb : FVec Ideal S32 .f32) (r : Fin 1600000) (q : Fin 32) :
    Spec.attn32 h t rb pW pb (ix2 r q) = attnS h t rb pW pb r q := by
  unfold Spec.attn32
  exact attn_host_apply dot_S1600000x64_S64x32_S1600000x32_1_0_0_1_n_n rfl rfl rfl rfl (fun _ _ => rfl) (fun _ _ => rfl) _ _ _ _ _ (by decide) _
    h t rb pW pb r q

end Reference

/-- On blocks that are rows blk·8000 … blk·8000 + 7999 of the edge arrays (and the whole projection and bias), the kernel
    body's value at (p, q) is the reference's attention message at row blk·8000 + p, entry q. -/
theorem attn32_block (h t : FVec Ideal Cert.ReferenceIdeal.S1600000x32 .f32) (rb : FVec Ideal Cert.ReferenceIdeal.S1600000x64 .f32)
    (pW : FVec Ideal Cert.ReferenceIdeal.S64x32 .f32) (pb : FVec Ideal Cert.ReferenceIdeal.S32 .f32)
    (x0 x1 : Vec Ideal Cert.KernelIdeal.S8000x32 .f32) (x2 : Vec Ideal Cert.KernelIdeal.S8000x64 .f32)
    (x3 : Vec Ideal Cert.KernelIdeal.S64x32 .f32) (x4 : Vec Ideal Cert.KernelIdeal.S1x32 .f32) (blk : Fin 200)
    (h0 : ∀ (p : Fin 8000) (q : Fin 32), x0 (ix2 p q) = h (ix2 ⟨blk.val * 8000 + p.val, by omega⟩ q))
    (h1 : ∀ (p : Fin 8000) (q : Fin 32), x1 (ix2 p q) = t (ix2 ⟨blk.val * 8000 + p.val, by omega⟩ q))
    (h2 : ∀ (p : Fin 8000) (q : Fin 64), x2 (ix2 p q) = rb (ix2 ⟨blk.val * 8000 + p.val, by omega⟩ q))
    (h3 : ∀ (k : Fin 64) (q : Fin 32), x3 (ix2 k q) = pW (ix2 k q)) (h4 : ∀ q : Fin 32, x4 (ix2 0 q) = pb (ix1 q))
    (p : Fin 8000) (q : Fin 32) :
    Cert.KernelIdeal.Gen.k2_pay1 (F := Ideal) x0 x1 x2 x3 x4 (ix2 p q)
      = Cert.ReferenceIdeal.Spec.attn32 h t rb pW pb (ix2 ⟨blk.val * 8000 + p.val, by omega⟩ q) :=
  (k2_at x0 x1 x2 x3 x4 p q).trans
    ((attnK_eq_attnS x0 x1 x2 h t rb x3 pW x4 pb p ⟨blk.val * 8000 + p.val, by omega⟩ (h0 p) (h1 p) (h2 p) h3 h4 q).trans
      (attn32_at h t rb pW pb ⟨blk.val * 8000 + p.val, by omega⟩ q).symm)

end Cert.KernelIdeal.Val

end
-- ==== Proof.KI.Final2.lean ====
/- Region 2's output array after the region, at the exact reals: the reference's attention message of the arrays the
   region was entered with. Each row-blocked window's block at grid point `t` is rows 8000·t … 8000·t + 7999 of its
   array and each resident window's block is its whole array (`iblk2_w_apply`); reading any array through the output
   window's block at `t` reads those rows (`oblk2_apply`); so what point `t` writes back — the body's payload of the
   input blocks — is, entry by entry, the attention message at those rows (`flushed2_eq`, by the block value lemma);
   the 200 blocks of 8000 rows tile the 1600000 rows (`tiles2`), hence the whole array (`final2`). -/
import proofs.«133880_j17265768530448_1_alg».proof.Proof.KI.Body2
import proofs.«133880_j17265768530448_1_alg».proof.Proof.Ref.Spec
import proofs.«133880_j17265768530448_1_alg».proof.Proof.Val.Attn32
import Idealize.ShloMosaic.Lib.Pipeline.Value
import Idealize.ShloMosaic.Lib.ValueIdx

set_option maxRecDepth 16384

noncomputable section

namespace Cert.KernelIdeal.Fr

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The printed index maps of region 2, decided over its 200 grid points: a row-blocked window sits at block row `t`,
    a resident one at block (0, 0). -/
theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_2 : ∀ t : Fin cfg2.N, win2_2.index t (0 : Fin 2) = t.val ∧ win2_2.index t (1 : Fin 2) = 0 :=
  (by decide +kernel : ∀ t : Fin grid2.N, _)
theorem idx2_5 : ∀ t : Fin cfg2.N, win2_5.index t (0 : Fin 2) = t.val ∧ win2_5.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)

/-- A row-blocked input's block at point `t` is rows 8000·t … 8000·t + 7999 of its array. -/
theorem iblk2_0_apply (c : Dev nD) (t : Fin cfg2.N) (p : Fin 8000) (q : Fin 32) (hb : t.val * 8000 + p.val < 1600000) :
    (iblk2 V c 0 t : Vec Ideal S8000x32 .f32) (ix2 p q) = (V c main_v39 : S1600000x32.Idx → Elt Ideal .f32) (ix2 ⟨t.val * 8000 + p.val, hb⟩ q) := by
  obtain ⟨e0, e1⟩ := idx2_0 t
  unfold iblk2
  rw [View.read_apply]
  show V c main_v39 _ = V c main_v39 _
  congr 1
  funext a
  apply Fin.ext
  match a with
  | ⟨0, _⟩ => show win2_0.index t 0 * 8000 + 1 * p.val = t.val * 8000 + p.val; rw [e0]; omega
  | ⟨1, _⟩ => show win2_0.index t 1 * 32 + 1 * q.val = q.val; rw [e1]; omega

/-- A row-blocked input's block at point `t` is rows 8000·t … 8000·t + 7999 of its array. -/
theorem iblk2_1_apply (c : Dev nD) (t : Fin cfg2.N) (p : Fin 8000) (q : Fin 32) (hb : t.val * 8000 + p.val < 1600000) :
    (iblk2 V c 1 t : Vec Ideal S8000x32 .f32) (ix2 p q) = (V c main_v46 : S1600000x32.Idx → Elt Ideal .f32) (ix2 ⟨t.val * 8000 + p.val, hb⟩ q) := by
  obtain ⟨e0, e1⟩ := idx2_1 t
  unfold iblk2
  rw [View.read_apply]
  show V c main_v46 _ = V c main_v46 _
  congr 1
  funext a
  apply Fin.ext
  match a with
  | ⟨0, _⟩ => show win2_1.index t 0 * 8000 + 1 * p.val = t.val * 8000 + p.val; rw [e0]; omega
  | ⟨1, _⟩ => show win2_1.index t 1 * 32 + 1 * q.val = q.val; rw [e1]; omega

/-- A row-blocked input's block at point `t` is rows 8000·t … 8000·t + 7999 of its array. -/
theorem iblk2_2_apply (c : Dev nD) (t : Fin cfg2.N) (p : Fin 8000) (q : Fin 64) (hb : t.val * 8000 + p.val < 1600000) :
    (iblk2 V c 2 t : Vec Ideal S8000x64 .f32) (ix2 p q) = (V c main_v10 : S1600000x64.Idx → Elt Ideal .f32) (ix2 ⟨t.val * 8000 + p.val, hb⟩ q) := by
  obtain ⟨e0, e1⟩ := idx2_2 t
  unfold iblk2
  rw [View.read_apply]
  show V c main_v10 _ = V c main_v10 _
  congr 1
  funext a
  apply Fin.ext
  match a with
  | ⟨0, _⟩ => show win2_2.index t 0 * 8000 + 1 * p.val = t.val * 8000 + p.val; rw [e0]; omega
  | ⟨1, _⟩ => show win2_2.index t 1 * 64 + 1 * q.val = q.val; rw [e1]; omega

/-- A resident window's block is its whole array at every point. -/
theorem iblk2_3_apply (c : Dev nD) (t : Fin cfg2.N) (k : Fin 64) (q : Fin 32) :
    (iblk2 V c 3 t : Vec Ideal S64x32 .f32) (ix2 k q) = (V c main_arg8 : S64x32.Idx → Elt Ideal .f32) (ix2 k q) := by
  obtain ⟨e0, e1⟩ := idx2_3 t
  unfold iblk2
  rw [View.read_apply]
  show V c main_arg8 _ = V c main_arg8 _
  congr 1
  funext a
  apply Fin.ext
  match a with
  | ⟨0, _⟩ => show win2_3.index t 0 * 64 + 1 * k.val = k.val; rw [e0]; omega
  | ⟨1, _⟩ => show win2_3.index t 1 * 32 + 1 * q.val = q.val; rw [e1]; omega

/-- A resident window's block is its whole array at every point. -/
theorem iblk2_4_apply (c : Dev nD) (t : Fin cfg2.N) (q : Fin 32) :
    (iblk2 V c 4 t : Vec Ideal S1x32 .f32) (ix2 0 q) = (V c main_v47 : S1x32.Idx → Elt Ideal .f32) (ix2 0 q) := by
  obtain ⟨e0, e1⟩ := idx2_4 t
  unfold iblk2
  rw [View.read_apply]
  show V c main_v47 _ = V c main_v47 _
  congr 1
  funext a
  apply Fin.ext
  match a with
  | ⟨0, _⟩ => show win2_4.index t 0 * 1 + 1 * 0 = 0; rw [e0]
  | ⟨1, _⟩ => show win2_4.index t 1 * 32 + 1 * q.val = q.val; rw [e1]; omega

/-- ANY array of the output's shape, read through the output window's block at point `t`, reads its rows
    8000·t … 8000·t + 7999. Stated for an arbitrary array `G` so that no particular array's definition is ever opened. -/
theorem oblk2_apply (G : S1600000x32.Idx → Elt Ideal .f32) (t : Fin cfg2.N) (p : Fin 8000) (q : Fin 32) (hb : t.val * 8000 + p.val < 1600000) :
    (((cfg2.win 5).blk t).view.read (Elt Ideal) G : Vec Ideal S8000x32 .f32) (ix2 p q) = G (ix2 ⟨t.val * 8000 + p.val, hb⟩ q) := by
  obtain ⟨e0, e1⟩ := idx2_5 t
  rw [View.read_apply]
  show G _ = G _
  congr 1
  funext a
  apply Fin.ext
  match a with
  | ⟨0, _⟩ => show win2_5.index t 0 * 8000 + 1 * p.val = t.val * 8000 + p.val; rw [e0]; omega
  | ⟨1, _⟩ => show win2_5.index t 1 * 32 + 1 * q.val = q.val; rw [e1]; omega

/-- What point `t` writes back is rows 8000·t … of the attention message of the whole arrays. The message is named
    `G` before the two sides are compared, so the comparison is of `G` at two spellings of one row index. -/
theorem flushed2_eq (c : Dev nD) (pb : FVec Ideal Cert.ReferenceIdeal.S32 .f32)
    (hpb : ∀ q : Fin 32, (V c main_v47 : S1x32.Idx → Elt Ideal .f32) (ix2 0 q) = pb (ix1 q)) (t : Fin cfg2.N) :
    (dat2 V c).flushed 5 t = ((cfg2.win 5).blk t).view.read (Elt Ideal)
      (Cert.ReferenceIdeal.Spec.attn32 (V c main_v39) (V c main_v46) (V c main_v10) (V c main_arg8) pb) := by
  have hN : t.val < 200 := by have h := t.isLt; have e : cfg2.N = 200 := N_2; omega
  have hb : ∀ p : Fin 8000, t.val * 8000 + p.val < 1600000 := fun p => by have := p.isLt; omega
  have h0 : ∀ (p : Fin 8000) (q : Fin 32), (iblk2 V c 0 t : Vec Ideal S8000x32 .f32) (ix2 p q)
      = (V c main_v39 : S1600000x32.Idx → Elt Ideal .f32) (ix2 ⟨t.val * 8000 + p.val, hb p⟩ q) :=
    fun p q => iblk2_0_apply V c t p q (hb p)
  have h1 : ∀ (p : Fin 8000) (q : Fin 32), (iblk2 V c 1 t : Vec Ideal S8000x32 .f32) (ix2 p q)
      = (V c main_v46 : S1600000x32.Idx → Elt Ideal .f32) (ix2 ⟨t.val * 8000 + p.val, hb p⟩ q) :=
    fun p q => iblk2_1_apply V c t p q (hb p)
  have h2 : ∀ (p : Fin 8000) (q : Fin 64), (iblk2 V c 2 t : Vec Ideal S8000x64 .f32) (ix2 p q)
      = (V c main_v10 : S1600000x64.Idx → Elt Ideal .f32) (ix2 ⟨t.val * 8000 + p.val, hb p⟩ q) :=
    fun p q => iblk2_2_apply V c t p q (hb p)
  have h3 : ∀ (k : Fin 64) (q : Fin 32), (iblk2 V c 3 t : Vec Ideal S64x32 .f32) (ix2 k q)
      = (V c main_arg8 : S64x32.Idx → Elt Ideal .f32) (ix2 k q) :=
    fun k q => iblk2_3_apply V c t k q
  have h4 : ∀ q : Fin 32, (iblk2 V c 4 t : Vec Ideal S1x32 .f32) (ix2 0 q) = pb (ix1 q) :=
    fun q => (iblk2_4_apply V c t q).trans (hpb q)
  show (cfg2.win 5).cut (grid2.coords t) ((dat2 V c).after 5 t) = _
  rw [after2_5, out2_eq]
  funext j
  obtain ⟨p, q, rfl⟩ : ∃ (p : Fin 8000) (q : Fin 32), j = ix2 p q := ⟨j 0, j 1, eq_ix2 j⟩
  have key := Val.attn32_block (V c main_v39) (V c main_v46) (V c main_v10) (V c main_arg8) pb
    (iblk2 V c 0 t) (iblk2 V c 1 t) (iblk2 V c 2 t) (iblk2 V c 3 t) (iblk2 V c 4 t) ⟨t.val, hN⟩ h0 h1 h2 h3 h4 p q
  refine Eq.trans ?_ (oblk2_apply (Cert.ReferenceIdeal.Spec.attn32 (V c main_v39) (V c main_v46) (V c main_v10) (V c main_arg8) pb) t p q (hb p)).symm
  generalize Cert.ReferenceIdeal.Spec.attn32 (V c main_v39) (V c main_v46) (V c main_v10) (V c main_arg8) pb = G at key ⊢
  exact key

/-- An index of the output array is in point `t`'s block iff each coordinate is in the block's range. -/
theorem mem_blk2 (t : Fin cfg2.N) (i : S1600000x32.Idx) :
    i ∈ ((cfg2.win 5).blk t).view.set ↔ ∀ a : Fin 2, win2_5.index t a * S8000x32.size a ≤ (i a).val ∧ (i a).val < win2_5.index t a * S8000x32.size a + S8000x32.size a := by
  show i ∈ ((View.whole main_v48).slice (win2_5.rect t)).set ↔ _
  rw [View.set_slice_whole, Rect.mem_set_unit]
  exact Iff.rfl

/-- The 200 blocks of 8000 rows tile the output array: row r is in block r / 8000. -/
theorem tiles2 (i : S1600000x32.Idx) : ∃ t : Fin cfg2.N, (cfg2.win 5).flush t = true ∧ i ∈ ((cfg2.win 5).blk t).view.set := by
  have hi0 : (i 0).val < 1600000 := (i 0).isLt
  have hi1 : (i 1).val < 32 := (i 1).isLt
  have e : cfg2.N = 200 := N_2
  refine ⟨⟨(i 0).val / 8000, by omega⟩, flush2_5 _, ?_⟩
  rw [mem_blk2]
  obtain ⟨e0, e1⟩ := idx2_5 ⟨(i 0).val / 8000, by omega⟩
  intro a
  match a with
  | ⟨0, _⟩ => show win2_5.index _ 0 * 8000 ≤ (i 0).val ∧ (i 0).val < win2_5.index _ 0 * 8000 + 8000; rw [e0]; show (i 0).val / 8000 * 8000 ≤ _ ∧ _ < (i 0).val / 8000 * 8000 + 8000; omega
  | ⟨1, _⟩ => show win2_5.index _ 1 * 32 ≤ (i 1).val ∧ (i 1).val < win2_5.index _ 1 * 32 + 32; rw [e1]; omega

/-- Region 2's output array after the region: the attention message of the arrays it was entered with. -/
theorem final2 (c : Dev nD) (pb : FVec Ideal Cert.ReferenceIdeal.S32 .f32)
    (hpb : ∀ q : Fin 32, (V c main_v47 : S1x32.Idx → Elt Ideal .f32) (ix2 0 q) = pb (ix1 q)) :
    (dat2 V c).arrAt 5 cfg2.N = Cert.ReferenceIdeal.Spec.attn32 (V c main_v39) (V c main_v46) (V c main_v10) (V c main_arg8) pb :=
  (dat2 V c).arrAt_eq_of_cover 5 _ (fun t _ => flushed2_eq V c pb hpb t) (tiles2)

end Cert.KernelIdeal.Fr
end
-- ==== Proof.Val.Agg32.lean ====
/-
  The aggregator kernel of layer 1 on one block of 10000 node rows against the reference's aggregator on the whole
  arrays, entry by entry. With a = cur + neigh and b = cur · neigh (sum and product of a node's own row and its
  summed messages), both compute, per row, the leaky rectifier of a·W1 + b1 + b·W2 + b2 divided by the larger of the
  row's Euclidean norm and a small constant. The kernel groups the four summands as (a·W1 + b1) + (b·W2 + b2), the
  reference as ((a·W1 + b1) + b·W2) + b2: addition on the extended reals is associative. The kernel narrows the
  matrix products' operands to bf16 first, which on the extended reals is the identity; it accumulates into zero
  where the reference's dot product has no accumulator, and its row sum has none where the reference's starts from
  zero (0 + x = x); it multiplies by the slope from the right, the reference from the left (the product commutes).
-/
import proofs.«133880_j17265768530448_1_alg».proof.Proof.Gen.KernelIdeal.Skeleton
import proofs.«133880_j17265768530448_1_alg».proof.Proof.Ref.Spec
import proofs.«133880_j17265768530448_1_alg».proof.Proof.Val.Common

noncomputable section

open scoped BigOperators

namespace Cert.KernelIdeal.Val

open Idealize.ShloMosaic Idealize.ShloMosaic.ValueIdx

section Kernel
open Cert.KernelIdeal Cert.KernelIdeal.Facts₀ Cert.KernelIdeal.Gen

/-- The kernel body's value at (p, q) of its block: the normalized rectified row of the pre-activation. -/
theorem k3_at (x0 x1 : Vec Ideal S10000x32 .f32) (x2 : Vec Ideal S32x16 .f32) (x3 : Vec Ideal S1x16 .f32)
    (x4 : Vec Ideal S32x16 .f32) (x5 : Vec Ideal S1x16 .f32) (p : Fin 10000) (q : Fin 16) :
    k3_pay1 (F := Ideal) x0 x1 x2 x3 x4 x5 (ix2 p q) = rowNorm (fun j => lrelu (preK x0 x1 x2 x3 x4 x5 p j)) q := by
  unfold k3_pay1
  simp only [shapeCast_self]
  refine (norm_kernel_apply _ _ _ _ _ _ p q).trans ?_
  refine congrArg (fun f => rowNorm f q) (funext fun j => ?_)
  refine (lrelu_kernel_apply _ _).trans (congrArg lrelu ?_)
  exact pre_kernel_apply dot_S10000x32_S32x16_S10000x16_1_0_0_1_n_n rfl rfl rfl rfl (fun _ _ => rfl) (fun _ _ => rfl) _ _
    x0 x1 x2 x3 x4 x5 p j

end Kernel

section Reference
open Cert.ReferenceIdeal Cert.ReferenceIdeal.Facts₀

/-- The reference's aggregator at (r, q) of the whole array: the same function of row r. -/
theorem agg32_at (cur neigh : FVec Ideal S100000x32 .f32) (W1 : FVec Ideal S32x16 .f32) (b1 : FVec Ideal S16 .f32)
    (W2 : FVec Ideal S32x16 .f32) (b2 : FVec Ideal S16 .f32) (r : Fin 100000) (q : Fin 16) :
    Spec.agg32 cur neigh W1 b1 W2 b2 (ix2 r q) = rowNorm (fun j => lrelu (preS cur neigh W1 b1 W2 b2 r j)) q := by
  unfold Spec.agg32 Spec.act16 Spec.pre32
  refine (norm_host_apply _ _ _ _ _ (by decide) _ r q).trans ?_
  refine congrArg (fun f => rowNorm f q) (funext fun j => ?_)
  refine (lrelu_host_apply _ _ _).trans (congrArg lrelu ?_)
  exact pre_host_apply dot_S100000x32_S32x16_S100000x16_1_0_0_1_n_n rfl rfl rfl rfl (fun _ _ => rfl) (fun _ _ => rfl) _ _
    cur neigh W1 b1 W2 b2 r j

end Reference

/-- On blocks that are rows blk·10000 … blk·10000 + 9999 of the node arrays (and the whole weights and biases), the kernel
    body's value at (p, q) is the reference's aggregator at row blk·10000 + p, entry q. -/
theorem agg32_block (cur neigh : FVec Ideal Cert.ReferenceIdeal.S100000x32 .f32) (W1 : FVec Ideal Cert.ReferenceIdeal.S32x16 .f32)
    (b1 : FVec Ideal Cert.ReferenceIdeal.S16 .f32) (W2 : FVec Ideal Cert.ReferenceIdeal.S32x16 .f32)
    (b2 : FVec Ideal Cert.ReferenceIdeal.S16 .f32)
    (x0 x1 : Vec Ideal Cert.KernelIdeal.S10000x32 .f32) (x2 : Vec Ideal Cert.KernelIdeal.S32x16 .f32)
    (x3 : Vec Ideal Cert.KernelIdeal.S1x16 .f32) (x4 : Vec Ideal Cert.KernelIdeal.S32x16 .f32)
    (x5 : Vec Ideal Cert.KernelIdeal.S1x16 .f32) (blk : Fin 10)
    (h0 : ∀ (p : Fin 10000) (k : Fin 32), x0 (ix2 p k) = cur (ix2 ⟨blk.val * 10000 + p.val, by omega⟩ k))
    (h1 : ∀ (p : Fin 10000) (k : Fin 32), x1 (ix2 p k) = neigh (ix2 ⟨blk.val * 10000 + p.val, by omega⟩ k))
    (h2 : ∀ (k : Fin 32) (j : Fin 16), x2 (ix2 k j) = W1 (ix2 k j)) (h3 : ∀ j : Fin 16, x3 (ix2 0 j) = b1 (ix1 j))
    (h4 : ∀ (k : Fin 32) (j : Fin 16), x4 (ix2 k j) = W2 (ix2 k j)) (h5 : ∀ j : Fin 16, x5 (ix2 0 j) = b2 (ix1 j))
    (p : Fin 10000) (q : Fin 16) :
    Cert.KernelIdeal.Gen.k3_pay1 (F := Ideal) x0 x1 x2 x3 x4 x5 (ix2 p q)
      = Cert.ReferenceIdeal.Spec.agg32 cur neigh W1 b1 W2 b2 (ix2 ⟨blk.val * 10000 + p.val, by omega⟩ q) :=
  (k3_at x0 x1 x2 x3 x4 x5 p q).trans
    ((congrArg (fun f => rowNorm f q) (funext fun j => congrArg lrelu
        (preK_eq_preS x0 x1 cur neigh x2 W1 x4 W2 x3 x5 b1 b2 p ⟨blk.val * 10000 + p.val, by omega⟩
          (h0 p) (h1 p) h2 h3 h4 h5 j))).trans
      (agg32_at cur neigh W1 b1 W2 b2 ⟨blk.val * 10000 + p.val, by omega⟩ q).symm)

end Cert.KernelIdeal.Val

end
-- ==== Proof.KI.Final3.lean ====
import proofs.«133880_j17265768530448_1_alg».proof.Proof.KI.Body3
import proofs.«133880_j17265768530448_1_alg».proof.Proof.Ref.Spec
import proofs.«133880_j17265768530448_1_alg».proof.Proof.Val.Agg32
import Idealize.ShloMosaic.Lib.Pipeline.Value
import Idealize.ShloMosaic.Lib.ValueIdx

set_option maxRecDepth 16384

noncomputable section

namespace Cert.KernelIdeal.Fr

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The printed index maps of region 3, decided over its 10 grid points: a row-blocked window sits at block row `t`,
    a resident one at block (0, 0). -/
theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = t.val ∧ win3_1.index t (1 : Fin 2) = 0 :=
  (by decide +kernel : ∀ t : Fin grid3.N, _)
theorem idx3_2 : ∀ t : Fin cfg3.N, win3_2.index t (0 : Fin 2) = 0 ∧ win3_2.index t (1 : Fin 2) = 0 :=
  (by decide +kernel : ∀ t : Fin grid3.N, _)
theorem idx3_3 : ∀ t : Fin cfg3.N, win3_3.index t (0 : Fin 2) = 0 ∧ win3_3.index t (1 : Fin 2) = 0 :=
  (by decide +kernel : ∀ t : Fin grid3.N, _)
theorem idx3_4 : ∀ t : Fin cfg3.N, win3_4.index t (0 : Fin 2) = 0 ∧ win3_4.index t (1 : Fin 2) = 0 :=
  (by decide +kernel : ∀ t : Fin grid3.N, _)
theorem idx3_5 : ∀ t : Fin cfg3.N, win3_5.index t (0 : Fin 2) = 0 ∧ win3_5.index t (1 : Fin 2) = 0 :=
  (by decide +kernel : ∀ t : Fin grid3.N, _)
theorem idx3_6 : ∀ t : Fin cfg3.N, win3_6.index t (0 : Fin 2) = t.val ∧ win3_6.index t (1 : Fin 2) = 0 :=
  (by decide +kernel : ∀ t : Fin grid3.N, _)

/-- A row-blocked input's block at point `t` is rows 10000·t … 10000·t + 9999 of its array. -/
theorem iblk3_0_apply (c : Dev nD) (t : Fin cfg3.N) (p : Fin 10000) (q : Fin 32) (hb : t.val * 10000 + p.val < 100000) :
    (iblk3 V c 0 t : Vec Ideal S10000x32 .f32) (ix2 p q) = (V c main_v32 : S100000x32.Idx → Elt Ideal .f32) (ix2 ⟨t.val * 10000 + p.val, hb⟩ q) := by
  obtain ⟨e0, e1⟩ := idx3_0 t
  unfold iblk3
  rw [View.read_apply]
  show V c main_v32 _ = V c main_v32 _
  congr 1
  funext a
  apply Fin.ext
  match a with
  | ⟨0, _⟩ => show win3_0.index t 0 * 10000 + 1 * p.val = t.val * 10000 + p.val; rw [e0]; omega
  | ⟨1, _⟩ => show win3_0.index t 1 * 32 + 1 * q.val = q.val; rw [e1]; omega

/-- A row-blocked input's block at point `t` is rows 10000·t … 10000·t + 9999 of its array. -/
theorem iblk3_1_apply (c : Dev nD) (t : Fin cfg3.N) (p : Fin 10000) (q : Fin 32) (hb : t.val * 10000 + p.val < 100000) :
    (iblk3 V c 1 t : Vec Ideal S10000x32 .f32) (ix2 p q) = (V c main_v51 : S100000x32.Idx → Elt Ideal .f32) (ix2 ⟨t.val * 10000 + p.val, hb⟩ q) := by
  obtain ⟨e0, e1⟩ := idx3_1 t
  unfold iblk3
  rw [View.read_apply]
  show V c main_v51 _ = V c main_v51 _
  congr 1
  funext a
  apply Fin.ext
  match a with
  | ⟨0, _⟩ => show win3_1.index t 0 * 10000 + 1 * p.val = t.val * 10000 + p.val; rw [e0]; omega
  | ⟨1, _⟩ => show win3_1.index t 1 * 32 + 1 * q.val = q.val; rw [e1]; omega

/-- A resident window's block is its whole array at every point. -/
theorem iblk3_2_apply (c : Dev nD) (t : Fin cfg3.N) (k : Fin 32) (q : Fin 16) :
    (iblk3 V c 2 t : Vec Ideal S32x16 .f32) (ix2 k q) = (V c main_arg10 : S32x16.Idx → Elt Ideal .f32) (ix2 k q) := by
  obtain ⟨e0, e1⟩ := idx3_2 t
  unfold iblk3
  rw [View.read_apply]
  show V c main_arg10 _ = V c main_arg10 _
  congr 1
  funext a
  apply Fin.ext
  match a with
  | ⟨0, _⟩ => show win3_2.index t 0 * 32 + 1 * k.val = k.val; rw [e0]; omega
  | ⟨1, _⟩ => show win3_2.index t 1 * 16 + 1 * q.val = q.val; rw [e1]; omega

/-- A resident window's block is its whole array at every point. -/
theorem iblk3_3_apply (c : Dev nD) (t : Fin cfg3.N) (q : Fin 16) :
    (iblk3 V c 3 t : Vec Ideal S1x16 .f32) (ix2 0 q) = (V c main_v52 : S1x16.Idx → Elt Ideal .f32) (ix2 0 q) := by
  obtain ⟨e0, e1⟩ := idx3_3 t
  unfold iblk3
  rw [View.read_apply]
  show V c main_v52 _ = V c main_v52 _
  congr 1
  funext a
  apply Fin.ext
  match a with
  | ⟨0, _⟩ => show win3_3.index t 0 * 1 + 1 * 0 = 0; rw [e0]
  | ⟨1, _⟩ => show win3_3.index t 1 * 16 + 1 * q.val = q.val; rw [e1]; omega

/-- A resident window's block is its whole array at every point. -/
theorem iblk3_4_apply (c : Dev nD) (t : Fin cfg3.N) (k : Fin 32) (q : Fin 16) :
    (iblk3 V c 4 t : Vec Ideal S32x16 .f32) (ix2 k q) = (V c main_arg12 : S32x16.Idx → Elt Ideal .f32) (ix2 k q) := by
  obtain ⟨e0, e1⟩ := idx3_4 t
  unfold iblk3
  rw [View.read_apply]
  show V c main_arg12 _ = V c main_arg12 _
  congr 1
  funext a
  apply Fin.ext
  match a with
  | ⟨0, _⟩ => show win3_4.index t 0 * 32 + 1 * k.val = k.val; rw [e0]; omega
  | ⟨1, _⟩ => show win3_4.index t 1 * 16 + 1 * q.val = q.val; rw [e1]; omega

/-- A resident window's block is its whole array at every point. -/
theorem iblk3_5_apply (c : Dev nD) (t : Fin cfg3.N) (q : Fin 16) :
    (iblk3 V c 5 t : Vec Ideal S1x16 .f32) (ix2 0 q) = (V c main_v53 : S1x16.Idx → Elt Ideal .f32) (ix2 0 q) := by
  obtain ⟨e0, e1⟩ := idx3_5 t
  unfold iblk3
  rw [View.read_apply]
  show V c main_v53 _ = V c main_v53 _
  congr 1
  funext a
  apply Fin.ext
  match a with
  | ⟨0, _⟩ => show win3_5.index t 0 * 1 + 1 * 0 = 0; rw [e0]
  | ⟨1, _⟩ => show win3_5.index t 1 * 16 + 1 * q.val = q.val; rw [e1]; omega

/-- What point `t` writes back is rows 10000·t … of the aggregator of the whole arrays. -/
theorem flushed3_eq (c : Dev nD) (b1 : FVec Ideal Cert.ReferenceIdeal.S16 .f32) (b2 : FVec Ideal Cert.ReferenceIdeal.S16 .f32)
    (hb1 : ∀ q : Fin 16, (V c main_v52 : S1x16.Idx → Elt Ideal .f32) (ix2 0 q) = b1 (ix1 q))
    (hb2 : ∀ q : Fin 16, (V c main_v53 : S1x16.Idx → Elt Ideal .f32) (ix2 0 q) = b2 (ix1 q)) (t : Fin cfg3.N) :
    (dat3 V c).flushed 6 t = ((cfg3.win 6).blk t).view.read (Elt Ideal)
      (Cert.ReferenceIdeal.Spec.agg32 (V c main_v32) (V c main_v51) (V c main_arg10) b1 (V c main_arg12) b2) := by
  have hN : t.val < 10 := by have h := t.isLt; have e : cfg3.N = 10 := N_3; omega
  show (cfg3.win 6).cut (grid3.coords t) ((dat3 V c).after 6 t) = _
  rw [after3_6, out3_eq]
  funext j
  obtain ⟨p, q, rfl⟩ : ∃ (p : Fin 10000) (q : Fin 16), j = ix2 p q := ⟨j 0, j 1, eq_ix2 j⟩
  rw [View.read_apply]
  have hemb : ((cfg3.win 6).blk t).view.emb (ix2 p q) = (ix2 ⟨t.val * 10000 + p.val, by omega⟩ q : S100000x16.Idx) := by
    obtain ⟨e0, e1⟩ := idx3_6 t
    funext a
    apply Fin.ext
    match a with
    | ⟨0, _⟩ => show win3_6.index t 0 * 10000 + 1 * p.val = t.val * 10000 + p.val; rw [e0]; omega
    | ⟨1, _⟩ => show win3_6.index t 1 * 16 + 1 * q.val = q.val; rw [e1]; omega
  rw [hemb]
  exact Val.agg32_block _ _ _ b1 _ b2 _ _ _ _ _ _ ⟨t.val, hN⟩
    (fun p q => iblk3_0_apply V c t p q _)
    (fun p q => iblk3_1_apply V c t p q _)
    (fun k q => iblk3_2_apply V c t k q)
    (fun q => (iblk3_3_apply V c t q).trans (hb1 q))
    (fun k q => iblk3_4_apply V c t k q)
    (fun q => (iblk3_5_apply V c t q).trans (hb2 q)) p q

/-- An index of the output array is in point `t`'s block iff each coordinate is in the block's range. -/
theorem mem_blk3 (t : Fin cfg3.N) (i : S100000x16.Idx) :
    i ∈ ((cfg3.win 6).blk t).view.set ↔ ∀ a : Fin 2, win3_6.index t a * S10000x16.size a ≤ (i a).val ∧ (i a).val < win3_6.index t a * S10000x16.size a + S10000x16.size a := by
  show i ∈ ((View.whole main_v54).slice (win3_6.rect t)).set ↔ _
  rw [View.set_slice_whole, Rect.mem_set_unit]
  exact Iff.rfl

/-- The 10 blocks of 10000 rows tile the output array: row r is in block r / 10000. -/
theorem tiles3 (i : S100000x16.Idx) : ∃ t : Fin cfg3.N, (cfg3.win 6).flush t = true ∧ i ∈ ((cfg3.win 6).blk t).view.set := by
  have hi0 : (i 0).val < 100000 := (i 0).isLt
  have hi1 : (i 1).val < 16 := (i 1).isLt
  have e : cfg3.N = 10 := N_3
  refine ⟨⟨(i 0).val / 10000, by omega⟩, flush3_6 _, ?_⟩
  rw [mem_blk3]
  obtain ⟨e0, e1⟩ := idx3_6 ⟨(i 0).val / 10000, by omega⟩
  intro a
  match a with
  | ⟨0, _⟩ => show win3_6.index _ 0 * 10000 ≤ (i 0).val ∧ (i 0).val < win3_6.index _ 0 * 10000 + 10000; rw [e0]; show (i 0).val / 10000 * 10000 ≤ _ ∧ _ < (i 0).val / 10000 * 10000 + 10000; omega
  | ⟨1, _⟩ => show win3_6.index _ 1 * 16 ≤ (i 1).val ∧ (i 1).val < win3_6.index _ 1 * 16 + 16; rw [e1]; omega

/-- Region 3's output array after the region: the aggregator of the arrays it was entered with. -/
theorem final3 (c : Dev nD) (b1 : FVec Ideal Cert.ReferenceIdeal.S16 .f32) (b2 : FVec Ideal Cert.ReferenceIdeal.S16 .f32)
    (hb1 : ∀ q : Fin 16, (V c main_v52 : S1x16.Idx → Elt Ideal .f32) (ix2 0 q) = b1 (ix1 q))
    (hb2 : ∀ q : Fin 16, (V c main_v53 : S1x16.Idx → Elt Ideal .f32) (ix2 0 q) = b2 (ix1 q)) :
    (dat3 V c).arrAt 6 cfg3.N = Cert.ReferenceIdeal.Spec.agg32 (V c main_v32) (V c main_v51) (V c main_arg10) b1 (V c main_arg12) b2 :=
  (dat3 V c).arrAt_eq_of_cover 6 _ (fun t _ => flushed3_eq V c b1 b2 hb1 hb2 t) (tiles3)

end Cert.KernelIdeal.Fr
end
-- ==== Proof.KI.Bridge.lean ====
/-
  The kernel program's result, read back through @main: the host stretches are the reference's own operations (slices of
  the edge list, wrapped indices, row gathers, the scatter-add of the messages, the bias rows reshaped, the final
  concatenation), so each buffer a region is entered with is the specification's function of the arguments; each region's
  output array is the layer function of the arrays it was entered with (the finals); and nothing in between writes a buffer
  that is read later. Composed, the result buffer holds the network function of the sixteen arguments.
-/
import proofs.«133880_j17265768530448_1_alg».proof.Proof.KI.Run
import proofs.«133880_j17265768530448_1_alg».proof.Proof.KI.Final0
import proofs.«133880_j17265768530448_1_alg».proof.Proof.KI.Final1
import proofs.«133880_j17265768530448_1_alg».proof.Proof.KI.Final2
import proofs.«133880_j17265768530448_1_alg».proof.Proof.KI.Final3
import proofs.«133880_j17265768530448_1_alg».proof.Proof.Ref.Spec
import Idealize.ShloMosaic.Lib.StableHlo.Run
import Idealize.ShloMosaic.Lib.ValueIdx
import Idealize.ShloMosaic.Lib.ValueLayout

set_option maxRecDepth 16384

noncomputable section
namespace Cert.KernelIdeal.Fr
open Cert.KernelIdeal Cert.KernelIdeal.Gen Cert.KernelIdeal.GenP
open Idealize.ShloMosaic Idealize.ShloMosaic.TcCoe Idealize.ShloMosaic.ValueIdx Idealize.ShloMosaic.Tactic
open Idealize.SL.Sem

variable (m : (ℓ : Loc nD τ sig) → Buf (Elt Ideal) ℓ) (ρ : Dev nD → PrngReg)

/-! ## Before region 0: the edge endpoints, the gathered rows, the relation rows, the projection's bias as a row -/

set_option maxHeartbeats 4000000 in
theorem W1_v1 (c : Dev nD) : W1 m ρ c (Proc.devRef .tc main_v1) = Cert.ReferenceIdeal.Spec.heads (m ((c : Thread nD τ).loc main_arg14)) := by
  show StableHlo.after hostOps0 _ (Proc.devRef .tc main_v1) = _
  after_results_simp
  rfl
set_option maxHeartbeats 4000000 in
theorem W1_v3 (c : Dev nD) : W1 m ρ c (Proc.devRef .tc main_v3) = Cert.ReferenceIdeal.Spec.tails (m ((c : Thread nD τ).loc main_arg14)) := by
  show StableHlo.after hostOps0 _ (Proc.devRef .tc main_v3) = _
  after_results_simp
  rfl
set_option maxHeartbeats 4000000 in
theorem W1_v10 (c : Dev nD) : W1 m ρ c (Proc.devRef .tc main_v10) = Cert.ReferenceIdeal.Spec.relBase (m ((c : Thread nD τ).loc main_arg1)) (m ((c : Thread nD τ).loc main_arg15)) := by
  show StableHlo.after hostOps0 _ (Proc.devRef .tc main_v10) = _
  after_results_simp
  rfl
set_option maxHeartbeats 4000000 in
theorem W1_v17 (c : Dev nD) : W1 m ρ c (Proc.devRef .tc main_v17) = Cert.ReferenceIdeal.Spec.gather64 (m ((c : Thread nD τ).loc main_arg0)) (Cert.ReferenceIdeal.Spec.heads (m ((c : Thread nD τ).loc main_arg14))) := by
  show StableHlo.after hostOps0 _ (Proc.devRef .tc main_v17) = _
  after_results_simp
  rfl
set_option maxHeartbeats 4000000 in
theorem W1_v24 (c : Dev nD) : W1 m ρ c (Proc.devRef .tc main_v24) = Cert.ReferenceIdeal.Spec.gather64 (m ((c : Thread nD τ).loc main_arg0)) (Cert.ReferenceIdeal.Spec.tails (m ((c : Thread nD τ).loc main_arg14))) := by
  show StableHlo.after hostOps0 _ (Proc.devRef .tc main_v24) = _
  after_results_simp
  rfl
set_option maxHeartbeats 4000000 in
theorem W1_v25 (c : Dev nD) (q : Fin 64) : (W1 m ρ c (Proc.devRef .tc main_v25) : S1x64.Idx → Elt Ideal .f32) (ix2 0 q) = (m ((c : Thread nD τ).loc main_arg3)) (ix1 q) := by
  show StableHlo.after hostOps0 _ (Proc.devRef .tc main_v25) (ix2 0 q) = _
  after_results_simp
  exact shapeCast_a_1a_apply _ _ 0 q
theorem W1_arg2 (c : Dev nD) : W1 m ρ c (Proc.devRef .tc main_arg2) = (m ((c : Thread nD τ).loc main_arg2)) :=
  (StableHlo.after_of_writes_sub hostOps0 _ hostOps0_writes (r := main_arg2) (by decide)).trans rfl

/-- Region 0's output: layer 0's messages. -/
theorem W2_v26 (c : Dev nD) : W2 m ρ c (Proc.devRef .tc main_v26)
    = Cert.ReferenceIdeal.Spec.attn64 (Cert.ReferenceIdeal.Spec.gather64 (m ((c : Thread nD τ).loc main_arg0)) (Cert.ReferenceIdeal.Spec.heads (m ((c : Thread nD τ).loc main_arg14)))) (Cert.ReferenceIdeal.Spec.gather64 (m ((c : Thread nD τ).loc main_arg0)) (Cert.ReferenceIdeal.Spec.tails (m ((c : Thread nD τ).loc main_arg14)))) (Cert.ReferenceIdeal.Spec.relBase (m ((c : Thread nD τ).loc main_arg1)) (m ((c : Thread nD τ).loc main_arg15))) (m ((c : Thread nD τ).loc main_arg2)) (m ((c : Thread nD τ).loc main_arg3)) := by
  rw [show W2 m ρ c (Proc.devRef .tc main_v26) = (dat0 (V1 m ρ) c).arrAt 5 cfg0.N from W2_arr m ρ c 5,
    final0 (V1 m ρ) c (m ((c : Thread nD τ).loc main_arg3)) (W1_v25 m ρ c)]
  show Cert.ReferenceIdeal.Spec.attn64 (W1 m ρ c (Proc.devRef .tc main_v17)) (W1 m ρ c (Proc.devRef .tc main_v24)) (W1 m ρ c (Proc.devRef .tc main_v10)) (W1 m ρ c (Proc.devRef .tc main_arg2)) _ = _
  rw [W1_v17, W1_v24, W1_v10, W1_arg2]

/-! ## Before region 1: the messages summed onto their head nodes, the two bias rows -/

theorem W2_v1 (c : Dev nD) : W2 m ρ c (Proc.devRef .tc main_v1) = Cert.ReferenceIdeal.Spec.heads (m ((c : Thread nD τ).loc main_arg14)) :=
  (W2_of_ne m ρ c main_v1 (by decide)).trans <|
    W1_v1 m ρ c

set_option maxHeartbeats 4000000 in
theorem W3_v29 (c : Dev nD) : W3 m ρ c (Proc.devRef .tc main_v29) = Cert.ReferenceIdeal.Spec.scatter64 (Cert.ReferenceIdeal.Spec.heads (m ((c : Thread nD τ).loc main_arg14))) (Cert.ReferenceIdeal.Spec.attn64 (Cert.ReferenceIdeal.Spec.gather64 (m ((c : Thread nD τ).loc main_arg0)) (Cert.ReferenceIdeal.Spec.heads (m ((c : Thread nD τ).loc main_arg14)))) (Cert.ReferenceIdeal.Spec.gather64 (m ((c : Thread nD τ).loc main_arg0)) (Cert.ReferenceIdeal.Spec.tails (m ((c : Thread nD τ).loc main_arg14)))) (Cert.ReferenceIdeal.Spec.relBase (m ((c : Thread nD τ).loc main_arg1)) (m ((c : Thread nD τ).loc main_arg15))) (m ((c : Thread nD τ).loc main_arg2)) (m ((c : Thread nD τ).loc main_arg3))) := by
  have e : W3 m ρ c (Proc.devRef .tc main_v29)
      = Cert.ReferenceIdeal.Spec.scatter64 (W2 m ρ c (Proc.devRef .tc main_v1)) (W2 m ρ c (Proc.devRef .tc main_v26)) := by
    show StableHlo.after hostOps1 _ (Proc.devRef .tc main_v29) = _
    after_results_simp
    rfl
  rw [e, W2_v1, W2_v26]
theorem W2_arg5 (c : Dev nD) : W2 m ρ c (Proc.devRef .tc main_arg5) = (m ((c : Thread nD τ).loc main_arg5)) :=
  (W2_of_ne m ρ c main_arg5 (by decide)).trans <|
    (StableHlo.after_of_writes_sub hostOps0 _ hostOps0_writes (r := main_arg5) (by decide)).trans <|
    rfl

theorem W2_arg7 (c : Dev nD) : W2 m ρ c (Proc.devRef .tc main_arg7) = (m ((c : Thread nD τ).loc main_arg7)) :=
  (W2_of_ne m ρ c main_arg7 (by decide)).trans <|
    (StableHlo.after_of_writes_sub hostOps0 _ hostOps0_writes (r := main_arg7) (by decide)).trans <|
    rfl

set_option maxHeartbeats 4000000 in
theorem W3_v30 (c : Dev nD) (q : Fin 32) : (W3 m ρ c (Proc.devRef .tc main_v30) : S1x32.Idx → Elt Ideal .f32) (ix2 0 q) = (m ((c : Thread nD τ).loc main_arg5)) (ix1 q) := by
  have e : (W3 m ρ c (Proc.devRef .tc main_v30) : S1x32.Idx → Elt Ideal .f32) (ix2 0 q) = (W2 m ρ c (Proc.devRef .tc main_arg5) : S32.Idx → Elt Ideal .f32) (ix1 q) := by
    show StableHlo.after hostOps1 _ (Proc.devRef .tc main_v30) (ix2 0 q) = _
    after_results_simp
    exact shapeCast_a_1a_apply _ _ 0 q
  rw [e, W2_arg5]
set_option maxHeartbeats 4000000 in
theorem W3_v31 (c : Dev nD) (q : Fin 32) : (W3 m ρ c (Proc.devRef .tc main_v31) : S1x32.Idx → Elt Ideal .f32) (ix2 0 q) = (m ((c : Thread nD τ).loc main_arg7)) (ix1 q) := by
  have e : (W3 m ρ c (Proc.devRef .tc main_v31) : S1x32.Idx → Elt Ideal .f32) (ix2 0 q) = (W2 m ρ c (Proc.devRef .tc main_arg7) : S32.Idx → Elt Ideal .f32) (ix1 q) := by
    show StableHlo.after hostOps1 _ (Proc.devRef .tc main_v31) (ix2 0 q) = _
    after_results_simp
    exact shapeCast_a_1a_apply _ _ 0 q
  rw [e, W2_arg7]
theorem W3_arg0 (c : Dev nD) : W3 m ρ c (Proc.devRef .tc main_arg0) = (m ((c : Thread nD τ).loc main_arg0)) :=
  (StableHlo.after_of_writes_sub hostOps1 _ hostOps1_writes (r := main_arg0) (by decide)).trans <|
    (W2_of_ne m ρ c main_arg0 (by decide)).trans <|
    (StableHlo.after_of_writes_sub hostOps0 _ hostOps0_writes (r := main_arg0) (by decide)).trans <|
    rfl

theorem W3_arg4 (c : Dev nD) : W3 m ρ c (Proc.devRef .tc main_arg4) = (m ((c : Thread nD τ).loc main_arg4)) :=
  (StableHlo.after_of_writes_sub hostOps1 _ hostOps1_writes (r := main_arg4) (by decide)).trans <|
    (W2_of_ne m ρ c main_arg4 (by decide)).trans <|
    (StableHlo.after_of_writes_sub hostOps0 _ hostOps0_writes (r := main_arg4) (by decide)).trans <|
    rfl

theorem W3_arg6 (c : Dev nD) : W3 m ρ c (Proc.devRef .tc main_arg6) = (m ((c : Thread nD τ).loc main_arg6)) :=
  (StableHlo.after_of_writes_sub hostOps1 _ hostOps1_writes (r := main_arg6) (by decide)).trans <|
    (W2_of_ne m ρ c main_arg6 (by decide)).trans <|
    (StableHlo.after_of_writes_sub hostOps0 _ hostOps0_writes (r := main_arg6) (by decide)).trans <|
    rfl

/-- Region 1's output: layer 0's node embedding. -/
theorem W4_v32 (c : Dev nD) : W4 m ρ c (Proc.devRef .tc main_v32) = (Cert.ReferenceIdeal.Spec.layer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg14)) (m ((c : Thread nD τ).loc main_arg15))) := by
  rw [show W4 m ρ c (Proc.devRef .tc main_v32) = (dat1 (V3 m ρ) c).arrAt 6 cfg1.N from W4_arr m ρ c 6,
    final1 (V3 m ρ) c (m ((c : Thread nD τ).loc main_arg5)) (m ((c : Thread nD τ).loc main_arg7)) (W3_v30 m ρ c) (W3_v31 m ρ c)]
  show Cert.ReferenceIdeal.Spec.agg64 (W3 m ρ c (Proc.devRef .tc main_arg0)) (W3 m ρ c (Proc.devRef .tc main_v29)) (W3 m ρ c (Proc.devRef .tc main_arg4)) _ (W3 m ρ c (Proc.devRef .tc main_arg6)) _ = _
  rw [W3_arg0, W3_v29, W3_arg4, W3_arg6]
  rfl

/-! ## Before region 2: layer 0's rows gathered by the edge endpoints -/

theorem W4_v1 (c : Dev nD) : W4 m ρ c (Proc.devRef .tc main_v1) = Cert.ReferenceIdeal.Spec.heads (m ((c : Thread nD τ).loc main_arg14)) :=
  (W4_of_ne m ρ c main_v1 (by decide)).trans <|
    (StableHlo.after_of_writes_sub hostOps1 _ hostOps1_writes (r := main_v1) (by decide)).trans <|
    (W2_of_ne m ρ c main_v1 (by decide)).trans <|
    W1_v1 m ρ c

theorem W4_v3 (c : Dev nD) : W4 m ρ c (Proc.devRef .tc main_v3) = Cert.ReferenceIdeal.Spec.tails (m ((c : Thread nD τ).loc main_arg14)) :=
  (W4_of_ne m ρ c main_v3 (by decide)).trans <|
    (StableHlo.after_of_writes_sub hostOps1 _ hostOps1_writes (r := main_v3) (by decide)).trans <|
    (W2_of_ne m ρ c main_v3 (by decide)).trans <|
    W1_v3 m ρ c

set_option maxHeartbeats 4000000 in
theorem W5_v39 (c : Dev nD) : W5 m ρ c (Proc.devRef .tc main_v39) = Cert.ReferenceIdeal.Spec.gather32 (Cert.ReferenceIdeal.Spec.layer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg14)) (m ((c : Thread nD τ).loc main_arg15))) (Cert.ReferenceIdeal.Spec.heads (m ((c : Thread nD τ).loc main_arg14))) := by
  have e : W5 m ρ c (Proc.devRef .tc main_v39) = Cert.ReferenceIdeal.Spec.gather32 (W4 m ρ c (Proc.devRef .tc main_v32)) (W4 m ρ c (Proc.devRef .tc main_v1)) := by
    show StableHlo.after hostOps2 _ (Proc.devRef .tc main_v39) = _
    after_results_simp
    rfl
  rw [e, W4_v32, W4_v1]
set_option maxHeartbeats 4000000 in
theorem W5_v46 (c : Dev nD) : W5 m ρ c (Proc.devRef .tc main_v46) = Cert.ReferenceIdeal.Spec.gather32 (Cert.ReferenceIdeal.Spec.layer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg14)) (m ((c : Thread nD τ).loc main_arg15))) (Cert.ReferenceIdeal.Spec.tails (m ((c : Thread nD τ).loc main_arg14))) := by
  have e : W5 m ρ c (Proc.devRef .tc main_v46) = Cert.ReferenceIdeal.Spec.gather32 (W4 m ρ c (Proc.devRef .tc main_v32)) (W4 m ρ c (Proc.devRef .tc main_v3)) := by
    show StableHlo.after hostOps2 _ (Proc.devRef .tc main_v46) = _
    after_results_simp
    rfl
  rw [e, W4_v32, W4_v3]
theorem W4_arg9 (c : Dev nD) : W4 m ρ c (Proc.devRef .tc main_arg9) = (m ((c : Thread nD τ).loc main_arg9)) :=
  (W4_of_ne m ρ c main_arg9 (by decide)).trans <|
    (StableHlo.after_of_writes_sub hostOps1 _ hostOps1_writes (r := main_arg9) (by decide)).trans <|
    (W2_of_ne m ρ c main_arg9 (by decide)).trans <|
    (StableHlo.after_of_writes_sub hostOps0 _ hostOps0_writes (r := main_arg9) (by decide)).trans <|
    rfl

set_option maxHeartbeats 4000000 in
theorem W5_v47 (c : Dev nD) (q : Fin 32) : (W5 m ρ c (Proc.devRef .tc main_v47) : S1x32.Idx → Elt Ideal .f32) (ix2 0 q) = (m ((c : Thread nD τ).loc main_arg9)) (ix1 q) := by
  have e : (W5 m ρ c (Proc.devRef .tc main_v47) : S1x32.Idx → Elt Ideal .f32) (ix2 0 q) = (W4 m ρ c (Proc.devRef .tc main_arg9) : S32.Idx → Elt Ideal .f32) (ix1 q) := by
    show StableHlo.after hostOps2 _ (Proc.devRef .tc main_v47) (ix2 0 q) = _
    after_results_simp
    exact shapeCast_a_1a_apply _ _ 0 q
  rw [e, W4_arg9]
theorem W5_v10 (c : Dev nD) : W5 m ρ c (Proc.devRef .tc main_v10) = Cert.ReferenceIdeal.Spec.relBase (m ((c : Thread nD τ).loc main_arg1)) (m ((c : Thread nD τ).loc main_arg15)) :=
  (StableHlo.after_of_writes_sub hostOps2 _ hostOps2_writes (r := main_v10) (by decide)).trans <|
    (W4_of_ne m ρ c main_v10 (by decide)).trans <|
    (StableHlo.after_of_writes_sub hostOps1 _ hostOps1_writes (r := main_v10) (by decide)).trans <|
    ((W2_arr m ρ c 2).trans (((dat0 (V1 m ρ) c).arrAt_in 2 rfl _).trans (A_eq0 (V1 m ρ) c 2))).trans <|
    W1_v10 m ρ c

theorem W5_arg8 (c : Dev nD) : W5 m ρ c (Proc.devRef .tc main_arg8) = (m ((c : Thread nD τ).loc main_arg8)) :=
  (StableHlo.after_of_writes_sub hostOps2 _ hostOps2_writes (r := main_arg8) (by decide)).trans <|
    (W4_of_ne m ρ c main_arg8 (by decide)).trans <|
    (StableHlo.after_of_writes_sub hostOps1 _ hostOps1_writes (r := main_arg8) (by decide)).trans <|
    (W2_of_ne m ρ c main_arg8 (by decide)).trans <|
    (StableHlo.after_of_writes_sub hostOps0 _ hostOps0_writes (r := main_arg8) (by decide)).trans <|
    rfl

/-- Region 2's output: layer 1's messages. -/
theorem W6_v48 (c : Dev nD) : W6 m ρ c (Proc.devRef .tc main_v48) = (Cert.ReferenceIdeal.Spec.attn32 (Cert.ReferenceIdeal.Spec.gather32 (Cert.ReferenceIdeal.Spec.layer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg14)) (m ((c : Thread nD τ).loc main_arg15))) (Cert.ReferenceIdeal.Spec.heads (m ((c : Thread nD τ).loc main_arg14)))) (Cert.ReferenceIdeal.Spec.gather32 (Cert.ReferenceIdeal.Spec.layer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg14)) (m ((c : Thread nD τ).loc main_arg15))) (Cert.ReferenceIdeal.Spec.tails (m ((c : Thread nD τ).loc main_arg14)))) (Cert.ReferenceIdeal.Spec.relBase (m ((c : Thread nD τ).loc main_arg1)) (m ((c : Thread nD τ).loc main_arg15))) (m ((c : Thread nD τ).loc main_arg8)) (m ((c : Thread nD τ).loc main_arg9))) := by
  rw [show W6 m ρ c (Proc.devRef .tc main_v48) = (dat2 (V5 m ρ) c).arrAt 5 cfg2.N from W6_arr m ρ c 5,
    final2 (V5 m ρ) c (m ((c : Thread nD τ).loc main_arg9)) (W5_v47 m ρ c)]
  show Cert.ReferenceIdeal.Spec.attn32 (W5 m ρ c (Proc.devRef .tc main_v39)) (W5 m ρ c (Proc.devRef .tc main_v46)) (W5 m ρ c (Proc.devRef .tc main_v10)) (W5 m ρ c (Proc.devRef .tc main_arg8)) _ = _
  rw [W5_v39, W5_v46, W5_v10, W5_arg8]

/-! ## Before region 3: layer 1's messages summed onto their head nodes, the two bias rows -/

theorem W6_v1 (c : Dev nD) : W6 m ρ c (Proc.devRef .tc main_v1) = Cert.ReferenceIdeal.Spec.heads (m ((c : Thread nD τ).loc main_arg14)) :=
  (W6_of_ne m ρ c main_v1 (by decide)).trans <|
    (StableHlo.after_of_writes_sub hostOps2 _ hostOps2_writes (r := main_v1) (by decide)).trans <|
    (W4_of_ne m ρ c main_v1 (by decide)).trans <|
    (StableHlo.after_of_writes_sub hostOps1 _ hostOps1_writes (r := main_v1) (by decide)).trans <|
    (W2_of_ne m ρ c main_v1 (by decide)).trans <|
    W1_v1 m ρ c

set_option maxHeartbeats 4000000 in
theorem W7_v51 (c : Dev nD) : W7 m ρ c (Proc.devRef .tc main_v51) = Cert.ReferenceIdeal.Spec.scatter32 (Cert.ReferenceIdeal.Spec.heads (m ((c : Thread nD τ).loc main_arg14))) (Cert.ReferenceIdeal.Spec.attn32 (Cert.ReferenceIdeal.Spec.gather32 (Cert.ReferenceIdeal.Spec.layer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg14)) (m ((c : Thread nD τ).loc main_arg15))) (Cert.ReferenceIdeal.Spec.heads (m ((c : Thread nD τ).loc main_arg14)))) (Cert.ReferenceIdeal.Spec.gather32 (Cert.ReferenceIdeal.Spec.layer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg14)) (m ((c : Thread nD τ).loc main_arg15))) (Cert.ReferenceIdeal.Spec.tails (m ((c : Thread nD τ).loc main_arg14)))) (Cert.ReferenceIdeal.Spec.relBase (m ((c : Thread nD τ).loc main_arg1)) (m ((c : Thread nD τ).loc main_arg15))) (m ((c : Thread nD τ).loc main_arg8)) (m ((c : Thread nD τ).loc main_arg9))) := by
  have e : W7 m ρ c (Proc.devRef .tc main_v51)
      = Cert.ReferenceIdeal.Spec.scatter32 (W6 m ρ c (Proc.devRef .tc main_v1)) (W6 m ρ c (Proc.devRef .tc main_v48)) := by
    show StableHlo.after hostOps3 _ (Proc.devRef .tc main_v51) = _
    after_results_simp
    rfl
  rw [e, W6_v1, W6_v48]
theorem W6_arg11 (c : Dev nD) : W6 m ρ c (Proc.devRef .tc main_arg11) = (m ((c : Thread nD τ).loc main_arg11)) :=
  (W6_of_ne m ρ c main_arg11 (by decide)).trans <|
    (StableHlo.after_of_writes_sub hostOps2 _ hostOps2_writes (r := main_arg11) (by decide)).trans <|
    (W4_of_ne m ρ c main_arg11 (by decide)).trans <|
    (StableHlo.after_of_writes_sub hostOps1 _ hostOps1_writes (r := main_arg11) (by decide)).trans <|
    (W2_of_ne m ρ c main_arg11 (by decide)).trans <|
    (StableHlo.after_of_writes_sub hostOps0 _ hostOps0_writes (r := main_arg11) (by decide)).trans <|
    rfl

theorem W6_arg13 (c : Dev nD) : W6 m ρ c (Proc.devRef .tc main_arg13) = (m ((c : Thread nD τ).loc main_arg13)) :=
  (W6_of_ne m ρ c main_arg13 (by decide)).trans <|
    (StableHlo.after_of_writes_sub hostOps2 _ hostOps2_writes (r := main_arg13) (by decide)).trans <|
    (W4_of_ne m ρ c main_arg13 (by decide)).trans <|
    (StableHlo.after_of_writes_sub hostOps1 _ hostOps1_writes (r := main_arg13) (by decide)).trans <|
    (W2_of_ne m ρ c main_arg13 (by decide)).trans <|
    (StableHlo.after_of_writes_sub hostOps0 _ hostOps0_writes (r := main_arg13) (by decide)).trans <|
    rfl

set_option maxHeartbeats 4000000 in
theorem W7_v52 (c : Dev nD) (q : Fin 16) : (W7 m ρ c (Proc.devRef .tc main_v52) : S1x16.Idx → Elt Ideal .f32) (ix2 0 q) = (m ((c : Thread nD τ).loc main_arg11)) (ix1 q) := by
  have e : (W7 m ρ c (Proc.devRef .tc main_v52) : S1x16.Idx → Elt Ideal .f32) (ix2 0 q) = (W6 m ρ c (Proc.devRef .tc main_arg11) : S16.Idx → Elt Ideal .f32) (ix1 q) := by
    show StableHlo.after hostOps3 _ (Proc.devRef .tc main_v52) (ix2 0 q) = _
    after_results_simp
    exact shapeCast_a_1a_apply _ _ 0 q
  rw [e, W6_arg11]
set_option maxHeartbeats 4000000 in
theorem W7_v53 (c : Dev nD) (q : Fin 16) : (W7 m ρ c (Proc.devRef .tc main_v53) : S1x16.Idx → Elt Ideal .f32) (ix2 0 q) = (m ((c : Thread nD τ).loc main_arg13)) (ix1 q) := by
  have e : (W7 m ρ c (Proc.devRef .tc main_v53) : S1x16.Idx → Elt Ideal .f32) (ix2 0 q) = (W6 m ρ c (Proc.devRef .tc main_arg13) : S16.Idx → Elt Ideal .f32) (ix1 q) := by
    show StableHlo.after hostOps3 _ (Proc.devRef .tc main_v53) (ix2 0 q) = _
    after_results_simp
    exact shapeCast_a_1a_apply _ _ 0 q
  rw [e, W6_arg13]
theorem W7_v32 (c : Dev nD) : W7 m ρ c (Proc.devRef .tc main_v32) = (Cert.ReferenceIdeal.Spec.layer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg14)) (m ((c : Thread nD τ).loc main_arg15))) :=
  (StableHlo.after_of_writes_sub hostOps3 _ hostOps3_writes (r := main_v32) (by decide)).trans <|
    (W6_of_ne m ρ c main_v32 (by decide)).trans <|
    (StableHlo.after_of_writes_sub hostOps2 _ hostOps2_writes (r := main_v32) (by decide)).trans <|
    W4_v32 m ρ c

theorem W7_arg10 (c : Dev nD) : W7 m ρ c (Proc.devRef .tc main_arg10) = (m ((c : Thread nD τ).loc main_arg10)) :=
  (StableHlo.after_of_writes_sub hostOps3 _ hostOps3_writes (r := main_arg10) (by decide)).trans <|
    (W6_of_ne m ρ c main_arg10 (by decide)).trans <|
    (StableHlo.after_of_writes_sub hostOps2 _ hostOps2_writes (r := main_arg10) (by decide)).trans <|
    (W4_of_ne m ρ c main_arg10 (by decide)).trans <|
    (StableHlo.after_of_writes_sub hostOps1 _ hostOps1_writes (r := main_arg10) (by decide)).trans <|
    (W2_of_ne m ρ c main_arg10 (by decide)).trans <|
    (StableHlo.after_of_writes_sub hostOps0 _ hostOps0_writes (r := main_arg10) (by decide)).trans <|
    rfl

theorem W7_arg12 (c : Dev nD) : W7 m ρ c (Proc.devRef .tc main_arg12) = (m ((c : Thread nD τ).loc main_arg12)) :=
  (StableHlo.after_of_writes_sub hostOps3 _ hostOps3_writes (r := main_arg12) (by decide)).trans <|
    (W6_of_ne m ρ c main_arg12 (by decide)).trans <|
    (StableHlo.after_of_writes_sub hostOps2 _ hostOps2_writes (r := main_arg12) (by decide)).trans <|
    (W4_of_ne m ρ c main_arg12 (by decide)).trans <|
    (StableHlo.after_of_writes_sub hostOps1 _ hostOps1_writes (r := main_arg12) (by decide)).trans <|
    (W2_of_ne m ρ c main_arg12 (by decide)).trans <|
    (StableHlo.after_of_writes_sub hostOps0 _ hostOps0_writes (r := main_arg12) (by decide)).trans <|
    rfl

/-- Region 3's output: layer 1's node embedding. -/
theorem W8_v54 (c : Dev nD) : W8 m ρ c (Proc.devRef .tc main_v54) = (Cert.ReferenceIdeal.Spec.layer1 (Cert.ReferenceIdeal.Spec.layer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg14)) (m ((c : Thread nD τ).loc main_arg15))) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  rw [show W8 m ρ c (Proc.devRef .tc main_v54) = (dat3 (V7 m ρ) c).arrAt 6 cfg3.N from W8_arr m ρ c 6,
    final3 (V7 m ρ) c (m ((c : Thread nD τ).loc main_arg11)) (m ((c : Thread nD τ).loc main_arg13)) (W7_v52 m ρ c) (W7_v53 m ρ c)]
  show Cert.ReferenceIdeal.Spec.agg32 (W7 m ρ c (Proc.devRef .tc main_v32)) (W7 m ρ c (Proc.devRef .tc main_v51)) (W7 m ρ c (Proc.devRef .tc main_arg10)) _ (W7 m ρ c (Proc.devRef .tc main_arg12)) _ = _
  rw [W7_v32, W7_v51, W7_arg10, W7_arg12]
  rfl

/-! ## The result: the input embedding and the two layers' embeddings side by side -/

theorem W8_arg0 (c : Dev nD) : W8 m ρ c (Proc.devRef .tc main_arg0) = (m ((c : Thread nD τ).loc main_arg0)) :=
  (W8_of_ne m ρ c main_arg0 (by decide)).trans <|
    (StableHlo.after_of_writes_sub hostOps3 _ hostOps3_writes (r := main_arg0) (by decide)).trans <|
    (W6_of_ne m ρ c main_arg0 (by decide)).trans <|
    (StableHlo.after_of_writes_sub hostOps2 _ hostOps2_writes (r := main_arg0) (by decide)).trans <|
    ((W4_arr m ρ c 0).trans (((dat1 (V3 m ρ) c).arrAt_in 0 rfl _).trans (A_eq1 (V3 m ρ) c 0))).trans <|
    (StableHlo.after_of_writes_sub hostOps1 _ hostOps1_writes (r := main_arg0) (by decide)).trans <|
    (W2_of_ne m ρ c main_arg0 (by decide)).trans <|
    (StableHlo.after_of_writes_sub hostOps0 _ hostOps0_writes (r := main_arg0) (by decide)).trans <|
    rfl

theorem W8_v32 (c : Dev nD) : W8 m ρ c (Proc.devRef .tc main_v32) = (Cert.ReferenceIdeal.Spec.layer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg14)) (m ((c : Thread nD τ).loc main_arg15))) :=
  ((W8_arr m ρ c 0).trans (((dat3 (V7 m ρ) c).arrAt_in 0 rfl _).trans (A_eq3 (V7 m ρ) c 0))).trans <|
    (StableHlo.after_of_writes_sub hostOps3 _ hostOps3_writes (r := main_v32) (by decide)).trans <|
    (W6_of_ne m ρ c main_v32 (by decide)).trans <|
    (StableHlo.after_of_writes_sub hostOps2 _ hostOps2_writes (r := main_v32) (by decide)).trans <|
    W4_v32 m ρ c

set_option maxHeartbeats 4000000 in
/-- The result buffer after the last host stretch is the network function of the sixteen arguments. -/
theorem result_eq (c : Dev nD) : W9 m ρ c (Proc.devRef .tc main_v55)
    = Cert.ReferenceIdeal.Spec.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  have e : W9 m ρ c (Proc.devRef .tc main_v55)
      = concatenate S100000x112 1 [⟨S100000x64, W8 m ρ c (Proc.devRef .tc main_arg0)⟩, ⟨S100000x32, W8 m ρ c (Proc.devRef .tc main_v32)⟩, ⟨S100000x16, W8 m ρ c (Proc.devRef .tc main_v54)⟩]
          Cert.KernelIdeal.Facts₀.concatenates_S100000x64_S100000x32_S100000x16_S100000x112_d1 := by
    show StableHlo.after hostOps4 _ (Proc.devRef .tc main_v55) = _
    after_results_simp
    rfl
  rw [e, W8_arg0, W8_v32, W8_v54]
  rfl

end Cert.KernelIdeal.Fr
end
-- ==== Proof.Ref.RunOps.lean ====
/-
  The reference program's @main as a list of its 140 host operations, the outlined functions' operations listed in
  place over their calls' buffers, in eight consecutive stages: the edge indices and the three row gathers; layer 0's
  attention message and its scatter-add; layer 0's pre-activation and leaky rectifier; its row normalisation; layer 1's
  gathers; its attention message and scatter-add; its aggregator; the concatenation. The run of the line
  (every weakly fair execution ends with each buffer at the operations' fold over the launch contents), and the fold
  split stage by stage, with the buffers a stage does not write kept through it.
-/
import proofs.«133880_j17265768530448_1_alg».proof.ReferenceIdeal
import proofs.«133880_j17265768530448_1_alg».proof.Proof.Gen.ReferenceIdeal
import Idealize.ShloMosaic.Lib.StableHlo.Run
import Idealize.ShloMosaic.Lib.Pipeline.Frame

set_option Elab.async false

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The heads and tails of the edges, each index column wrapped once, and the three row gathers (relation rows, head rows, tail rows). -/
abbrev cA : List (HloOp τ sig (Elt F)) :=
  [ StableHlo.unary main_arg14 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg14 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_arg15 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 40#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_arg15 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_arg15 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg1 main_v9 main_v10 ((fun x i => Host.gather gather_S40x64_S1600000x1_S1600000x64_1_0_n_n_0_1_164 x i) : (⟨S40x64, .f32⟩ : BufTy).Contents (Elt F) → (⟨S1600000x1, .i32⟩ : BufTy).Contents (Elt F) → (⟨S1600000x64, .f32⟩ : BufTy).Contents (Elt F)),
    StableHlo.nullary main_c_1 (constantI S_ 32 0#32),
    StableHlo.unary main_c_1 main_v11 (broadcastInDim S1600000 ![] bcast_S_S1600000 : (⟨S_, .i32⟩ : BufTy).Contents (Elt F) → (⟨S1600000, .i32⟩ : BufTy).Contents (Elt F)),
    StableHlo.binary main_v1 main_v11 main_v12 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v13 (broadcastInDim S1600000 ![] bcast_S_S1600000 : (⟨S_, .i32⟩ : BufTy).Contents (Elt F) → (⟨S1600000, .i32⟩ : BufTy).Contents (Elt F)),
    StableHlo.binary main_v1 main_v13 main_v14 (addi : (⟨S1600000, .i32⟩ : BufTy).Contents (Elt F) → (⟨S1600000, .i32⟩ : BufTy).Contents (Elt F) → (⟨S1600000, .i32⟩ : BufTy).Contents (Elt F)),
    StableHlo.ternary main_v12 main_v14 main_v1 main_v15 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v15 main_v16 (broadcastInDim S1600000x1 ![0] bcast_S1600000_S1600000x1_0 : (⟨S1600000, .i32⟩ : BufTy).Contents (Elt F) → (⟨S1600000x1, .i32⟩ : BufTy).Contents (Elt F)),
    StableHlo.binary main_arg0 main_v16 main_v17 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_c_3 (constantI S_ 32 0#32),
    StableHlo.unary main_c_3 main_v18 (broadcastInDim S1600000 ![] bcast_S_S1600000 : (⟨S_, .i32⟩ : BufTy).Contents (Elt F) → (⟨S1600000, .i32⟩ : BufTy).Contents (Elt F)),
    StableHlo.binary main_v3 main_v18 main_v19 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v20 (broadcastInDim S1600000 ![] bcast_S_S1600000 : (⟨S_, .i32⟩ : BufTy).Contents (Elt F) → (⟨S1600000, .i32⟩ : BufTy).Contents (Elt F)),
    StableHlo.binary main_v3 main_v20 main_v21 (addi : (⟨S1600000, .i32⟩ : BufTy).Contents (Elt F) → (⟨S1600000, .i32⟩ : BufTy).Contents (Elt F) → (⟨S1600000, .i32⟩ : BufTy).Contents (Elt F)),
    StableHlo.ternary main_v19 main_v21 main_v3 main_v22 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v22 main_v23 (broadcastInDim S1600000x1 ![0] bcast_S1600000_S1600000x1_0 : (⟨S1600000, .i32⟩ : BufTy).Contents (Elt F) → (⟨S1600000x1, .i32⟩ : BufTy).Contents (Elt F)),
    StableHlo.binary main_arg0 main_v23 main_v24 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) ]

/-- Layer 0's attention message of every edge and its sum onto the head nodes. -/
abbrev cB : List (HloOp τ sig (Elt F)) :=
  [ StableHlo.binary main_v10 main_arg2 main_v25 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    StableHlo.unary main_arg3 main_v26 (broadcastInDim S1x64 ![1] bcast_S64_S1x64_1 : (⟨S64, .f32⟩ : BufTy).Contents (Elt F) → (⟨S1x64, .f32⟩ : BufTy).Contents (Elt F)),
    StableHlo.unary main_v26 main_v27 (broadcastInDim S1600000x64 ![0, 1] bcast_S1x64_S1600000x64_0_1 : (⟨S1x64, .f32⟩ : BufTy).Contents (Elt F) → (⟨S1600000x64, .f32⟩ : BufTy).Contents (Elt F)),
    StableHlo.binary main_v25 main_v27 main_v28 (addf : (⟨S1600000x64, .f32⟩ : BufTy).Contents (Elt F) → (⟨S1600000x64, .f32⟩ : BufTy).Contents (Elt F) → (⟨S1600000x64, .f32⟩ : BufTy).Contents (Elt F)),
    StableHlo.binary main_v17 main_v28 main_v29 (addf : (⟨S1600000x64, .f32⟩ : BufTy).Contents (Elt F) → (⟨S1600000x64, .f32⟩ : BufTy).Contents (Elt F) → (⟨S1600000x64, .f32⟩ : BufTy).Contents (Elt F)),
    StableHlo.unary main_v29 main_v30 (Host.tanh : (⟨S1600000x64, .f32⟩ : BufTy).Contents (Elt F) → (⟨S1600000x64, .f32⟩ : BufTy).Contents (Elt F)),
    StableHlo.binary main_v17 main_v30 main_v31 (mulf : (⟨S1600000x64, .f32⟩ : BufTy).Contents (Elt F) → (⟨S1600000x64, .f32⟩ : BufTy).Contents (Elt F) → (⟨S1600000x64, .f32⟩ : BufTy).Contents (Elt F)),
    StableHlo.nullary main_cst (constant S_ .f32 0x00000000#32),
    StableHlo.binary main_v31 main_cst main_v32 ((fun x v => Host.reduceAdd x v reducesTo_S1600000x64_S1600000_d1 h_S_) : (⟨S1600000x64, .f32⟩ : BufTy).Contents (Elt F) → (⟨S_, .f32⟩ : BufTy).Contents (Elt F) → (⟨S1600000, .f32⟩ : BufTy).Contents (Elt F)),
    StableHlo.unary main_v32 main_v33 (broadcastInDim S1600000x1 ![0] bcast_S1600000_S1600000x1_0 : (⟨S1600000, .f32⟩ : BufTy).Contents (Elt F) → (⟨S1600000x1, .f32⟩ : BufTy).Contents (Elt F)),
    StableHlo.unary main_v33 main_v34 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v24 main_v34 main_v35 (mulf : (⟨S1600000x64, .f32⟩ : BufTy).Contents (Elt F) → (⟨S1600000x64, .f32⟩ : BufTy).Contents (Elt F) → (⟨S1600000x64, .f32⟩ : BufTy).Contents (Elt F)),
    StableHlo.nullary main_cst_5 (constant S_ .f32 0x00000000#32),
    StableHlo.unary main_cst_5 main_v36 (broadcastInDim S100000x64 ![] bcast_S_S100000x64 : (⟨S_, .f32⟩ : BufTy).Contents (Elt F) → (⟨S100000x64, .f32⟩ : BufTy).Contents (Elt F)),
    StableHlo.unary main_v1 main_v37 (broadcastInDim S1600000x1 ![0] bcast_S1600000_S1600000x1_0 : (⟨S1600000, .i32⟩ : BufTy).Contents (Elt F) → (⟨S1600000x1, .i32⟩ : BufTy).Contents (Elt F)),
    StableHlo.ternary main_v36 main_v37 main_v35 main_v38 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- Layer 0's pre-activation and the leaky rectifier (the outlined function's seven operations in place). -/
abbrev cC0 : List (HloOp τ sig (Elt F)) :=
  [ StableHlo.binary main_arg0 main_v38 main_v39 (addf : (⟨S100000x64, .f32⟩ : BufTy).Contents (Elt F) → (⟨S100000x64, .f32⟩ : BufTy).Contents (Elt F) → (⟨S100000x64, .f32⟩ : BufTy).Contents (Elt F)),
    StableHlo.binary main_v39 main_arg4 main_v40 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg5 main_v41 (broadcastInDim S1x32 ![1] bcast_S32_S1x32_1 : (⟨S32, .f32⟩ : BufTy).Contents (Elt F) → (⟨S1x32, .f32⟩ : BufTy).Contents (Elt F)),
    StableHlo.unary main_v41 main_v42 (broadcastInDim S100000x32 ![0, 1] bcast_S1x32_S100000x32_0_1 : (⟨S1x32, .f32⟩ : BufTy).Contents (Elt F) → (⟨S100000x32, .f32⟩ : BufTy).Contents (Elt F)),
    StableHlo.binary main_v40 main_v42 main_v43 (addf : (⟨S100000x32, .f32⟩ : BufTy).Contents (Elt F) → (⟨S100000x32, .f32⟩ : BufTy).Contents (Elt F) → (⟨S100000x32, .f32⟩ : BufTy).Contents (Elt F)),
    StableHlo.binary main_arg0 main_v38 main_v44 (mulf : (⟨S100000x64, .f32⟩ : BufTy).Contents (Elt F) → (⟨S100000x64, .f32⟩ : BufTy).Contents (Elt F) → (⟨S100000x64, .f32⟩ : BufTy).Contents (Elt F)),
    StableHlo.binary main_v44 main_arg6 main_v45 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.binary main_v43 main_v45 main_v46 (addf : (⟨S100000x32, .f32⟩ : BufTy).Contents (Elt F) → (⟨S100000x32, .f32⟩ : BufTy).Contents (Elt F) → (⟨S100000x32, .f32⟩ : BufTy).Contents (Elt F)),
    StableHlo.unary main_arg7 main_v47 (broadcastInDim S1x32 ![1] bcast_S32_S1x32_1 : (⟨S32, .f32⟩ : BufTy).Contents (Elt F) → (⟨S1x32, .f32⟩ : BufTy).Contents (Elt F)),
    StableHlo.unary main_v47 main_v48 (broadcastInDim S100000x32 ![0, 1] bcast_S1x32_S100000x32_0_1 : (⟨S1x32, .f32⟩ : BufTy).Contents (Elt F) → (⟨S100000x32, .f32⟩ : BufTy).Contents (Elt F)),
    StableHlo.binary main_v46 main_v48 main_v49 (addf : (⟨S100000x32, .f32⟩ : BufTy).Contents (Elt F) → (⟨S100000x32, .f32⟩ : BufTy).Contents (Elt F) → (⟨S100000x32, .f32⟩ : BufTy).Contents (Elt F)),
    StableHlo.nullary main_cst_6 (constant S_ .f32 0x3C23D70A#32),
    StableHlo.nullary main_call0_cst (constant S_ .f32 0x00000000#32),
    StableHlo.unary main_call0_cst main_call0_v0 (broadcastInDim S100000x32 ![] bcast_S_S100000x32 : (⟨S_, .f32⟩ : BufTy).Contents (Elt F) → (⟨S100000x32, .f32⟩ : BufTy).Contents (Elt F)),
    StableHlo.binary main_v49 main_call0_v0 main_call0_v1 (cmpf .oge : (⟨S100000x32, .f32⟩ : BufTy).Contents (Elt F) → (⟨S100000x32, .f32⟩ : BufTy).Contents (Elt F) → (⟨S100000x32, .i1⟩ : BufTy).Contents (Elt F)),
    StableHlo.unary main_cst_6 main_call0_v2 (id : (⟨S_, .f32⟩ : BufTy).Contents (Elt F) → (⟨S_, .f32⟩ : BufTy).Contents (Elt F)),
    StableHlo.unary main_call0_v2 main_call0_v3 (broadcastInDim S100000x32 ![] bcast_S_S100000x32 : (⟨S_, .f32⟩ : BufTy).Contents (Elt F) → (⟨S100000x32, .f32⟩ : BufTy).Contents (Elt F)),
    StableHlo.binary main_call0_v3 main_v49 main_call0_v4 (mulf : (⟨S100000x32, .f32⟩ : BufTy).Contents (Elt F) → (⟨S100000x32, .f32⟩ : BufTy).Contents (Elt F) → (⟨S100000x32, .f32⟩ : BufTy).Contents (Elt F)),
    StableHlo.ternary main_call0_v1 main_v49 main_call0_v4 main_v50 (select : (⟨S100000x32, .i1⟩ : BufTy).Contents (Elt F) → (⟨S100000x32, .f32⟩ : BufTy).Contents (Elt F) → (⟨S100000x32, .f32⟩ : BufTy).Contents (Elt F) → (⟨S100000x32, .f32⟩ : BufTy).Contents (Elt F)) ]

/-- Layer 0's row norms (the outlined function's five operations in place), clamped below, and the division. -/
abbrev cC1 : List (HloOp τ sig (Elt F)) :=
  [ StableHlo.binary main_v50 main_v50 main_call1_v0 (mulf : (⟨S100000x32, .f32⟩ : BufTy).Contents (Elt F) → (⟨S100000x32, .f32⟩ : BufTy).Contents (Elt F) → (⟨S100000x32, .f32⟩ : BufTy).Contents (Elt F)),
    StableHlo.nullary main_call1_cst (constant S_ .f32 0x00000000#32),
    StableHlo.binary main_call1_v0 main_call1_cst main_call1_v1 ((fun x v => Host.reduceAdd x v reducesTo_S100000x32_S100000_d1 h_S_) : (⟨S100000x32, .f32⟩ : BufTy).Contents (Elt F) → (⟨S_, .f32⟩ : BufTy).Contents (Elt F) → (⟨S100000, .f32⟩ : BufTy).Contents (Elt F)),
    StableHlo.unary main_call1_v1 main_call1_v2 (broadcastInDim S100000x1 ![0] bcast_S100000_S100000x1_0 : (⟨S100000, .f32⟩ : BufTy).Contents (Elt F) → (⟨S100000x1, .f32⟩ : BufTy).Contents (Elt F)),
    StableHlo.unary main_call1_v2 main_v51 (Host.sqrt : (⟨S100000x1, .f32⟩ : BufTy).Contents (Elt F) → (⟨S100000x1, .f32⟩ : BufTy).Contents (Elt F)),
    StableHlo.nullary main_cst_7 (constant S_ .f32 0x2B8CBCCC#32),
    StableHlo.unary main_cst_7 main_v52 (broadcastInDim S100000x1 ![] bcast_S_S100000x1 : (⟨S_, .f32⟩ : BufTy).Contents (Elt F) → (⟨S100000x1, .f32⟩ : BufTy).Contents (Elt F)),
    StableHlo.binary main_v51 main_v52 main_v53 (maximumf : (⟨S100000x1, .f32⟩ : BufTy).Contents (Elt F) → (⟨S100000x1, .f32⟩ : BufTy).Contents (Elt F) → (⟨S100000x1, .f32⟩ : BufTy).Contents (Elt F)),
    StableHlo.unary main_v53 main_v54 (broadcastInDim S100000x32 ![0, 1] bcast_S100000x1_S100000x32_0_1 : (⟨S100000x1, .f32⟩ : BufTy).Contents (Elt F) → (⟨S100000x32, .f32⟩ : BufTy).Contents (Elt F)),
    StableHlo.binary main_v50 main_v54 main_v55 (Host.divf : (⟨S100000x32, .f32⟩ : BufTy).Contents (Elt F) → (⟨S100000x32, .f32⟩ : BufTy).Contents (Elt F) → (⟨S100000x32, .f32⟩ : BufTy).Contents (Elt F)) ]

/-- Layer 1's wrapped index columns and its two row gathers. -/
abbrev cD : List (HloOp τ sig (Elt F)) :=
  [ StableHlo.nullary main_c_8 (constantI S_ 32 0#32),
    StableHlo.unary main_c_8 main_v56 (broadcastInDim S1600000 ![] bcast_S_S1600000 : (⟨S_, .i32⟩ : BufTy).Contents (Elt F) → (⟨S1600000, .i32⟩ : BufTy).Contents (Elt F)),
    StableHlo.binary main_v1 main_v56 main_v57 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 100000#32),
    StableHlo.unary main_c_9 main_v58 (broadcastInDim S1600000 ![] bcast_S_S1600000 : (⟨S_, .i32⟩ : BufTy).Contents (Elt F) → (⟨S1600000, .i32⟩ : BufTy).Contents (Elt F)),
    StableHlo.binary main_v1 main_v58 main_v59 (addi : (⟨S1600000, .i32⟩ : BufTy).Contents (Elt F) → (⟨S1600000, .i32⟩ : BufTy).Contents (Elt F) → (⟨S1600000, .i32⟩ : BufTy).Contents (Elt F)),
    StableHlo.ternary main_v57 main_v59 main_v1 main_v60 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v60 main_v61 (broadcastInDim S1600000x1 ![0] bcast_S1600000_S1600000x1_0 : (⟨S1600000, .i32⟩ : BufTy).Contents (Elt F) → (⟨S1600000x1, .i32⟩ : BufTy).Contents (Elt F)),
    StableHlo.binary main_v55 main_v61 main_v62 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.nullary main_c_10 (constantI S_ 32 0#32),
    StableHlo.unary main_c_10 main_v63 (broadcastInDim S1600000 ![] bcast_S_S1600000 : (⟨S_, .i32⟩ : BufTy).Contents (Elt F) → (⟨S1600000, .i32⟩ : BufTy).Contents (Elt F)),
    StableHlo.binary main_v3 main_v63 main_v64 (cmpi .slt : (⟨S1600000, .i32⟩ : BufTy).Contents (Elt F) → (⟨S1600000, .i32⟩ : BufTy).Contents (Elt F) → (⟨S1600000, .i1⟩ : BufTy).Contents (Elt F)),
    StableHlo.nullary main_c_11 (constantI S_ 32 100000#32),
    StableHlo.unary main_c_11 main_v65 (broadcastInDim S1600000 ![] bcast_S_S1600000 : (⟨S_, .i32⟩ : BufTy).Contents (Elt F) → (⟨S1600000, .i32⟩ : BufTy).Contents (Elt F)),
    StableHlo.binary main_v3 main_v65 main_v66 (addi : (⟨S1600000, .i32⟩ : BufTy).Contents (Elt F) → (⟨S1600000, .i32⟩ : BufTy).Contents (Elt F) → (⟨S1600000, .i32⟩ : BufTy).Contents (Elt F)),
    StableHlo.ternary main_v64 main_v66 main_v3 main_v67 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v67 main_v68 (broadcastInDim S1600000x1 ![0] bcast_S1600000_S1600000x1_0 : (⟨S1600000, .i32⟩ : BufTy).Contents (Elt F) → (⟨S1600000x1, .i32⟩ : BufTy).Contents (Elt F)),
    StableHlo.binary main_v55 main_v68 main_v69 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)) ]

/-- Layer 1's attention message of every edge and its sum onto the head nodes. -/
abbrev cE : List (HloOp τ sig (Elt F)) :=
  [ StableHlo.binary main_v10 main_arg8 main_v70 ((fun l r => Host.dotGeneral dot_S1600000x64_S64x32_S1600000x32_1_0_0_1_n_n none l r) : (⟨S1600000x64, .f32⟩ : BufTy).Contents (Elt F) → (⟨S64x32, .f32⟩ : BufTy).Contents (Elt F) → (⟨S1600000x32, .f32⟩ : BufTy).Contents (Elt F)),
    StableHlo.unary main_arg9 main_v71 (broadcastInDim S1x32 ![1] bcast_S32_S1x32_1 : (⟨S32, .f32⟩ : BufTy).Contents (Elt F) → (⟨S1x32, .f32⟩ : BufTy).Contents (Elt F)),
    StableHlo.unary main_v71 main_v72 (broadcastInDim S1600000x32 ![0, 1] bcast_S1x32_S1600000x32_0_1 : (⟨S1x32, .f32⟩ : BufTy).Contents (Elt F) → (⟨S1600000x32, .f32⟩ : BufTy).Contents (Elt F)),
    StableHlo.binary main_v70 main_v72 main_v73 (addf : (⟨S1600000x32, .f32⟩ : BufTy).Contents (Elt F) → (⟨S1600000x32, .f32⟩ : BufTy).Contents (Elt F) → (⟨S1600000x32, .f32⟩ : BufTy).Contents (Elt F)),
    StableHlo.binary main_v62 main_v73 main_v74 (addf : (⟨S1600000x32, .f32⟩ : BufTy).Contents (Elt F) → (⟨S1600000x32, .f32⟩ : BufTy).Contents (Elt F) → (⟨S1600000x32, .f32⟩ : BufTy).Contents (Elt F)),
    StableHlo.unary main_v74 main_v75 (Host.tanh : (⟨S1600000x32, .f32⟩ : BufTy).Contents (Elt F) → (⟨S1600000x32, .f32⟩ : BufTy).Contents (Elt F)),
    StableHlo.binary main_v62 main_v75 main_v76 (mulf : (⟨S1600000x32, .f32⟩ : BufTy).Contents (Elt F) → (⟨S1600000x32, .f32⟩ : BufTy).Contents (Elt F) → (⟨S1600000x32, .f32⟩ : BufTy).Contents (Elt F)),
    StableHlo.nullary main_cst_12 (constant S_ .f32 0x00000000#32),
    StableHlo.binary main_v76 main_cst_12 main_v77 ((fun x v => Host.reduceAdd x v reducesTo_S1600000x32_S1600000_d1 h_S_) : (⟨S1600000x32, .f32⟩ : BufTy).Contents (Elt F) → (⟨S_, .f32⟩ : BufTy).Contents (Elt F) → (⟨S1600000, .f32⟩ : BufTy).Contents (Elt F)),
    StableHlo.unary main_v77 main_v78 (broadcastInDim S1600000x1 ![0] bcast_S1600000_S1600000x1_0 : (⟨S1600000, .f32⟩ : BufTy).Contents (Elt F) → (⟨S1600000x1, .f32⟩ : BufTy).Contents (Elt F)),
    StableHlo.unary main_v78 main_v79 (broadcastInDim S1600000x32 ![0, 1] bcast_S1600000x1_S1600000x32_0_1 : (⟨S1600000x1, .f32⟩ : BufTy).Contents (Elt F) → (⟨S1600000x32, .f32⟩ : BufTy).Contents (Elt F)),
    StableHlo.binary main_v69 main_v79 main_v80 (mulf : (⟨S1600000x32, .f32⟩ : BufTy).Contents (Elt F) → (⟨S1600000x32, .f32⟩ : BufTy).Contents (Elt F) → (⟨S1600000x32, .f32⟩ : BufTy).Contents (Elt F)),
    StableHlo.nullary main_cst_13 (constant S_ .f32 0x00000000#32),
    StableHlo.unary main_cst_13 main_v81 (broadcastInDim S100000x32 ![] bcast_S_S100000x32 : (⟨S_, .f32⟩ : BufTy).Contents (Elt F) → (⟨S100000x32, .f32⟩ : BufTy).Contents (Elt F)),
    StableHlo.unary main_v1 main_v82 (broadcastInDim S1600000x1 ![0] bcast_S1600000_S1600000x1_0 : (⟨S1600000, .i32⟩ : BufTy).Contents (Elt F) → (⟨S1600000x1, .i32⟩ : BufTy).Contents (Elt F)),
    StableHlo.ternary main_v81 main_v82 main_v80 main_v83 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)) ]

/-- Layer 1's pre-activation, leaky rectifier, row norms and division (the two outlined functions' operations in place). -/
abbrev cF : List (HloOp τ sig (Elt F)) :=
  [ StableHlo.binary main_v55 main_v83 main_v84 (addf : (⟨S100000x32, .f32⟩ : BufTy).Contents (Elt F) → (⟨S100000x32, .f32⟩ : BufTy).Contents (Elt F) → (⟨S100000x32, .f32⟩ : BufTy).Contents (Elt F)),
    StableHlo.binary main_v84 main_arg10 main_v85 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.unary main_arg11 main_v86 (broadcastInDim S1x16 ![1] bcast_S16_S1x16_1 : (⟨S16, .f32⟩ : BufTy).Contents (Elt F) → (⟨S1x16, .f32⟩ : BufTy).Contents (Elt F)),
    StableHlo.unary main_v86 main_v87 (broadcastInDim S100000x16 ![0, 1] bcast_S1x16_S100000x16_0_1 : (⟨S1x16, .f32⟩ : BufTy).Contents (Elt F) → (⟨S100000x16, .f32⟩ : BufTy).Contents (Elt F)),
    StableHlo.binary main_v85 main_v87 main_v88 (addf : (⟨S100000x16, .f32⟩ : BufTy).Contents (Elt F) → (⟨S100000x16, .f32⟩ : BufTy).Contents (Elt F) → (⟨S100000x16, .f32⟩ : BufTy).Contents (Elt F)),
    StableHlo.binary main_v55 main_v83 main_v89 (mulf : (⟨S100000x32, .f32⟩ : BufTy).Contents (Elt F) → (⟨S100000x32, .f32⟩ : BufTy).Contents (Elt F) → (⟨S100000x32, .f32⟩ : BufTy).Contents (Elt F)),
    StableHlo.binary main_v89 main_arg12 main_v90 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.binary main_v88 main_v90 main_v91 (addf : (⟨S100000x16, .f32⟩ : BufTy).Contents (Elt F) → (⟨S100000x16, .f32⟩ : BufTy).Contents (Elt F) → (⟨S100000x16, .f32⟩ : BufTy).Contents (Elt F)),
    StableHlo.unary main_arg13 main_v92 (broadcastInDim S1x16 ![1] bcast_S16_S1x16_1 : (⟨S16, .f32⟩ : BufTy).Contents (Elt F) → (⟨S1x16, .f32⟩ : BufTy).Contents (Elt F)),
    StableHlo.unary main_v92 main_v93 (broadcastInDim S100000x16 ![0, 1] bcast_S1x16_S100000x16_0_1 : (⟨S1x16, .f32⟩ : BufTy).Contents (Elt F) → (⟨S100000x16, .f32⟩ : BufTy).Contents (Elt F)),
    StableHlo.binary main_v91 main_v93 main_v94 (addf : (⟨S100000x16, .f32⟩ : BufTy).Contents (Elt F) → (⟨S100000x16, .f32⟩ : BufTy).Contents (Elt F) → (⟨S100000x16, .f32⟩ : BufTy).Contents (Elt F)),
    StableHlo.nullary main_cst_14 (constant S_ .f32 0x3C23D70A#32),
    StableHlo.nullary main_call2_cst (constant S_ .f32 0x00000000#32),
    StableHlo.unary main_call2_cst main_call2_v0 (broadcastInDim S100000x16 ![] bcast_S_S100000x16 : (⟨S_, .f32⟩ : BufTy).Contents (Elt F) → (⟨S100000x16, .f32⟩ : BufTy).Contents (Elt F)),
    StableHlo.binary main_v94 main_call2_v0 main_call2_v1 (cmpf .oge : (⟨S100000x16, .f32⟩ : BufTy).Contents (Elt F) → (⟨S100000x16, .f32⟩ : BufTy).Contents (Elt F) → (⟨S100000x16, .i1⟩ : BufTy).Contents (Elt F)),
    StableHlo.unary main_cst_14 main_call2_v2 (id : (⟨S_, .f32⟩ : BufTy).Contents (Elt F) → (⟨S_, .f32⟩ : BufTy).Contents (Elt F)),
    StableHlo.unary main_call2_v2 main_call2_v3 (broadcastInDim S100000x16 ![] bcast_S_S100000x16 : (⟨S_, .f32⟩ : BufTy).Contents (Elt F) → (⟨S100000x16, .f32⟩ : BufTy).Contents (Elt F)),
    StableHlo.binary main_call2_v3 main_v94 main_call2_v4 (mulf : (⟨S100000x16, .f32⟩ : BufTy).Contents (Elt F) → (⟨S100000x16, .f32⟩ : BufTy).Contents (Elt F) → (⟨S100000x16, .f32⟩ : BufTy).Contents (Elt F)),
    StableHlo.ternary main_call2_v1 main_v94 main_call2_v4 main_v95 (select : (⟨S100000x16, .i1⟩ : BufTy).Contents (Elt F) → (⟨S100000x16, .f32⟩ : BufTy).Contents (Elt F) → (⟨S100000x16, .f32⟩ : BufTy).Contents (Elt F) → (⟨S100000x16, .f32⟩ : BufTy).Contents (Elt F)),
    StableHlo.binary main_v95 main_v95 main_call3_v0 (mulf : (⟨S100000x16, .f32⟩ : BufTy).Contents (Elt F) → (⟨S100000x16, .f32⟩ : BufTy).Contents (Elt F) → (⟨S100000x16, .f32⟩ : BufTy).Contents (Elt F)),
    StableHlo.nullary main_call3_cst (constant S_ .f32 0x00000000#32),
    StableHlo.binary main_call3_v0 main_call3_cst main_call3_v1 ((fun x v => Host.reduceAdd x v reducesTo_S100000x16_S100000_d1 h_S_) : (⟨S100000x16, .f32⟩ : BufTy).Contents (Elt F) → (⟨S_, .f32⟩ : BufTy).Contents (Elt F) → (⟨S100000, .f32⟩ : BufTy).Contents (Elt F)),
    StableHlo.unary main_call3_v1 main_call3_v2 (broadcastInDim S100000x1 ![0] bcast_S100000_S100000x1_0 : (⟨S100000, .f32⟩ : BufTy).Contents (Elt F) → (⟨S100000x1, .f32⟩ : BufTy).Contents (Elt F)),
    StableHlo.unary main_call3_v2 main_v96 (Host.sqrt : (⟨S100000x1, .f32⟩ : BufTy).Contents (Elt F) → (⟨S100000x1, .f32⟩ : BufTy).Contents (Elt F)),
    StableHlo.nullary main_cst_15 (constant S_ .f32 0x2B8CBCCC#32),
    StableHlo.unary main_cst_15 main_v97 (broadcastInDim S100000x1 ![] bcast_S_S100000x1 : (⟨S_, .f32⟩ : BufTy).Contents (Elt F) → (⟨S100000x1, .f32⟩ : BufTy).Contents (Elt F)),
    StableHlo.binary main_v96 main_v97 main_v98 (maximumf : (⟨S100000x1, .f32⟩ : BufTy).Contents (Elt F) → (⟨S100000x1, .f32⟩ : BufTy).Contents (Elt F) → (⟨S100000x1, .f32⟩ : BufTy).Contents (Elt F)),
    StableHlo.unary main_v98 main_v99 (broadcastInDim S100000x16 ![0, 1] bcast_S100000x1_S100000x16_0_1 : (⟨S100000x1, .f32⟩ : BufTy).Contents (Elt F) → (⟨S100000x16, .f32⟩ : BufTy).Contents (Elt F)),
    StableHlo.binary main_v95 main_v99 main_v100 (Host.divf : (⟨S100000x16, .f32⟩ : BufTy).Contents (Elt F) → (⟨S100000x16, .f32⟩ : BufTy).Contents (Elt F) → (⟨S100000x16, .f32⟩ : BufTy).Contents (Elt F)) ]

/-- The three embeddings side by side. -/
abbrev cG : List (HloOp τ sig (Elt F)) :=
  [ StableHlo.nary ![main_arg0, main_v55, main_v100] main_v101 (fun u => concatenate S100000x112 1 [⟨S100000x64, u 0⟩, ⟨S100000x32, u 1⟩, ⟨S100000x16, u 2⟩] concatenates_S100000x64_S100000x32_S100000x16_S100000x112_d1) ]

/-- @main's first window: stages one to three. -/
def ops_part0 : List (HloOp τ sig (Elt F)) := cA ++ (cB ++ cC0)
/-- @main's second window: stages four to eight. -/
def ops_part1 : List (HloOp τ sig (Elt F)) := cC1 ++ (cD ++ (cE ++ (cF ++ cG)))
/-- @main's 140 operations, in order. -/
abbrev ops : List (HloOp τ sig (Elt F)) := cA ++ (cB ++ (cC0 ++ (cC1 ++ (cD ++ (cE ++ (cF ++ cG))))))

theorem ops_eq : (ops : List (HloOp τ sig (Elt F))) = ops_part0 ++ (ops_part1 ++ []) := by
  simp only [ops, ops_part0, ops_part1, List.append_assoc, List.append_nil]

-- the windows' binds re-associated by `simp`: its rewrite under the chain recurses once per statement
set_option maxRecDepth 8192 in
set_option maxHeartbeats 4000000 in
/-- @main's first window is its operations in line: the outlined functions' definitions unfolded at their calls,
    both sides are one chain of steps once sequencing is reassociated. -/
theorem main_part0_eq (c : Dev nD) : main_part0 (F := F) c = seq ops_part0 := by
  simp only [main_part0, fn_leaky_relu.body, fn_where.body, ops_part0, cA, cB, cC0, List.cons_append, List.nil_append,
    seq, bind_assoc, pure_bind]
  rfl

set_option maxRecDepth 8192 in
set_option maxHeartbeats 4000000 in
/-- @main's second window likewise. -/
theorem main_part1_eq (c : Dev nD) : main_part1 (F := F) c = seq ops_part1 := by
  simp only [main_part1, fn_norm.body, fn_leaky_relu_0.body, fn_where_1.body, fn_norm_2.body, ops_part1, cC1, cD, cE, cF, cG,
    List.cons_append, List.nil_append, seq, bind_assoc, pure_bind]
  rfl

theorem main_part2_eq (c : Dev nD) : main_part2 (F := F) c = seq [] := rfl

set_option maxRecDepth 8192 in
theorem main_eq (c : Dev nD) : main (F := F) c = seq ops := by
  rw [ops_eq, seq_append, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem cA_sub : (cA : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
set_option maxRecDepth 8192 in
theorem cB_sub : (cB : List (HloOp τ sig (Elt F))).Forall fun op => op.bufs ⊆ tcRefs τ sig :=
  ⟨binary_bufs_sub .., unary_bufs_sub .., unary_bufs_sub .., binary_bufs_sub .., binary_bufs_sub .., unary_bufs_sub .., binary_bufs_sub .., nullary_bufs_sub .., binary_bufs_sub .., unary_bufs_sub .., unary_bufs_sub .., binary_bufs_sub .., nullary_bufs_sub .., unary_bufs_sub .., unary_bufs_sub .., ternary_bufs_sub ..⟩
set_option maxRecDepth 8192 in
theorem cC0_sub : (cC0 : List (HloOp τ sig (Elt F))).Forall fun op => op.bufs ⊆ tcRefs τ sig :=
  ⟨binary_bufs_sub .., binary_bufs_sub .., unary_bufs_sub .., unary_bufs_sub .., binary_bufs_sub .., binary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
set_option maxRecDepth 8192 in
theorem cC1_sub : (cC1 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩
set_option maxRecDepth 8192 in
theorem cD_sub : (cD : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
set_option maxRecDepth 8192 in
theorem cE_sub : (cE : List (HloOp τ sig (Elt F))).Forall fun op => op.bufs ⊆ tcRefs τ sig :=
  ⟨binary_bufs_sub .., unary_bufs_sub .., unary_bufs_sub .., binary_bufs_sub .., binary_bufs_sub .., unary_bufs_sub .., binary_bufs_sub .., nullary_bufs_sub .., binary_bufs_sub .., unary_bufs_sub .., unary_bufs_sub .., binary_bufs_sub .., nullary_bufs_sub .., unary_bufs_sub .., unary_bufs_sub .., ternary_bufs_sub ..⟩
set_option maxRecDepth 8192 in
theorem cF_sub : (cF : List (HloOp τ sig (Elt F))).Forall fun op => op.bufs ⊆ tcRefs τ sig :=
  ⟨binary_bufs_sub .., binary_bufs_sub .., unary_bufs_sub .., unary_bufs_sub .., binary_bufs_sub .., binary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
set_option maxRecDepth 8192 in
theorem cG_sub : (cG : List (HloOp τ sig (Elt F))).Forall fun op => op.bufs ⊆ tcRefs τ sig :=
  nary_bufs_sub ..

theorem ops_sub : (ops : List (HloOp τ sig (Elt F))).Forall fun op => op.bufs ⊆ tcRefs τ sig :=
  List.forall_iff_forall_mem.mpr fun op h => by
    simp only [ops, List.mem_append] at h
    rcases h with h | h | h | h | h | h | h | h
    exacts [List.forall_iff_forall_mem.mp cA_sub op h, List.forall_iff_forall_mem.mp cB_sub op h, List.forall_iff_forall_mem.mp cC0_sub op h, List.forall_iff_forall_mem.mp cC1_sub op h, List.forall_iff_forall_mem.mp cD_sub op h, List.forall_iff_forall_mem.mp cE_sub op h, List.forall_iff_forall_mem.mp cF_sub op h, List.forall_iff_forall_mem.mp cG_sub op h]

/-- On every device, for any float values, from any memory with zero counters: every weakly fair execution of @main
    terminates, and every final state has each buffer at the operations' fold over the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-! ## The fold, stage by stage -/

/-- The buffer contents before the first stage. -/
def val0 (V0 : Valuation τ sig (Elt F)) : Valuation τ sig (Elt F) := V0

/-- The buffer contents after stage 1. -/
def val1 (V0 : Valuation τ sig (Elt F)) : Valuation τ sig (Elt F) := after cA (val0 V0)
/-- The buffers stage 1 writes. -/
abbrev cA_W : List (Ref sig .tc) := [main_v0, main_v1, main_v2, main_v3, main_c, main_v4, main_v5, main_c_0, main_v6, main_v7, main_v8, main_v9, main_v10, main_c_1, main_v11, main_v12, main_c_2, main_v13, main_v14, main_v15, main_v16, main_v17, main_c_3, main_v18, main_v19, main_c_4, main_v20, main_v21, main_v22, main_v23, main_v24]
set_option maxRecDepth 8192 in
theorem cA_writes : (cA : List (HloOp τ sig (Elt F))).Forall fun op => op.writes ⊆ (cA_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer stage 1 does not write keeps its contents through it. -/
theorem val1_keep (V0 : Valuation τ sig (Elt F)) (r : Ref sig .tc) (h : r ∉ cA_W) :
    val1 V0 (Proc.devRef .tc r) = val0 V0 (Proc.devRef .tc r) :=
  after_of_writes_sub cA _ cA_writes h

/-- The buffer contents after stage 2. -/
def val2 (V0 : Valuation τ sig (Elt F)) : Valuation τ sig (Elt F) := after cB (val1 V0)
/-- The buffers stage 2 writes. -/
abbrev cB_W : List (Ref sig .tc) := [main_v25, main_v26, main_v27, main_v28, main_v29, main_v30, main_v31, main_cst, main_v32, main_v33, main_v34, main_v35, main_cst_5, main_v36, main_v37, main_v38]
set_option maxRecDepth 8192 in
theorem cB_writes : (cB : List (HloOp τ sig (Elt F))).Forall fun op => op.writes ⊆ (cB_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer stage 2 does not write keeps its contents through it. -/
theorem val2_keep (V0 : Valuation τ sig (Elt F)) (r : Ref sig .tc) (h : r ∉ cB_W) :
    val2 V0 (Proc.devRef .tc r) = val1 V0 (Proc.devRef .tc r) :=
  after_of_writes_sub cB _ cB_writes h

/-- The buffer contents after stage 3. -/
def val3 (V0 : Valuation τ sig (Elt F)) : Valuation τ sig (Elt F) := after cC0 (val2 V0)
/-- The buffers stage 3 writes. -/
abbrev cC0_W : List (Ref sig .tc) := [main_v39, main_v40, main_v41, main_v42, main_v43, main_v44, main_v45, main_v46, main_v47, main_v48, main_v49, main_cst_6, main_call0_cst, main_call0_v0, main_call0_v1, main_call0_v2, main_call0_v3, main_call0_v4, main_v50]
set_option maxRecDepth 8192 in
theorem cC0_writes : (cC0 : List (HloOp τ sig (Elt F))).Forall fun op => op.writes ⊆ (cC0_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer stage 3 does not write keeps its contents through it. -/
theorem val3_keep (V0 : Valuation τ sig (Elt F)) (r : Ref sig .tc) (h : r ∉ cC0_W) :
    val3 V0 (Proc.devRef .tc r) = val2 V0 (Proc.devRef .tc r) :=
  after_of_writes_sub cC0 _ cC0_writes h

/-- The buffer contents after stage 4. -/
def val4 (V0 : Valuation τ sig (Elt F)) : Valuation τ sig (Elt F) := after cC1 (val3 V0)
/-- The buffers stage 4 writes. -/
abbrev cC1_W : List (Ref sig .tc) := [main_call1_v0, main_call1_cst, main_call1_v1, main_call1_v2, main_v51, main_cst_7, main_v52, main_v53, main_v54, main_v55]
set_option maxRecDepth 8192 in
theorem cC1_writes : (cC1 : List (HloOp τ sig (Elt F))).Forall fun op => op.writes ⊆ (cC1_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer stage 4 does not write keeps its contents through it. -/
theorem val4_keep (V0 : Valuation τ sig (Elt F)) (r : Ref sig .tc) (h : r ∉ cC1_W) :
    val4 V0 (Proc.devRef .tc r) = val3 V0 (Proc.devRef .tc r) :=
  after_of_writes_sub cC1 _ cC1_writes h

/-- The buffer contents after stage 5. -/
def val5 (V0 : Valuation τ sig (Elt F)) : Valuation τ sig (Elt F) := after cD (val4 V0)
/-- The buffers stage 5 writes. -/
abbrev cD_W : List (Ref sig .tc) := [main_c_8, main_v56, main_v57, main_c_9, main_v58, main_v59, main_v60, main_v61, main_v62, main_c_10, main_v63, main_v64, main_c_11, main_v65, main_v66, main_v67, main_v68, main_v69]
set_option maxRecDepth 8192 in
theorem cD_writes : (cD : List (HloOp τ sig (Elt F))).Forall fun op => op.writes ⊆ (cD_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer stage 5 does not write keeps its contents through it. -/
theorem val5_keep (V0 : Valuation τ sig (Elt F)) (r : Ref sig .tc) (h : r ∉ cD_W) :
    val5 V0 (Proc.devRef .tc r) = val4 V0 (Proc.devRef .tc r) :=
  after_of_writes_sub cD _ cD_writes h

/-- The buffer contents after stage 6. -/
def val6 (V0 : Valuation τ sig (Elt F)) : Valuation τ sig (Elt F) := after cE (val5 V0)
/-- The buffers stage 6 writes. -/
abbrev cE_W : List (Ref sig .tc) := [main_v70, main_v71, main_v72, main_v73, main_v74, main_v75, main_v76, main_cst_12, main_v77, main_v78, main_v79, main_v80, main_cst_13, main_v81, main_v82, main_v83]
set_option maxRecDepth 8192 in
theorem cE_writes : (cE : List (HloOp τ sig (Elt F))).Forall fun op => op.writes ⊆ (cE_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer stage 6 does not write keeps its contents through it. -/
theorem val6_keep (V0 : Valuation τ sig (Elt F)) (r : Ref sig .tc) (h : r ∉ cE_W) :
    val6 V0 (Proc.devRef .tc r) = val5 V0 (Proc.devRef .tc r) :=
  after_of_writes_sub cE _ cE_writes h

/-- The buffer contents after stage 7. -/
def val7 (V0 : Valuation τ sig (Elt F)) : Valuation τ sig (Elt F) := after cF (val6 V0)
/-- The buffers stage 7 writes. -/
abbrev cF_W : List (Ref sig .tc) := [main_v84, main_v85, main_v86, main_v87, main_v88, main_v89, main_v90, main_v91, main_v92, main_v93, main_v94, main_cst_14, main_call2_cst, main_call2_v0, main_call2_v1, main_call2_v2, main_call2_v3, main_call2_v4, main_v95, main_call3_v0, main_call3_cst, main_call3_v1, main_call3_v2, main_v96, main_cst_15, main_v97, main_v98, main_v99, main_v100]
set_option maxRecDepth 8192 in
theorem cF_writes : (cF : List (HloOp τ sig (Elt F))).Forall fun op => op.writes ⊆ (cF_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer stage 7 does not write keeps its contents through it. -/
theorem val7_keep (V0 : Valuation τ sig (Elt F)) (r : Ref sig .tc) (h : r ∉ cF_W) :
    val7 V0 (Proc.devRef .tc r) = val6 V0 (Proc.devRef .tc r) :=
  after_of_writes_sub cF _ cF_writes h

/-- The buffer contents after stage 8. -/
def val8 (V0 : Valuation τ sig (Elt F)) : Valuation τ sig (Elt F) := after cG (val7 V0)
/-- The buffers stage 8 writes. -/
abbrev cG_W : List (Ref sig .tc) := [main_v101]
set_option maxRecDepth 8192 in
theorem cG_writes : (cG : List (HloOp τ sig (Elt F))).Forall fun op => op.writes ⊆ (cG_W.map (Proc.devRef (τ := τ) .tc)).toFinset := by
  simp only [List.Forall]
  simp only [nullary_writes, unary_writes, binary_writes, ternary_writes, reshape_writes, nary_writes, Finset.singleton_subset_iff, List.mem_toFinset]; exact List.mem_map_of_mem (by decide)
/-- A buffer stage 8 does not write keeps its contents through it. -/
theorem val8_keep (V0 : Valuation τ sig (Elt F)) (r : Ref sig .tc) (h : r ∉ cG_W) :
    val8 V0 (Proc.devRef .tc r) = val7 V0 (Proc.devRef .tc r) :=
  after_of_writes_sub cG _ cG_writes h

/-- The whole fold is the eighth stage's contents. -/
theorem after_ops (V0 : Valuation τ sig (Elt F)) : after ops V0 = val8 V0 := by
  simp only [ops, after_append]
  rfl

/-! The sixteen arguments are written by no stage. -/
theorem val0_main_arg0 (V0 : Valuation τ sig (Elt F)) : val0 V0 (no_index (Proc.devRef .tc main_arg0)) = V0 (Proc.devRef .tc main_arg0) := rfl
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val0_main_arg1 (V0 : Valuation τ sig (Elt F)) : val0 V0 (no_index (Proc.devRef .tc main_arg1)) = V0 (Proc.devRef .tc main_arg1) := rfl
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val0_main_arg2 (V0 : Valuation τ sig (Elt F)) : val0 V0 (no_index (Proc.devRef .tc main_arg2)) = V0 (Proc.devRef .tc main_arg2) := rfl
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val0_main_arg3 (V0 : Valuation τ sig (Elt F)) : val0 V0 (no_index (Proc.devRef .tc main_arg3)) = V0 (Proc.devRef .tc main_arg3) := rfl
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val0_main_arg4 (V0 : Valuation τ sig (Elt F)) : val0 V0 (no_index (Proc.devRef .tc main_arg4)) = V0 (Proc.devRef .tc main_arg4) := rfl
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)
theorem val0_main_arg5 (V0 : Valuation τ sig (Elt F)) : val0 V0 (no_index (Proc.devRef .tc main_arg5)) = V0 (Proc.devRef .tc main_arg5) := rfl
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val8_main_arg5 (V0 : Valuation τ sig (Elt F)) : val8 V0 (no_index (Proc.devRef .tc main_arg5)) = V0 (Proc.devRef .tc main_arg5) :=
  (val8_keep V0 main_arg5 (by decide)).trans (val7_main_arg5 V0)
theorem val0_main_arg6 (V0 : Valuation τ sig (Elt F)) : val0 V0 (no_index (Proc.devRef .tc main_arg6)) = V0 (Proc.devRef .tc main_arg6) := rfl
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val8_main_arg6 (V0 : Valuation τ sig (Elt F)) : val8 V0 (no_index (Proc.devRef .tc main_arg6)) = V0 (Proc.devRef .tc main_arg6) :=
  (val8_keep V0 main_arg6 (by decide)).trans (val7_main_arg6 V0)
theorem val0_main_arg7 (V0 : Valuation τ sig (Elt F)) : val0 V0 (no_index (Proc.devRef .tc main_arg7)) = V0 (Proc.devRef .tc main_arg7) := rfl
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val7_main_arg7 (V0 : Valuation τ sig (Elt F)) : val7 V0 (no_index (Proc.devRef .tc main_arg7)) = V0 (Proc.devRef .tc main_arg7) :=
  (val7_keep V0 main_arg7 (by decide)).trans (val6_main_arg7 V0)
theorem val8_main_arg7 (V0 : Valuation τ sig (Elt F)) : val8 V0 (no_index (Proc.devRef .tc main_arg7)) = V0 (Proc.devRef .tc main_arg7) :=
  (val8_keep V0 main_arg7 (by decide)).trans (val7_main_arg7 V0)
theorem val0_main_arg8 (V0 : Valuation τ sig (Elt F)) : val0 V0 (no_index (Proc.devRef .tc main_arg8)) = V0 (Proc.devRef .tc main_arg8) := rfl
theorem val1_main_arg8 (V0 : Valuation τ sig (Elt F)) : val1 V0 (no_index (Proc.devRef .tc main_arg8)) = V0 (Proc.devRef .tc main_arg8) :=
  (val1_keep V0 main_arg8 (by decide)).trans (val0_main_arg8 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val5_main_arg8 (V0 : Valuation τ sig (Elt F)) : val5 V0 (no_index (Proc.devRef .tc main_arg8)) = V0 (Proc.devRef .tc main_arg8) :=
  (val5_keep V0 main_arg8 (by decide)).trans (val4_main_arg8 V0)
theorem val6_main_arg8 (V0 : Valuation τ sig (Elt F)) : val6 V0 (no_index (Proc.devRef .tc main_arg8)) = V0 (Proc.devRef .tc main_arg8) :=
  (val6_keep V0 main_arg8 (by decide)).trans (val5_main_arg8 V0)
theorem val7_main_arg8 (V0 : Valuation τ sig (Elt F)) : val7 V0 (no_index (Proc.devRef .tc main_arg8)) = V0 (Proc.devRef .tc main_arg8) :=
  (val7_keep V0 main_arg8 (by decide)).trans (val6_main_arg8 V0)
theorem val8_main_arg8 (V0 : Valuation τ sig (Elt F)) : val8 V0 (no_index (Proc.devRef .tc main_arg8)) = V0 (Proc.devRef .tc main_arg8) :=
  (val8_keep V0 main_arg8 (by decide)).trans (val7_main_arg8 V0)
theorem val0_main_arg9 (V0 : Valuation τ sig (Elt F)) : val0 V0 (no_index (Proc.devRef .tc main_arg9)) = V0 (Proc.devRef .tc main_arg9) := rfl
theorem val1_main_arg9 (V0 : Valuation τ sig (Elt F)) : val1 V0 (no_index (Proc.devRef .tc main_arg9)) = V0 (Proc.devRef .tc main_arg9) :=
  (val1_keep V0 main_arg9 (by decide)).trans (val0_main_arg9 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val5_main_arg9 (V0 : Valuation τ sig (Elt F)) : val5 V0 (no_index (Proc.devRef .tc main_arg9)) = V0 (Proc.devRef .tc main_arg9) :=
  (val5_keep V0 main_arg9 (by decide)).trans (val4_main_arg9 V0)
theorem val6_main_arg9 (V0 : Valuation τ sig (Elt F)) : val6 V0 (no_index (Proc.devRef .tc main_arg9)) = V0 (Proc.devRef .tc main_arg9) :=
  (val6_keep V0 main_arg9 (by decide)).trans (val5_main_arg9 V0)
theorem val7_main_arg9 (V0 : Valuation τ sig (Elt F)) : val7 V0 (no_index (Proc.devRef .tc main_arg9)) = V0 (Proc.devRef .tc main_arg9) :=
  (val7_keep V0 main_arg9 (by decide)).trans (val6_main_arg9 V0)
theorem val8_main_arg9 (V0 : Valuation τ sig (Elt F)) : val8 V0 (no_index (Proc.devRef .tc main_arg9)) = V0 (Proc.devRef .tc main_arg9) :=
  (val8_keep V0 main_arg9 (by decide)).trans (val7_main_arg9 V0)
theorem val0_main_arg10 (V0 : Valuation τ sig (Elt F)) : val0 V0 (no_index (Proc.devRef .tc main_arg10)) = V0 (Proc.devRef .tc main_arg10) := rfl
theorem val1_main_arg10 (V0 : Valuation τ sig (Elt F)) : val1 V0 (no_index (Proc.devRef .tc main_arg10)) = V0 (Proc.devRef .tc main_arg10) :=
  (val1_keep V0 main_arg10 (by decide)).trans (val0_main_arg10 V0)
theorem val2_main_arg10 (V0 : Valuation τ sig (Elt F)) : val2 V0 (no_index (Proc.devRef .tc main_arg10)) = V0 (Proc.devRef .tc main_arg10) :=
  (val2_keep V0 main_arg10 (by decide)).trans (val1_main_arg10 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)
theorem val4_main_arg10 (V0 : Valuation τ sig (Elt F)) : val4 V0 (no_index (Proc.devRef .tc main_arg10)) = V0 (Proc.devRef .tc main_arg10) :=
  (val4_keep V0 main_arg10 (by decide)).trans (val3_main_arg10 V0)
theorem val5_main_arg10 (V0 : Valuation τ sig (Elt F)) : val5 V0 (no_index (Proc.devRef .tc main_arg10)) = V0 (Proc.devRef .tc main_arg10) :=
  (val5_keep V0 main_arg10 (by decide)).trans (val4_main_arg10 V0)
theorem val6_main_arg10 (V0 : Valuation τ sig (Elt F)) : val6 V0 (no_index (Proc.devRef .tc main_arg10)) = V0 (Proc.devRef .tc main_arg10) :=
  (val6_keep V0 main_arg10 (by decide)).trans (val5_main_arg10 V0)
theorem val7_main_arg10 (V0 : Valuation τ sig (Elt F)) : val7 V0 (no_index (Proc.devRef .tc main_arg10)) = V0 (Proc.devRef .tc main_arg10) :=
  (val7_keep V0 main_arg10 (by decide)).trans (val6_main_arg10 V0)
theorem val8_main_arg10 (V0 : Valuation τ sig (Elt F)) : val8 V0 (no_index (Proc.devRef .tc main_arg10)) = V0 (Proc.devRef .tc main_arg10) :=
  (val8_keep V0 main_arg10 (by decide)).trans (val7_main_arg10 V0)
theorem val0_main_arg11 (V0 : Valuation τ sig (Elt F)) : val0 V0 (no_index (Proc.devRef .tc main_arg11)) = V0 (Proc.devRef .tc main_arg11) := rfl
theorem val1_main_arg11 (V0 : Valuation τ sig (Elt F)) : val1 V0 (no_index (Proc.devRef .tc main_arg11)) = V0 (Proc.devRef .tc main_arg11) :=
  (val1_keep V0 main_arg11 (by decide)).trans (val0_main_arg11 V0)
theorem val2_main_arg11 (V0 : Valuation τ sig (Elt F)) : val2 V0 (no_index (Proc.devRef .tc main_arg11)) = V0 (Proc.devRef .tc main_arg11) :=
  (val2_keep V0 main_arg11 (by decide)).trans (val1_main_arg11 V0)
theorem val3_main_arg11 (V0 : Valuation τ sig (Elt F)) : val3 V0 (no_index (Proc.devRef .tc main_arg11)) = V0 (Proc.devRef .tc main_arg11) :=
  (val3_keep V0 main_arg11 (by decide)).trans (val2_main_arg11 V0)
theorem val4_main_arg11 (V0 : Valuation τ sig (Elt F)) : val4 V0 (no_index (Proc.devRef .tc main_arg11)) = V0 (Proc.devRef .tc main_arg11) :=
  (val4_keep V0 main_arg11 (by decide)).trans (val3_main_arg11 V0)
theorem val5_main_arg11 (V0 : Valuation τ sig (Elt F)) : val5 V0 (no_index (Proc.devRef .tc main_arg11)) = V0 (Proc.devRef .tc main_arg11) :=
  (val5_keep V0 main_arg11 (by decide)).trans (val4_main_arg11 V0)
theorem val6_main_arg11 (V0 : Valuation τ sig (Elt F)) : val6 V0 (no_index (Proc.devRef .tc main_arg11)) = V0 (Proc.devRef .tc main_arg11) :=
  (val6_keep V0 main_arg11 (by decide)).trans (val5_main_arg11 V0)
theorem val7_main_arg11 (V0 : Valuation τ sig (Elt F)) : val7 V0 (no_index (Proc.devRef .tc main_arg11)) = V0 (Proc.devRef .tc main_arg11) :=
  (val7_keep V0 main_arg11 (by decide)).trans (val6_main_arg11 V0)
theorem val8_main_arg11 (V0 : Valuation τ sig (Elt F)) : val8 V0 (no_index (Proc.devRef .tc main_arg11)) = V0 (Proc.devRef .tc main_arg11) :=
  (val8_keep V0 main_arg11 (by decide)).trans (val7_main_arg11 V0)
theorem val0_main_arg12 (V0 : Valuation τ sig (Elt F)) : val0 V0 (no_index (Proc.devRef .tc main_arg12)) = V0 (Proc.devRef .tc main_arg12) := rfl
theorem val1_main_arg12 (V0 : Valuation τ sig (Elt F)) : val1 V0 (no_index (Proc.devRef .tc main_arg12)) = V0 (Proc.devRef .tc main_arg12) :=
  (val1_keep V0 main_arg12 (by decide)).trans (val0_main_arg12 V0)
theorem val2_main_arg12 (V0 : Valuation τ sig (Elt F)) : val2 V0 (no_index (Proc.devRef .tc main_arg12)) = V0 (Proc.devRef .tc main_arg12) :=
  (val2_keep V0 main_arg12 (by decide)).trans (val1_main_arg12 V0)
theorem val3_main_arg12 (V0 : Valuation τ sig (Elt F)) : val3 V0 (no_index (Proc.devRef .tc main_arg12)) = V0 (Proc.devRef .tc main_arg12) :=
  (val3_keep V0 main_arg12 (by decide)).trans (val2_main_arg12 V0)
theorem val4_main_arg12 (V0 : Valuation τ sig (Elt F)) : val4 V0 (no_index (Proc.devRef .tc main_arg12)) = V0 (Proc.devRef .tc main_arg12) :=
  (val4_keep V0 main_arg12 (by decide)).trans (val3_main_arg12 V0)
theorem val5_main_arg12 (V0 : Valuation τ sig (Elt F)) : val5 V0 (no_index (Proc.devRef .tc main_arg12)) = V0 (Proc.devRef .tc main_arg12) :=
  (val5_keep V0 main_arg12 (by decide)).trans (val4_main_arg12 V0)
theorem val6_main_arg12 (V0 : Valuation τ sig (Elt F)) : val6 V0 (no_index (Proc.devRef .tc main_arg12)) = V0 (Proc.devRef .tc main_arg12) :=
  (val6_keep V0 main_arg12 (by decide)).trans (val5_main_arg12 V0)
theorem val7_main_arg12 (V0 : Valuation τ sig (Elt F)) : val7 V0 (no_index (Proc.devRef .tc main_arg12)) = V0 (Proc.devRef .tc main_arg12) :=
  (val7_keep V0 main_arg12 (by decide)).trans (val6_main_arg12 V0)
theorem val8_main_arg12 (V0 : Valuation τ sig (Elt F)) : val8 V0 (no_index (Proc.devRef .tc main_arg12)) = V0 (Proc.devRef .tc main_arg12) :=
  (val8_keep V0 main_arg12 (by decide)).trans (val7_main_arg12 V0)
theorem val0_main_arg13 (V0 : Valuation τ sig (Elt F)) : val0 V0 (no_index (Proc.devRef .tc main_arg13)) = V0 (Proc.devRef .tc main_arg13) := rfl
theorem val1_main_arg13 (V0 : Valuation τ sig (Elt F)) : val1 V0 (no_index (Proc.devRef .tc main_arg13)) = V0 (Proc.devRef .tc main_arg13) :=
  (val1_keep V0 main_arg13 (by decide)).trans (val0_main_arg13 V0)
theorem val2_main_arg13 (V0 : Valuation τ sig (Elt F)) : val2 V0 (no_index (Proc.devRef .tc main_arg13)) = V0 (Proc.devRef .tc main_arg13) :=
  (val2_keep V0 main_arg13 (by decide)).trans (val1_main_arg13 V0)
theorem val3_main_arg13 (V0 : Valuation τ sig (Elt F)) : val3 V0 (no_index (Proc.devRef .tc main_arg13)) = V0 (Proc.devRef .tc main_arg13) :=
  (val3_keep V0 main_arg13 (by decide)).trans (val2_main_arg13 V0)
theorem val4_main_arg13 (V0 : Valuation τ sig (Elt F)) : val4 V0 (no_index (Proc.devRef .tc main_arg13)) = V0 (Proc.devRef .tc main_arg13) :=
  (val4_keep V0 main_arg13 (by decide)).trans (val3_main_arg13 V0)
theorem val5_main_arg13 (V0 : Valuation τ sig (Elt F)) : val5 V0 (no_index (Proc.devRef .tc main_arg13)) = V0 (Proc.devRef .tc main_arg13) :=
  (val5_keep V0 main_arg13 (by decide)).trans (val4_main_arg13 V0)
theorem val6_main_arg13 (V0 : Valuation τ sig (Elt F)) : val6 V0 (no_index (Proc.devRef .tc main_arg13)) = V0 (Proc.devRef .tc main_arg13) :=
  (val6_keep V0 main_arg13 (by decide)).trans (val5_main_arg13 V0)
theorem val7_main_arg13 (V0 : Valuation τ sig (Elt F)) : val7 V0 (no_index (Proc.devRef .tc main_arg13)) = V0 (Proc.devRef .tc main_arg13) :=
  (val7_keep V0 main_arg13 (by decide)).trans (val6_main_arg13 V0)
theorem val8_main_arg13 (V0 : Valuation τ sig (Elt F)) : val8 V0 (no_index (Proc.devRef .tc main_arg13)) = V0 (Proc.devRef .tc main_arg13) :=
  (val8_keep V0 main_arg13 (by decide)).trans (val7_main_arg13 V0)
theorem val0_main_arg14 (V0 : Valuation τ sig (Elt F)) : val0 V0 (no_index (Proc.devRef .tc main_arg14)) = V0 (Proc.devRef .tc main_arg14) := rfl
theorem val1_main_arg14 (V0 : Valuation τ sig (Elt F)) : val1 V0 (no_index (Proc.devRef .tc main_arg14)) = V0 (Proc.devRef .tc main_arg14) :=
  (val1_keep V0 main_arg14 (by decide)).trans (val0_main_arg14 V0)
theorem val2_main_arg14 (V0 : Valuation τ sig (Elt F)) : val2 V0 (no_index (Proc.devRef .tc main_arg14)) = V0 (Proc.devRef .tc main_arg14) :=
  (val2_keep V0 main_arg14 (by decide)).trans (val1_main_arg14 V0)
theorem val3_main_arg14 (V0 : Valuation τ sig (Elt F)) : val3 V0 (no_index (Proc.devRef .tc main_arg14)) = V0 (Proc.devRef .tc main_arg14) :=
  (val3_keep V0 main_arg14 (by decide)).trans (val2_main_arg14 V0)
theorem val4_main_arg14 (V0 : Valuation τ sig (Elt F)) : val4 V0 (no_index (Proc.devRef .tc main_arg14)) = V0 (Proc.devRef .tc main_arg14) :=
  (val4_keep V0 main_arg14 (by decide)).trans (val3_main_arg14 V0)
theorem val5_main_arg14 (V0 : Valuation τ sig (Elt F)) : val5 V0 (no_index (Proc.devRef .tc main_arg14)) = V0 (Proc.devRef .tc main_arg14) :=
  (val5_keep V0 main_arg14 (by decide)).trans (val4_main_arg14 V0)
theorem val6_main_arg14 (V0 : Valuation τ sig (Elt F)) : val6 V0 (no_index (Proc.devRef .tc main_arg14)) = V0 (Proc.devRef .tc main_arg14) :=
  (val6_keep V0 main_arg14 (by decide)).trans (val5_main_arg14 V0)
theorem val7_main_arg14 (V0 : Valuation τ sig (Elt F)) : val7 V0 (no_index (Proc.devRef .tc main_arg14)) = V0 (Proc.devRef .tc main_arg14) :=
  (val7_keep V0 main_arg14 (by decide)).trans (val6_main_arg14 V0)
theorem val8_main_arg14 (V0 : Valuation τ sig (Elt F)) : val8 V0 (no_index (Proc.devRef .tc main_arg14)) = V0 (Proc.devRef .tc main_arg14) :=
  (val8_keep V0 main_arg14 (by decide)).trans (val7_main_arg14 V0)
theorem val0_main_arg15 (V0 : Valuation τ sig (Elt F)) : val0 V0 (no_index (Proc.devRef .tc main_arg15)) = V0 (Proc.devRef .tc main_arg15) := rfl
theorem val1_main_arg15 (V0 : Valuation τ sig (Elt F)) : val1 V0 (no_index (Proc.devRef .tc main_arg15)) = V0 (Proc.devRef .tc main_arg15) :=
  (val1_keep V0 main_arg15 (by decide)).trans (val0_main_arg15 V0)
theorem val2_main_arg15 (V0 : Valuation τ sig (Elt F)) : val2 V0 (no_index (Proc.devRef .tc main_arg15)) = V0 (Proc.devRef .tc main_arg15) :=
  (val2_keep V0 main_arg15 (by decide)).trans (val1_main_arg15 V0)
theorem val3_main_arg15 (V0 : Valuation τ sig (Elt F)) : val3 V0 (no_index (Proc.devRef .tc main_arg15)) = V0 (Proc.devRef .tc main_arg15) :=
  (val3_keep V0 main_arg15 (by decide)).trans (val2_main_arg15 V0)
theorem val4_main_arg15 (V0 : Valuation τ sig (Elt F)) : val4 V0 (no_index (Proc.devRef .tc main_arg15)) = V0 (Proc.devRef .tc main_arg15) :=
  (val4_keep V0 main_arg15 (by decide)).trans (val3_main_arg15 V0)
theorem val5_main_arg15 (V0 : Valuation τ sig (Elt F)) : val5 V0 (no_index (Proc.devRef .tc main_arg15)) = V0 (Proc.devRef .tc main_arg15) :=
  (val5_keep V0 main_arg15 (by decide)).trans (val4_main_arg15 V0)
theorem val6_main_arg15 (V0 : Valuation τ sig (Elt F)) : val6 V0 (no_index (Proc.devRef .tc main_arg15)) = V0 (Proc.devRef .tc main_arg15) :=
  (val6_keep V0 main_arg15 (by decide)).trans (val5_main_arg15 V0)
theorem val7_main_arg15 (V0 : Valuation τ sig (Elt F)) : val7 V0 (no_index (Proc.devRef .tc main_arg15)) = V0 (Proc.devRef .tc main_arg15) :=
  (val7_keep V0 main_arg15 (by decide)).trans (val6_main_arg15 V0)
theorem val8_main_arg15 (V0 : Valuation τ sig (Elt F)) : val8 V0 (no_index (Proc.devRef .tc main_arg15)) = V0 (Proc.devRef .tc main_arg15) :=
  (val8_keep V0 main_arg15 (by decide)).trans (val7_main_arg15 V0)

end Cert.ReferenceIdeal.RefRun

end
-- ==== Proof.Ref.Run.lean ====
/-
  The reference program's run read back against the specification: stage by stage, the buffers later stages read
  hold the specification's functions of the sixteen arguments — the heads and tails of the edges, the gathered rows,
  layer 0's summed messages and node embedding, layer 1's, and at the end the whole network's result —, each stage's
  operations being, in order, the operations the specification's function is written with.
-/
import proofs.«133880_j17265768530448_1_alg».proof.Proof.Ref.RunOps
import proofs.«133880_j17265768530448_1_alg».proof.Proof.Ref.Spec

set_option Elab.async false

noncomputable section

namespace Cert.ReferenceIdeal.RefRun

open Cert.ReferenceIdeal Cert.ReferenceIdeal.Facts₀ Idealize.ShloMosaic Idealize.ShloMosaic.TcCoe Idealize.SL.Sem Idealize.ShloMosaic.StableHlo

/-! ## Stage 1: the edge indices and the gathered rows -/

set_option maxRecDepth 8192 in
set_option maxHeartbeats 4000000 in
theorem val1_main_v1 (V0 : Valuation τ sig (Elt Ideal)) : val1 V0 (no_index (Proc.devRef .tc main_v1)) = Spec.heads (V0 (Proc.devRef .tc main_arg14)) := by
  unfold val1
  simp only [cA]
  after_results_simp
  simp only [val0_main_arg0, val0_main_arg1, val0_main_arg14, val0_main_arg15]
  rfl
set_option maxRecDepth 8192 in
set_option maxHeartbeats 4000000 in
theorem val1_main_v3 (V0 : Valuation τ sig (Elt Ideal)) : val1 V0 (no_index (Proc.devRef .tc main_v3)) = Spec.tails (V0 (Proc.devRef .tc main_arg14)) := by
  unfold val1
  simp only [cA]
  after_results_simp
  simp only [val0_main_arg0, val0_main_arg1, val0_main_arg14, val0_main_arg15]
  rfl
set_option maxRecDepth 8192 in
set_option maxHeartbeats 4000000 in
theorem val1_main_v10 (V0 : Valuation τ sig (Elt Ideal)) : val1 V0 (no_index (Proc.devRef .tc main_v10)) = Spec.relBase (V0 (Proc.devRef .tc main_arg1)) (V0 (Proc.devRef .tc main_arg15)) := by
  unfold val1
  simp only [cA]
  after_results_simp
  simp only [val0_main_arg0, val0_main_arg1, val0_main_arg14, val0_main_arg15]
  rfl
set_option maxRecDepth 8192 in
set_option maxHeartbeats 4000000 in
theorem val1_main_v17 (V0 : Valuation τ sig (Elt Ideal)) : val1 V0 (no_index (Proc.devRef .tc main_v17)) = Spec.gather64 (V0 (Proc.devRef .tc main_arg0)) (Spec.heads (V0 (Proc.devRef .tc main_arg14))) := by
  unfold val1
  simp only [cA]
  after_results_simp
  simp only [val0_main_arg0, val0_main_arg1, val0_main_arg14, val0_main_arg15]
  rfl
set_option maxRecDepth 8192 in
set_option maxHeartbeats 4000000 in
theorem val1_main_v24 (V0 : Valuation τ sig (Elt Ideal)) : val1 V0 (no_index (Proc.devRef .tc main_v24)) = Spec.gather64 (V0 (Proc.devRef .tc main_arg0)) (Spec.tails (V0 (Proc.devRef .tc main_arg14))) := by
  unfold val1
  simp only [cA]
  after_results_simp
  simp only [val0_main_arg0, val0_main_arg1, val0_main_arg14, val0_main_arg15]
  rfl

/-! ## Stage 2: layer 0's messages, summed onto the head nodes -/

set_option maxRecDepth 8192 in
set_option maxHeartbeats 4000000 in
theorem val2_main_v38 (V0 : Valuation τ sig (Elt Ideal)) : val2 V0 (no_index (Proc.devRef .tc main_v38)) = Spec.scatter64 (Spec.heads (V0 (Proc.devRef .tc main_arg14))) (Spec.attn64 (Spec.gather64 (V0 (Proc.devRef .tc main_arg0)) (Spec.heads (V0 (Proc.devRef .tc main_arg14)))) (Spec.gather64 (V0 (Proc.devRef .tc main_arg0)) (Spec.tails (V0 (Proc.devRef .tc main_arg14)))) (Spec.relBase (V0 (Proc.devRef .tc main_arg1)) (V0 (Proc.devRef .tc main_arg15))) (V0 (Proc.devRef .tc main_arg2)) (V0 (Proc.devRef .tc main_arg3))) := by
  unfold val2
  simp only [cB]
  after_results_simp
  simp only [val1_main_v10, val1_main_arg2, val1_main_arg3, val1_main_v17, val1_main_v24, val1_main_v1]
  rfl
theorem val2_main_v1 (V0 : Valuation τ sig (Elt Ideal)) : val2 V0 (no_index (Proc.devRef .tc main_v1)) = Spec.heads (V0 (Proc.devRef .tc main_arg14)) :=
  (val2_keep V0 main_v1 (by decide)).trans (val1_main_v1 V0)
theorem val2_main_v3 (V0 : Valuation τ sig (Elt Ideal)) : val2 V0 (no_index (Proc.devRef .tc main_v3)) = Spec.tails (V0 (Proc.devRef .tc main_arg14)) :=
  (val2_keep V0 main_v3 (by decide)).trans (val1_main_v3 V0)
theorem val2_main_v10 (V0 : Valuation τ sig (Elt Ideal)) : val2 V0 (no_index (Proc.devRef .tc main_v10)) = Spec.relBase (V0 (Proc.devRef .tc main_arg1)) (V0 (Proc.devRef .tc main_arg15)) :=
  (val2_keep V0 main_v10 (by decide)).trans (val1_main_v10 V0)

/-! ## Stages 3 and 4: layer 0's node embedding -/

theorem val3_main_v1 (V0 : Valuation τ sig (Elt Ideal)) : val3 V0 (no_index (Proc.devRef .tc main_v1)) = Spec.heads (V0 (Proc.devRef .tc main_arg14)) :=
  (val3_keep V0 main_v1 (by decide)).trans (val2_main_v1 V0)
theorem val3_main_v3 (V0 : Valuation τ sig (Elt Ideal)) : val3 V0 (no_index (Proc.devRef .tc main_v3)) = Spec.tails (V0 (Proc.devRef .tc main_arg14)) :=
  (val3_keep V0 main_v3 (by decide)).trans (val2_main_v3 V0)
theorem val3_main_v10 (V0 : Valuation τ sig (Elt Ideal)) : val3 V0 (no_index (Proc.devRef .tc main_v10)) = Spec.relBase (V0 (Proc.devRef .tc main_arg1)) (V0 (Proc.devRef .tc main_arg15)) :=
  (val3_keep V0 main_v10 (by decide)).trans (val2_main_v10 V0)
theorem val4_main_v1 (V0 : Valuation τ sig (Elt Ideal)) : val4 V0 (no_index (Proc.devRef .tc main_v1)) = Spec.heads (V0 (Proc.devRef .tc main_arg14)) :=
  (val4_keep V0 main_v1 (by decide)).trans (val3_main_v1 V0)
theorem val4_main_v3 (V0 : Valuation τ sig (Elt Ideal)) : val4 V0 (no_index (Proc.devRef .tc main_v3)) = Spec.tails (V0 (Proc.devRef .tc main_arg14)) :=
  (val4_keep V0 main_v3 (by decide)).trans (val3_main_v3 V0)
theorem val4_main_v10 (V0 : Valuation τ sig (Elt Ideal)) : val4 V0 (no_index (Proc.devRef .tc main_v10)) = Spec.relBase (V0 (Proc.devRef .tc main_arg1)) (V0 (Proc.devRef .tc main_arg15)) :=
  (val4_keep V0 main_v10 (by decide)).trans (val3_main_v10 V0)
set_option maxRecDepth 8192 in
set_option maxHeartbeats 4000000 in
theorem val4_main_v55 (V0 : Valuation τ sig (Elt Ideal)) : val4 V0 (no_index (Proc.devRef .tc main_v55)) = Spec.layer0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg14)) (V0 (Proc.devRef .tc main_arg15)) := by
  unfold val4 val3
  simp only [cC0, cC1]
  after_results_simp
  simp only [val2_main_arg0, val2_main_v38, val2_main_arg4, val2_main_arg5, val2_main_arg6, val2_main_arg7]
  rfl

/-! ## Stage 5: layer 1's gathered rows -/

set_option maxRecDepth 8192 in
set_option maxHeartbeats 4000000 in
theorem val5_main_v62 (V0 : Valuation τ sig (Elt Ideal)) : val5 V0 (no_index (Proc.devRef .tc main_v62)) = Spec.gather32 (Spec.layer0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg14)) (V0 (Proc.devRef .tc main_arg15))) (Spec.heads (V0 (Proc.devRef .tc main_arg14))) := by
  unfold val5
  simp only [cD]
  after_results_simp
  simp only [val4_main_v1, val4_main_v3, val4_main_v55]
  rfl
set_option maxRecDepth 8192 in
set_option maxHeartbeats 4000000 in
theorem val5_main_v69 (V0 : Valuation τ sig (Elt Ideal)) : val5 V0 (no_index (Proc.devRef .tc main_v69)) = Spec.gather32 (Spec.layer0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg14)) (V0 (Proc.devRef .tc main_arg15))) (Spec.tails (V0 (Proc.devRef .tc main_arg14))) := by
  unfold val5
  simp only [cD]
  after_results_simp
  simp only [val4_main_v1, val4_main_v3, val4_main_v55]
  rfl
theorem val5_main_v1 (V0 : Valuation τ sig (Elt Ideal)) : val5 V0 (no_index (Proc.devRef .tc main_v1)) = Spec.heads (V0 (Proc.devRef .tc main_arg14)) :=
  (val5_keep V0 main_v1 (by decide)).trans (val4_main_v1 V0)
theorem val5_main_v10 (V0 : Valuation τ sig (Elt Ideal)) : val5 V0 (no_index (Proc.devRef .tc main_v10)) = Spec.relBase (V0 (Proc.devRef .tc main_arg1)) (V0 (Proc.devRef .tc main_arg15)) :=
  (val5_keep V0 main_v10 (by decide)).trans (val4_main_v10 V0)
theorem val5_main_v55 (V0 : Valuation τ sig (Elt Ideal)) : val5 V0 (no_index (Proc.devRef .tc main_v55)) = Spec.layer0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg14)) (V0 (Proc.devRef .tc main_arg15)) :=
  (val5_keep V0 main_v55 (by decide)).trans (val4_main_v55 V0)

/-! ## Stage 6: layer 1's messages, summed onto the head nodes -/

set_option maxRecDepth 8192 in
set_option maxHeartbeats 4000000 in
theorem val6_main_v83 (V0 : Valuation τ sig (Elt Ideal)) : val6 V0 (no_index (Proc.devRef .tc main_v83)) = Spec.scatter32 (Spec.heads (V0 (Proc.devRef .tc main_arg14))) (Spec.attn32 (Spec.gather32 (Spec.layer0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg14)) (V0 (Proc.devRef .tc main_arg15))) (Spec.heads (V0 (Proc.devRef .tc main_arg14)))) (Spec.gather32 (Spec.layer0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg14)) (V0 (Proc.devRef .tc main_arg15))) (Spec.tails (V0 (Proc.devRef .tc main_arg14)))) (Spec.relBase (V0 (Proc.devRef .tc main_arg1)) (V0 (Proc.devRef .tc main_arg15))) (V0 (Proc.devRef .tc main_arg8)) (V0 (Proc.devRef .tc main_arg9))) := by
  unfold val6
  simp only [cE]
  after_results_simp
  simp only [val5_main_v10, val5_main_arg8, val5_main_arg9, val5_main_v62, val5_main_v69, val5_main_v1]
  rfl
theorem val6_main_v55 (V0 : Valuation τ sig (Elt Ideal)) : val6 V0 (no_index (Proc.devRef .tc main_v55)) = Spec.layer0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg14)) (V0 (Proc.devRef .tc main_arg15)) :=
  (val6_keep V0 main_v55 (by decide)).trans (val5_main_v55 V0)

/-! ## Stage 7: layer 1's node embedding -/

set_option maxRecDepth 8192 in
set_option maxHeartbeats 4000000 in
theorem val7_main_v100 (V0 : Valuation τ sig (Elt Ideal)) : val7 V0 (no_index (Proc.devRef .tc main_v100)) = Spec.layer1 (Spec.layer0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg14)) (V0 (Proc.devRef .tc main_arg15))) (V0 (Proc.devRef .tc main_arg1)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) := by
  unfold val7
  simp only [cF]
  after_results_simp
  simp only [val6_main_v55, val6_main_v83, val6_main_arg10, val6_main_arg11, val6_main_arg12, val6_main_arg13]
  rfl
theorem val7_main_v55 (V0 : Valuation τ sig (Elt Ideal)) : val7 V0 (no_index (Proc.devRef .tc main_v55)) = Spec.layer0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg14)) (V0 (Proc.devRef .tc main_arg15)) :=
  (val7_keep V0 main_v55 (by decide)).trans (val6_main_v55 V0)

/-! ## Stage 8: the concatenation -/

/-- The concatenation of three arrays is a function of each of them. -/
theorem concat3_congr {x x' : FVec Ideal S100000x64 .f32} {y y' : FVec Ideal S100000x32 .f32} {z z' : FVec Ideal S100000x16 .f32}
    (hx : x = x') (hy : y = y') (hz : z = z') (h : Shape.Concatenates [S100000x64, S100000x32, S100000x16] S100000x112 1) :
    concatenate S100000x112 1 [⟨S100000x64, x⟩, ⟨S100000x32, y⟩, ⟨S100000x16, z⟩] h
      = concatenate S100000x112 1 [⟨S100000x64, x'⟩, ⟨S100000x32, y'⟩, ⟨S100000x16, z'⟩] h := by
  subst hx hy hz; rfl

set_option maxRecDepth 8192 in
theorem val8_main_v101 (V0 : Valuation τ sig (Elt Ideal)) : val8 V0 (no_index (Proc.devRef .tc main_v101)) = Spec.network (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) := by
  unfold val8
  simp only [cG, after_cons, after_nil]
  rw [nary_result]
  exact concat3_congr (val7_main_arg0 V0) (val7_main_v55 V0) (val7_main_v100 V0) _

/-! ## The run -/

set_option maxRecDepth 8192 in
/-- On every device, from any memory with zero counters: every weakly fair execution of the reference's @main terminates
    with the result buffer at the network's function of the sixteen arguments' launch contents, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v101) = Spec.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c =>
    ⟨(h c main_v101).trans ((congrFun (after_ops (launchContents m c)) _).trans (val8_main_v101 (launchContents m c))),
     (h c main_arg0).trans ((congrFun (after_ops (launchContents m c)) _).trans (val8_main_arg0 (launchContents m c))),
     (h c main_arg1).trans ((congrFun (after_ops (launchContents m c)) _).trans (val8_main_arg1 (launchContents m c))),
     (h c main_arg2).trans ((congrFun (after_ops (launchContents m c)) _).trans (val8_main_arg2 (launchContents m c))),
     (h c main_arg3).trans ((congrFun (after_ops (launchContents m c)) _).trans (val8_main_arg3 (launchContents m c))),
     (h c main_arg4).trans ((congrFun (after_ops (launchContents m c)) _).trans (val8_main_arg4 (launchContents m c))),
     (h c main_arg5).trans ((congrFun (after_ops (launchContents m c)) _).trans (val8_main_arg5 (launchContents m c))),
     (h c main_arg6).trans ((congrFun (after_ops (launchContents m c)) _).trans (val8_main_arg6 (launchContents m c))),
     (h c main_arg7).trans ((congrFun (after_ops (launchContents m c)) _).trans (val8_main_arg7 (launchContents m c))),
     (h c main_arg8).trans ((congrFun (after_ops (launchContents m c)) _).trans (val8_main_arg8 (launchContents m c))),
     (h c main_arg9).trans ((congrFun (after_ops (launchContents m c)) _).trans (val8_main_arg9 (launchContents m c))),
     (h c main_arg10).trans ((congrFun (after_ops (launchContents m c)) _).trans (val8_main_arg10 (launchContents m c))),
     (h c main_arg11).trans ((congrFun (after_ops (launchContents m c)) _).trans (val8_main_arg11 (launchContents m c))),
     (h c main_arg12).trans ((congrFun (after_ops (launchContents m c)) _).trans (val8_main_arg12 (launchContents m c))),
     (h c main_arg13).trans ((congrFun (after_ops (launchContents m c)) _).trans (val8_main_arg13 (launchContents m c))),
     (h c main_arg14).trans ((congrFun (after_ops (launchContents m c)) _).trans (val8_main_arg14 (launchContents m c))),
     (h c main_arg15).trans ((congrFun (after_ops (launchContents m c)) _).trans (val8_main_arg15 (launchContents m c)))⟩)
    (run_ops m ρ)

end Cert.ReferenceIdeal.RefRun

end
-- ==== Proof.lean ====
/-
  The five claims of the certificate.
  Frames: each program is read as a run over @main — for the two kernel programs, five stretches of host operations around
  four kernel regions, each region's body run once per grid point on whole staging blocks; for the reference, one straight
  line of host operations — and every run ends with the sixteen argument arrays as launched.
  Idealization: the idealized kernel is the kernel's own text read over the extended reals (no operation was rewritten).
  Equivalence at the exact instance: the kernel program's result buffer and the reference's both hold one function of the
  arguments, the two-layer message-passing network: per layer, a tanh-attention message per edge, summed onto the head
  nodes, then a bi-interaction aggregator per node, rectified and divided by the larger of its norm and a small constant;
  the input embedding and the two layers' embeddings are concatenated. The kernel computes each layer map blockwise over
  rows, with its matrix products into a zero accumulator and its sums regrouped; over the extended reals these are the same
  sums (addition is associative and commutative there without any finiteness assumption).
-/
import proofs.«133880_j17265768530448_1_alg».proof.Defs
import proofs.«133880_j17265768530448_1_alg».proof.Proof.Gen.Kernel
import proofs.«133880_j17265768530448_1_alg».proof.Proof.Gen.KernelIdeal
import proofs.«133880_j17265768530448_1_alg».proof.Proof.Gen.ReferenceIdeal
import proofs.«133880_j17265768530448_1_alg».proof.Proof.Gen.Pre_finite_inputs
import proofs.«133880_j17265768530448_1_alg».proof.Proof.K.Run
import proofs.«133880_j17265768530448_1_alg».proof.Proof.KI.Run
import proofs.«133880_j17265768530448_1_alg».proof.Proof.KI.Bridge
import proofs.«133880_j17265768530448_1_alg».proof.Proof.Ref.Run
import Idealize.ShloMosaic.Adequacy
import Idealize.ShloMosaic.Init

noncomputable section

namespace Cert.Proof

open Idealize.ShloMosaic Idealize.SL.Sem

/-- The word-level kernel program runs to the end and leaves its arguments as launched. -/
theorem frame_p : Cert.frame_Kernel := fun m ρ _ =>
  (θ_run Cert.Kernel.defs _ _).mono (fun _ h c => (h c).2) (Cert.Kernel.Fr.run (F := Bits) m ρ)

/-- The idealized kernel program runs to the end and leaves its arguments as launched. -/
theorem frame_pi : Cert.frame_KernelIdeal := fun m ρ _ =>
  (θ_run Cert.KernelIdeal.defs _ _).mono (fun _ h c => (h c).2) (Cert.KernelIdeal.Fr.run (F := Ideal) m ρ)

/-- The idealized reference runs to the end and leaves its arguments as launched. -/
theorem frame_ri : Cert.frame_ReferenceIdeal := fun m ρ _ =>
  (θ_run Cert.ReferenceIdeal.defs _ _).mono (fun _ h c => (h c).2) (Cert.ReferenceIdeal.RefRun.run m ρ)

/-- The ideal pass rewrote no operation. -/
theorem preserves : Cert.preserves_Kernel_KernelIdeal := trivial

/-- Both idealized programs end with the network function of the (agreeing) arguments in their result buffers. -/
theorem algebraic : Cert.algebraic_KernelIdeal_ReferenceIdeal := by
  intro m ρ m' ρ' _ hagree
  refine ⟨fun c => Cert.ReferenceIdeal.Spec.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono (fun _ h c => ⟨(h c).1.trans (Cert.KernelIdeal.Fr.result_eq m ρ c), (h c).2⟩)
      (Cert.KernelIdeal.Fr.run (F := Ideal) m ρ)
  · refine (θ_run Cert.ReferenceIdeal.defs _ _).mono (fun _ h c => ⟨(h c).1.trans ?_, (h c).2⟩)
      (Cert.ReferenceIdeal.RefRun.run m' ρ')
    obtain ⟨e0, e1, e2, e3, e4, e5, e6, e7, e8, e9, e10, e11, e12, e13, e14, e15⟩ := hagree c
    rw [e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
